-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S512x768 : Shape := ⟨2, ![512, 768]⟩
abbrev S768 : Shape := ⟨1, ![768]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_

variable [Facts]

def fn_part6 {F : FTy → Type} [FloatOps F] (main_arg23 : FVec F S512x768 .f32) (main_arg24 : FVec F S768 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512x768 .f32 := Host.absf main_arg23
  let main_cst_40 : FVec F S_ .f32 := constant S_ .f32 0x7F800000#32
  let main_v105 : FVec F S512x768 .f32 := broadcastInDim S512x768 ![] bcast_S_S512x768 main_cst_40
  let main_v106 : IVec S512x768 1 := cmpf .olt main_v104 main_v105
  let main_c_41 : IVec S_ 1 := constantI S_ 1 1#1
  let main_v107 : IVec S_ 1 := (fun x v => Host.reduce IntOp.andi x v reducesTo_S512x768_S_d0_1 h_S_) main_v106 main_c_41
  let main_v108 : IVec S_ 1 := andi main_v103 main_v107
  let main_v109 : FVec F S768 .f32 := Host.absf main_arg24
  let main_cst_42 : FVec F S_ .f32 := constant S_ .f32 0x7F800000#32
  let main_v110 : FVec F S768 .f32 := broadcastInDim S768 ![] bcast_S_S768 main_cst_42
  let main_v111 : IVec S768 1 := cmpf .olt main_v109 main_v110
  let main_c_43 : IVec S_ 1 := constantI S_ 1 1#1
  let main_v112 : IVec S_ 1 := (fun x v => Host.reduce IntOp.andi x v reducesTo_S768_S_d0 h_S_) main_v111 main_c_43
  let main_v113 : IVec S_ 1 := andi main_v108 main_v112
  main_v113

def fn_part5 {F : FTy → Type} [FloatOps F] (main_arg20 : FVec F S256 .f32) (main_arg21 : FVec F S256x512 .f32) (main_arg22 : FVec F S512 .f32) (main_arg23 : FVec F S512x768 .f32) (main_arg24 : FVec F S768 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x512 .f32 := Host.absf main_arg21
  let main_cst_36 : FVec F S_ .f32 := constant S_ .f32 0x7F800000#32
  let main_v95 : FVec F S256x512 .f32 := broadcastInDim S256x512 ![] bcast_S_S256x512 main_cst_36
  let main_v96 : IVec S256x512 1 := cmpf .olt main_v94 main_v95
  let main_c_37 : IVec S_ 1 := constantI S_ 1 1#1
  let main_v97 : IVec S_ 1 := (fun x v => Host.reduce IntOp.andi x v reducesTo_S256x512_S_d0_1 h_S_) main_v96 main_c_37
  let main_v98 : IVec S_ 1 := andi main_v93 main_v97
  let main_v99 : FVec F S512 .f32 := Host.absf main_arg22
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S256 .f32) (main_arg17 : FVec F S256 .f32) (main_arg18 : FVec F S256 .f32) (main_arg19 : FVec F S256x256 .f32) (main_arg20 : FVec F S256 .f32) (main_arg21 : FVec F S256x512 .f32) (main_arg22 : FVec F S512 .f32) (main_arg23 : FVec F S512x768 .f32) (main_arg24 : FVec F S768 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S256x256 .f32) (main_arg14 : FVec F S256 .f32) (main_arg15 : FVec F S256x256 .f32) (main_arg16 : FVec F S256 .f32) (main_arg17 : FVec F S256 .f32) (main_arg18 : FVec F S256 .f32) (main_arg19 : FVec F S256x256 .f32) (main_arg20 : FVec F S256 .f32) (main_arg21 : FVec F S256x512 .f32) (main_arg22 : FVec F S512 .f32) (main_arg23 : FVec F S512x768 .f32) (main_arg24 : FVec F S768 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256x256 .f32) (main_arg16 : FVec F S256 .f32) (main_arg17 : FVec F S256 .f32) (main_arg18 : FVec F S256 .f32) (main_arg19 : FVec F S256x256 .f32) (main_arg20 : FVec F S256 .f32) (main_arg21 : FVec F S256x512 .f32) (main_arg22 : FVec F S512 .f32) (main_arg23 : FVec F S512x768 .f32) (main_arg24 : FVec F S768 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256x256 .f32) (main_arg16 : FVec F S256 .f32) (main_arg17 : FVec F S256 .f32) (main_arg18 : FVec F S256 .f32) (main_arg19 : FVec F S256x256 .f32) (main_arg20 : FVec F S256 .f32) (main_arg21 : FVec F S256x512 .f32) (main_arg22 : FVec F S512 .f32) (main_arg23 : FVec F S512x768 .f32) (main_arg24 : FVec F S768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256x256 .f32) (main_arg16 : FVec F S256 .f32) (main_arg17 : FVec F S256 .f32) (main_arg18 : FVec F S256 .f32) (main_arg19 : FVec F S256x256 .f32) (main_arg20 : FVec F S256 .f32) (main_arg21 : FVec F S256x512 .f32) (main_arg22 : FVec F S512 .f32) (main_arg23 : FVec F S512x768 .f32) (main_arg24 : FVec F S768 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S512x768 : Shape := ⟨2, ![512, 768]⟩
abbrev S768 : Shape := ⟨1, ![768]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S512x256 : Shape := ⟨2, ![512, 256]⟩
abbrev S50000x1 : Shape := ⟨2, ![50000, 1]⟩
abbrev S512x1 : Shape := ⟨2, ![512, 1]⟩
abbrev S512x512 : Shape := ⟨2, ![512, 512]⟩
abbrev S1x512 : Shape := ⟨2, ![1, 512]⟩
abbrev S1x768 : Shape := ⟨2, ![1, 768]⟩

abbrev nBuf : Space → Nat
  | .hbm => 158
  | .vmem => 54
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256, .f32⟩
  | 18 => ⟨S256, .f32⟩
  | 19 => ⟨S256x256, .f32⟩
  | 20 => ⟨S256, .f32⟩
  | 21 => ⟨S256x512, .f32⟩
  | 22 => ⟨S512, .f32⟩
  | 23 => ⟨S512x768, .f32⟩
  | 24 => ⟨S768, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S1x256, .f32⟩
  | 43 => ⟨S50000x256, .f32⟩
  | 44 => ⟨S_, .f32⟩
  | 45 => ⟨S256, .f32⟩
  | 46 => ⟨S1x256, .f32⟩
  | 47 => ⟨S_, .f32⟩
  | 48 => ⟨S1x256, .f32⟩
  | 49 => ⟨S1x256, .f32⟩
  | 50 => ⟨S50000x256, .f32⟩
  | 51 => ⟨S50000x256, .f32⟩
  | 52 => ⟨S50000x256, .f32⟩
  | 53 => ⟨S_, .f32⟩
  | 54 => ⟨S256, .f32⟩
  | 55 => ⟨S1x256, .f32⟩
  | 56 => ⟨S_, .f32⟩
  | 57 => ⟨S1x256, .f32⟩
  | 58 => ⟨S1x256, .f32⟩
  | 59 => ⟨S1x256, .f32⟩
  | 60 => ⟨S1x256, .f32⟩
  | 61 => ⟨S1x256, .f32⟩
  | 62 => ⟨S50000x256, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x256, .f32⟩
  | 72 => ⟨S_, .f32⟩
  | 73 => ⟨S50000x256, .f32⟩
  | 74 => ⟨S800000x1, .i32⟩
  | 75 => ⟨S50000x256, .f32⟩
  | 76 => ⟨S1x256, .f32⟩
  | 77 => ⟨S50000x256, .f32⟩
  | 78 => ⟨S_, .f32⟩
  | 79 => ⟨S256, .f32⟩
  | 80 => ⟨S1x256, .f32⟩
  | 81 => ⟨S_, .f32⟩
  | 82 => ⟨S1x256, .f32⟩
  | 83 => ⟨S1x256, .f32⟩
  | 84 => ⟨S50000x256, .f32⟩
  | 85 => ⟨S50000x256, .f32⟩
  | 86 => ⟨S50000x256, .f32⟩
  | 87 => ⟨S_, .f32⟩
  | 88 => ⟨S256, .f32⟩
  | 89 => ⟨S1x256, .f32⟩
  | 90 => ⟨S_, .f32⟩
  | 91 => ⟨S1x256, .f32⟩
  | 92 => ⟨S1x256, .f32⟩
  | 93 => ⟨S1x256, .f32⟩
  | 94 => ⟨S1x256, .f32⟩
  | 95 => ⟨S1x256, .f32⟩
  | 96 => ⟨S50000x256, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x256, .f32⟩
  | 106 => ⟨S_, .f32⟩
  | 107 => ⟨S50000x256, .f32⟩
  | 108 => ⟨S800000x1, .i32⟩
  | 109 => ⟨S50000x256, .f32⟩
  | 110 => ⟨S1x256, .f32⟩
  | 111 => ⟨S50000x256, .f32⟩
  | 112 => ⟨S_, .f32⟩
  | 113 => ⟨S256, .f32⟩
  | 114 => ⟨S1x256, .f32⟩
  | 115 => ⟨S_, .f32⟩
  | 116 => ⟨S1x256, .f32⟩
  | 117 => ⟨S1x256, .f32⟩
  | 118 => ⟨S50000x256, .f32⟩
  | 119 => ⟨S50000x256, .f32⟩
  | 120 => ⟨S50000x256, .f32⟩
  | 121 => ⟨S_, .f32⟩
  | 122 => ⟨S256, .f32⟩
  | 123 => ⟨S1x256, .f32⟩
  | 124 => ⟨S_, .f32⟩
  | 125 => ⟨S1x256, .f32⟩
  | 126 => ⟨S1x256, .f32⟩
  | 127 => ⟨S1x256, .f32⟩
  | _ => ⟨S50000x128, .f32⟩

abbrev hbmTy0_1 (i : Nat) : BufTy := match i % 128 with
  | 0 => ⟨S1x256, .f32⟩
  | 1 => ⟨S1x256, .f32⟩
  | 2 => ⟨S50000x256, .f32⟩
  | 3 => ⟨S_, .f32⟩
  | 4 => ⟨S512x256, .f32⟩
  | 5 => ⟨S50000x1, .i32⟩
  | 6 => ⟨S512x256, .f32⟩
  | 7 => ⟨S_, .f32⟩
  | 8 => ⟨S50000, .f32⟩
  | 9 => ⟨S_, .f32⟩
  | 10 => ⟨S512, .f32⟩
  | 11 => ⟨S50000x1, .i32⟩
  | 12 => ⟨S512, .f32⟩
  | 13 => ⟨S_, .f32⟩
  | 14 => ⟨S512, .f32⟩
  | 15 => ⟨S512, .f32⟩
  | 16 => ⟨S512x1, .f32⟩
  | 17 => ⟨S512x256, .f32⟩
  | 18 => ⟨S512x256, .f32⟩
  | 19 => ⟨S512x512, .f32⟩
  | 20 => ⟨S1x512, .f32⟩
  | 21 => ⟨S512x512, .f32⟩
  | 22 => ⟨S512x512, .f32⟩
  | 23 => ⟨S_, .f32⟩
  | 24 => ⟨S512x512, .f32⟩
  | 25 => ⟨S512x512, .f32⟩
  | 26 => ⟨S512x768, .f32⟩
  | 27 => ⟨S1x768, .f32⟩
  | 28 => ⟨S512x768, .f32⟩
  | 29 => ⟨S512x768, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S256x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x256, .f32⟩
  | .local _ .vmem, ⟨41, _⟩ => ⟨S1x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S256x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_3 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_5 : Ref sig .tc := ⟨.hbm, 63, rfl⟩
abbrev main_v31 : Ref sig .tc := ⟨.hbm, 64, rfl⟩
abbrev main_v32 : Ref sig .tc := ⟨.hbm, 65, rfl⟩
abbrev main_c_6 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_7 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_8 : Ref sig .tc := ⟨.hbm, 78, rfl⟩
abbrev main_v43 : Ref sig .tc := ⟨.hbm, 79, rfl⟩
abbrev main_v44 : Ref sig .tc := ⟨.hbm, 80, rfl⟩
abbrev main_cst_9 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_10 : Ref sig .tc := ⟨.hbm, 87, rfl⟩
abbrev main_v50 : Ref sig .tc := ⟨.hbm, 88, rfl⟩
abbrev main_v51 : Ref sig .tc := ⟨.hbm, 89, rfl⟩
abbrev main_cst_11 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_12 : Ref sig .tc := ⟨.hbm, 97, rfl⟩
abbrev main_v58 : Ref sig .tc := ⟨.hbm, 98, rfl⟩
abbrev main_v59 : Ref sig .tc := ⟨.hbm, 99, rfl⟩
abbrev main_c_13 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_14 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_15 : Ref sig .tc := ⟨.hbm, 112, rfl⟩
abbrev main_v70 : Ref sig .tc := ⟨.hbm, 113, rfl⟩
abbrev main_v71 : Ref sig .tc := ⟨.hbm, 114, rfl⟩
abbrev main_cst_16 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_17 : Ref sig .tc := ⟨.hbm, 121, rfl⟩
abbrev main_v77 : Ref sig .tc := ⟨.hbm, 122, rfl⟩
abbrev main_v78 : Ref sig .tc := ⟨.hbm, 123, rfl⟩
abbrev main_cst_18 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_19 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_20 : Ref sig .tc := ⟨.hbm, 135, rfl⟩
abbrev main_v88 : Ref sig .tc := ⟨.hbm, 136, rfl⟩
abbrev main_cst_21 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_22 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_call0_cst : Ref sig .tc := ⟨.hbm, 151, rfl⟩
abbrev main_call0_v0 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reducesTo_S50000x256_S256_d0 : S50000x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S_S50000x256 : S_.BroadcastsInDim S50000x256 (![] : Fin 0 → Fin S50000x256.rank)
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S768_S1x768_1 : S768.BroadcastsInDim S1x768 (![1] : Fin 1 → Fin S1x768.rank)
  bcast_S1x768_S512x768_0_1 : S1x768.BroadcastsInDim S512x768 (![0, 1] : Fin 2 → Fin S512x768.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x512_S512x512_1_0_0_1_n_n_wf : DotDims.WF S512x256 S256x512 S512x512 [1] [0] [0] [1] [] []
  dot_S512x512_S512x768_S512x768_1_0_0_1_n_n_wf : DotDims.WF S512x512 S512x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S50000x256.size a
  hwx3_7 : ∀ i : grid3.Coords, EltTy.bits .f32 = 32 ∨ (Rect.block (s := S50000x256) S2000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .f32 = 32 ∨ (Rect.block (s := S50000x256) S2000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x256.size a ≤ S256x256.size a
  hwx5_5 : ∀ i : grid5.Coords, EltTy.bits .f32 = 32 ∨ (Rect.block (s := S256x256) S256x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x256.size a ≤ S50000x256.size a
  hwx5_7 : ∀ i : grid5.Coords, EltTy.bits .f32 = 32 ∨ (Rect.block (s := S50000x256) S2000x256.size (cc5_transform_7 i) (hinb5_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v30) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v42) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v57) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S2000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v69) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg19) S256x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v83) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v84) S2000x256.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S512x768 : Shape := ⟨2, ![512, 768]⟩
abbrev S768 : Shape := ⟨1, ![768]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S512x256 : Shape := ⟨2, ![512, 256]⟩
abbrev S50000x1 : Shape := ⟨2, ![50000, 1]⟩
abbrev S512x1 : Shape := ⟨2, ![512, 1]⟩
abbrev S512x512 : Shape := ⟨2, ![512, 512]⟩
abbrev S1x512 : Shape := ⟨2, ![1, 512]⟩
abbrev S1x768 : Shape := ⟨2, ![1, 768]⟩

abbrev nBuf : Space → Nat
  | .hbm => 237
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256, .f32⟩
  | 18 => ⟨S256, .f32⟩
  | 19 => ⟨S256x256, .f32⟩
  | 20 => ⟨S256, .f32⟩
  | 21 => ⟨S256x512, .f32⟩
  | 22 => ⟨S512, .f32⟩
  | 23 => ⟨S512x768, .f32⟩
  | 24 => ⟨S768, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x128, .f32⟩
  | 43 => ⟨S50000x256, .f32⟩
  | 44 => ⟨S1x256, .f32⟩
  | 45 => ⟨S50000x256, .f32⟩
  | 46 => ⟨S50000x256, .f32⟩
  | 47 => ⟨S_, .f32⟩
  | 48 => ⟨S256, .f32⟩
  | 49 => ⟨S_, .f32⟩
  | 50 => ⟨S256, .f32⟩
  | 51 => ⟨S256, .f32⟩
  | 52 => ⟨S1x256, .f32⟩
  | 53 => ⟨S50000x256, .f32⟩
  | 54 => ⟨S50000x256, .f32⟩
  | 55 => ⟨S50000x256, .f32⟩
  | 56 => ⟨S_, .f32⟩
  | 57 => ⟨S256, .f32⟩
  | 58 => ⟨S_, .f32⟩
  | 59 => ⟨S256, .f32⟩
  | 60 => ⟨S256, .f32⟩
  | 61 => ⟨S1x256, .f32⟩
  | 62 => ⟨S50000x256, .f32⟩
  | 63 => ⟨S50000x256, .f32⟩
  | 64 => ⟨S_, .f32⟩
  | 65 => ⟨S256, .f32⟩
  | 66 => ⟨S256, .f32⟩
  | 67 => ⟨S256, .f32⟩
  | 68 => ⟨S1x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S1x800000, .i32⟩
  | 88 => ⟨S800000, .i32⟩
  | 89 => ⟨S1x800000, .i32⟩
  | 90 => ⟨S800000, .i32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x256, .f32⟩
  | 100 => ⟨S_, .f32⟩
  | 101 => ⟨S50000x256, .f32⟩
  | 102 => ⟨S800000x1, .i32⟩
  | 103 => ⟨S50000x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S_, .f32⟩
  | 110 => ⟨S256, .f32⟩
  | 111 => ⟨S_, .f32⟩
  | 112 => ⟨S256, .f32⟩
  | 113 => ⟨S256, .f32⟩
  | 114 => ⟨S1x256, .f32⟩
  | 115 => ⟨S50000x256, .f32⟩
  | 116 => ⟨S50000x256, .f32⟩
  | 117 => ⟨S50000x256, .f32⟩
  | 118 => ⟨S_, .f32⟩
  | 119 => ⟨S256, .f32⟩
  | 120 => ⟨S_, .f32⟩
  | 121 => ⟨S256, .f32⟩
  | 122 => ⟨S256, .f32⟩
  | 123 => ⟨S1x256, .f32⟩
  | 124 => ⟨S50000x256, .f32⟩
  | 125 => ⟨S50000x256, .f32⟩
  | 126 => ⟨S_, .f32⟩
  | 127 => ⟨S256, .f32⟩
  | _ => ⟨S50000x128, .f32⟩

abbrev hbmTy0_1 (i : Nat) : BufTy := match i % 128 with
  | 0 => ⟨S256, .f32⟩
  | 1 => ⟨S256, .f32⟩
  | 2 => ⟨S1x256, .f32⟩
  | 3 => ⟨S50000x256, .f32⟩
  | 4 => ⟨S50000x256, .f32⟩
  | 5 => ⟨S1x256, .f32⟩
  | 6 => ⟨S50000x256, .f32⟩
  | 7 => ⟨S50000x256, .f32⟩
  | 8 => ⟨S1x256, .f32⟩
  | 9 => ⟨S50000x256, .f32⟩
  | 10 => ⟨S50000x256, .f32⟩
  | 11 => ⟨S_, .f32⟩
  | 12 => ⟨S50000x256, .f32⟩
  | 13 => ⟨S50000x256, .f32⟩
  | 14 => ⟨S50000x256, .f32⟩
  | 15 => ⟨S1x256, .f32⟩
  | 16 => ⟨S50000x256, .f32⟩
  | 17 => ⟨S50000x256, .f32⟩
  | 18 => ⟨S50000x256, .f32⟩
  | 19 => ⟨S_, .f32⟩
  | 20 => ⟨S50000x256, .f32⟩
  | 21 => ⟨S50000x256, .f32⟩
  | 22 => ⟨S1x800000, .i32⟩
  | 23 => ⟨S800000, .i32⟩
  | 24 => ⟨S1x800000, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x256, .f32⟩
  | 35 => ⟨S_, .f32⟩
  | 36 => ⟨S50000x256, .f32⟩
  | 37 => ⟨S800000x1, .i32⟩
  | 38 => ⟨S50000x256, .f32⟩
  | 39 => ⟨S50000x256, .f32⟩
  | 40 => ⟨S50000x256, .f32⟩
  | 41 => ⟨S1x256, .f32⟩
  | 42 => ⟨S50000x256, .f32⟩
  | 43 => ⟨S50000x256, .f32⟩
  | 44 => ⟨S_, .f32⟩
  | 45 => ⟨S256, .f32⟩
  | 46 => ⟨S_, .f32⟩
  | 47 => ⟨S256, .f32⟩
  | 48 => ⟨S256, .f32⟩
  | 49 => ⟨S1x256, .f32⟩
  | 50 => ⟨S50000x256, .f32⟩
  | 51 => ⟨S50000x256, .f32⟩
  | 52 => ⟨S50000x256, .f32⟩
  | 53 => ⟨S_, .f32⟩
  | 54 => ⟨S256, .f32⟩
  | 55 => ⟨S_, .f32⟩
  | 56 => ⟨S256, .f32⟩
  | 57 => ⟨S256, .f32⟩
  | 58 => ⟨S1x256, .f32⟩
  | 59 => ⟨S50000x256, .f32⟩
  | 60 => ⟨S50000x256, .f32⟩
  | 61 => ⟨S_, .f32⟩
  | 62 => ⟨S256, .f32⟩
  | 63 => ⟨S256, .f32⟩
  | 64 => ⟨S256, .f32⟩
  | 65 => ⟨S1x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S50000x256, .f32⟩
  | 82 => ⟨S_, .f32⟩
  | 83 => ⟨S512x256, .f32⟩
  | 84 => ⟨S50000x1, .i32⟩
  | 85 => ⟨S512x256, .f32⟩
  | 86 => ⟨S_, .f32⟩
  | 87 => ⟨S50000, .f32⟩
  | 88 => ⟨S_, .f32⟩
  | 89 => ⟨S512, .f32⟩
  | 90 => ⟨S50000x1, .i32⟩
  | 91 => ⟨S512, .f32⟩
  | 92 => ⟨S_, .f32⟩
  | 93 => ⟨S512, .f32⟩
  | 94 => ⟨S512, .f32⟩
  | 95 => ⟨S512x1, .f32⟩
  | 96 => ⟨S512x256, .f32⟩
  | 97 => ⟨S512x256, .f32⟩
  | 98 => ⟨S512x512, .f32⟩
  | 99 => ⟨S1x512, .f32⟩
  | 100 => ⟨S512x512, .f32⟩
  | 101 => ⟨S512x512, .f32⟩
  | 102 => ⟨S_, .f32⟩
  | 103 => ⟨S512x512, .f32⟩
  | 104 => ⟨S512x512, .f32⟩
  | 105 => ⟨S512x768, .f32⟩
  | 106 => ⟨S1x768, .f32⟩
  | 107 => ⟨S512x768, .f32⟩
  | 108 => ⟨S512x768, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_call0_cst : Ref sig .tc := ⟨.hbm, 77, rfl⟩
abbrev main_call0_v0 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call1_cst : Ref sig .tc := ⟨.hbm, 84, rfl⟩
abbrev main_call1_v0 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_6 : Ref sig .tc := ⟨.hbm, 91, rfl⟩
abbrev main_v54 : Ref sig .tc := ⟨.hbm, 92, rfl⟩
abbrev main_v55 : Ref sig .tc := ⟨.hbm, 93, rfl⟩
abbrev main_c_7 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_8 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_9 : Ref sig .tc := ⟨.hbm, 109, rfl⟩
abbrev main_v69 : Ref sig .tc := ⟨.hbm, 110, rfl⟩
abbrev main_cst_10 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_11 : Ref sig .tc := ⟨.hbm, 118, rfl⟩
abbrev main_v76 : Ref sig .tc := ⟨.hbm, 119, rfl⟩
abbrev main_cst_12 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_13 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_call2_cst : Ref sig .tc := ⟨.hbm, 139, rfl⟩
abbrev main_call2_v0 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_call3_cst : Ref sig .tc := ⟨.hbm, 147, rfl⟩
abbrev main_call3_v0 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_14 : Ref sig .tc := ⟨.hbm, 154, rfl⟩
abbrev main_v105 : Ref sig .tc := ⟨.hbm, 155, rfl⟩
abbrev main_v106 : Ref sig .tc := ⟨.hbm, 156, rfl⟩
abbrev main_c_15 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_16 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_17 : Ref sig .tc := ⟨.hbm, 172, rfl⟩
abbrev main_v120 : Ref sig .tc := ⟨.hbm, 173, rfl⟩
abbrev main_cst_18 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_19 : Ref sig .tc := ⟨.hbm, 181, rfl⟩
abbrev main_v127 : Ref sig .tc := ⟨.hbm, 182, rfl⟩
abbrev main_cst_20 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_21 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_call4_cst : Ref sig .tc := ⟨.hbm, 202, rfl⟩
abbrev main_call4_v0 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_cst_22 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_cst_23 : Ref sig .tc := ⟨.hbm, 214, rfl⟩
abbrev main_v154 : Ref sig .tc := ⟨.hbm, 215, rfl⟩
abbrev main_cst_24 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_cst_25 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_call5_cst : Ref sig .tc := ⟨.hbm, 230, rfl⟩
abbrev main_call5_v0 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S50000x256 : S_.BroadcastsInDim S50000x256 (![] : Fin 0 → Fin S50000x256.rank)
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S768_S1x768_1 : S768.BroadcastsInDim S1x768 (![1] : Fin 1 → Fin S1x768.rank)
  bcast_S1x768_S512x768_0_1 : S1x768.BroadcastsInDim S512x768 (![0, 1] : Fin 2 → Fin S512x768.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x512_S512x512_1_0_0_1_n_n_wf : DotDims.WF S512x256 S256x512 S512x512 [1] [0] [0] [1] [] []
  dot_S512x512_S512x768_S512x768_1_0_0_1_n_n_wf : DotDims.WF S512x512 S512x768 S512x768 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf

class Facts : Prop extends Facts₀ where

variable [Facts]
-- ==== Proof.KernelRun.lean ====
/-
  The idealized kernel's run with its result named.

  The program is fifteen segments: stretches of host operations and six pallas_call regions in turn.  Every weakly fair
  execution runs them in order, and the contents of the unscoped buffers after the last segment are the fold of the
  segments' effects from the launch memory: a stretch rewrites the buffers its operations write, a region replaces its
  output array by what its write-backs leave and changes nothing else.  Read at the argument arrays that final
  fold gives the frame; read at the result's buffer as well, the same run says what the program returns.
-/
import proofs.«127452_j31147102830955_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the final fold's
    contents and the argument arrays as launched. -/
theorem run_value : θ_run defs (onTc (τ := τ) (main (F := F))) ⟨m, fun _ => 0, ρ⟩ (fun r => ∀ c : Dev nD,
      r.2.mem ((c.tc : Thread nD τ).loc main_v105) = W15 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v105 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c),
       (h c _ (mem_uc main_arg24 (by decide))).trans (W15_main_arg24 m ρ c)⟩)

end Cert.KernelIdeal.RunValue

end
-- ==== Proof.LibRegionOp.lean ====
/-
  General lemmas about buffer contents: a pallas_call region with ONE output window seen as one host operation.
  Nothing here mentions a particular program.
-/
import Idealize.ShloMosaic.Lib.Pipeline.FrameSuffix
import Idealize.ShloMosaic.Lib.StableHlo.Run

noncomputable section

namespace Cert.LibRegionOp

open Idealize.ShloMosaic Idealize.ShloMosaic.TcCoe Idealize.SL.Sem

/-- A pipeline of any number of windows, of which window `o` is the only output, leaves the contents that an operation
    writing only `o`'s array would leave: every input array as entered (`hin`), the output array at the operation's
    result (`hout`), and every other buffer untouched (`Pipeline.withArrays` is the contents with the pipeline's arrays
    replaced). -/
theorem withArrays_eq_result {nD : Nat} {τ : Topo} {sig : RefSig} {Val : EltTy → Type} {gr W : Nat}
    (win : Fin W → Pipeline.WinSpec sig gr) (hinj : Function.Injective (Pipeline.arrRef win)) (c : Dev nD)
    (Vin : Valuation τ sig Val) (A : (w : Fin W) → Buf Val ((win w).arr.view.loc (c.tc : Thread nD τ)))
    (op : HloOp τ sig Val) (o : Fin W) (hw : op.writes = {Proc.devRef .tc (Pipeline.arrRef win o)})
    (hin : ∀ w, w ≠ o → A w = Vin (Proc.devRef .tc (Pipeline.arrRef win w)))
    (hout : A o = op.result Vin (Proc.devRef .tc (Pipeline.arrRef win o))) :
    Pipeline.withArrays win c Vin A = op.result Vin := by
  funext b
  by_cases h : ∃ w, Proc.devRef .tc (Pipeline.arrRef win w) = b
  · obtain ⟨w, rfl⟩ := h
    rw [Pipeline.withArrays_arr win hinj]
    by_cases hwo : w = o
    · subst hwo; exact hout
    · rw [HloOp.result_of_not_mem _ _ (by
        rw [hw, Finset.mem_singleton]
        exact fun e => hwo (hinj (Proc.devRef_injective _ e)))]
      exact hin w hwo
  · unfold Pipeline.withArrays
    rw [dif_neg h, HloOp.result_of_not_mem _ _ (by rw [hw, Finset.mem_singleton]; exact fun e => h ⟨o, e.symm⟩)]

/-- Contents after two stretches of operations run one after the other are the contents after their concatenation. -/
theorem after_append {τ : Topo} {sig : RefSig} {Val : EltTy → Type} (l₁ l₂ : List (HloOp τ sig Val)) (V : Valuation τ sig Val) :
    StableHlo.after l₂ (StableHlo.after l₁ V) = StableHlo.after (l₁ ++ l₂) V := by
  induction l₁ generalizing V with
  | nil => rfl
  | cons op l ih => simp only [List.cons_append, StableHlo.after_cons, ih]

end Cert.LibRegionOp

end
-- ==== Proof.Spec.lean ====
/-
  The network both programs compute, written index by index on the extended reals.

  One layer takes node features `h` and the neighbour sums `agg` (one row per node), forms
  `z = (h + agg) · Wa + ba`, normalises every column of `z` by that column's mean and variance over all nodes,
  scales and shifts it, clips it at zero, multiplies by `Wb` and adds `bb`; the layers differ in what follows
  (a clip at zero, a hyperbolic tangent and a clip, or a hyperbolic tangent alone).  The per-column vectors arrive
  as one-row matrices.  No operation is reordered or regrouped here: each formula is the order in which both
  programs apply the operations, so neither program needs more than a reading of its arrays at an index.
-/
import Idealize.ShloMosaic.PureOps.Ideal
import Idealize.ShloMosaic.Lib.ValueIdx

noncomputable section

namespace Cert.Spec

open Idealize.ShloMosaic Idealize.ShloMosaic.ValueIdx

/-- The variance's guard `1e-5`, as the single-precision word both programs carry. -/
abbrev eps : EReal := Ideal.ofBits .f32 0x3727C5AC#32
/-- The zero both programs clip at. -/
abbrev zero : EReal := Ideal.ofBits .f32 0x00000000#32

/-- `(h + agg) · w + b` for 128 input features: entry `(r, j)` is `∑ₖ (h r k + agg r k) · w k j + b j`. -/
def lin128 (h agg : (⟨2, ![50000, 128]⟩ : Shape).Idx → EReal) (w : (⟨2, ![128, 256]⟩ : Shape).Idx → EReal)
    (b : (⟨2, ![1, 256]⟩ : Shape).Idx → EReal) : (⟨2, ![50000, 256]⟩ : Shape).Idx → EReal :=
  fun i => (∑ k : Fin 128, (h (ix2 (i 0) k) + agg (ix2 (i 0) k)) * w (ix2 k (i 1))) + b (ix2 (0 : Fin 1) (i 1))

/-- The same for 256 input features. -/
def lin256 (h agg : (⟨2, ![50000, 256]⟩ : Shape).Idx → EReal) (w : (⟨2, ![256, 256]⟩ : Shape).Idx → EReal)
    (b : (⟨2, ![1, 256]⟩ : Shape).Idx → EReal) : (⟨2, ![50000, 256]⟩ : Shape).Idx → EReal :=
  fun i => (∑ k : Fin 256, (h (ix2 (i 0) k) + agg (ix2 (i 0) k)) * w (ix2 k (i 1))) + b (ix2 (0 : Fin 1) (i 1))

/-- One normalised, scaled, shifted and clipped entry: `max (((z - mean) · rsqrt (var + eps)) · g + be) 0`. -/
def act (z mean var g be : EReal) : EReal :=
  max (((z - mean) * Ideal.rsqrt (var + eps)) * g + be) zero

/-- The second product of a layer before what follows it: entry `(r, j)` is
    `∑ₖ act (z r k) (mean k) (var k) (g k) (be k) · wb k j + bb j`. -/
def bnPre (z : (⟨2, ![50000, 256]⟩ : Shape).Idx → EReal) (mean var g be : (⟨2, ![1, 256]⟩ : Shape).Idx → EReal)
    (wb : (⟨2, ![256, 256]⟩ : Shape).Idx → EReal) (bb : (⟨2, ![1, 256]⟩ : Shape).Idx → EReal) :
    (⟨2, ![50000, 256]⟩ : Shape).Idx → EReal :=
  fun i => (∑ k : Fin 256, act (z (ix2 (i 0) k)) (mean (ix2 (0 : Fin 1) k)) (var (ix2 (0 : Fin 1) k)) (g (ix2 (0 : Fin 1) k))
      (be (ix2 (0 : Fin 1) k)) * wb (ix2 k (i 1))) + bb (ix2 (0 : Fin 1) (i 1))

/-- The first layer's output: clipped at zero. -/
def bnRelu (z : (⟨2, ![50000, 256]⟩ : Shape).Idx → EReal) (mean var g be : (⟨2, ![1, 256]⟩ : Shape).Idx → EReal)
    (wb : (⟨2, ![256, 256]⟩ : Shape).Idx → EReal) (bb : (⟨2, ![1, 256]⟩ : Shape).Idx → EReal) :
    (⟨2, ![50000, 256]⟩ : Shape).Idx → EReal :=
  fun i => max (bnPre z mean var g be wb bb i) zero

/-- The second layer's output: the hyperbolic tangent, then clipped at zero. -/
def bnTanhRelu (z : (⟨2, ![50000, 256]⟩ : Shape).Idx → EReal) (mean var g be : (⟨2, ![1, 256]⟩ : Shape).Idx → EReal)
    (wb : (⟨2, ![256, 256]⟩ : Shape).Idx → EReal) (bb : (⟨2, ![1, 256]⟩ : Shape).Idx → EReal) :
    (⟨2, ![50000, 256]⟩ : Shape).Idx → EReal :=
  fun i => max (Ideal.tanh (bnPre z mean var g be wb bb i)) zero

/-- The third layer's output: the hyperbolic tangent alone. -/
def bnTanh (z : (⟨2, ![50000, 256]⟩ : Shape).Idx → EReal) (mean var g be : (⟨2, ![1, 256]⟩ : Shape).Idx → EReal)
    (wb : (⟨2, ![256, 256]⟩ : Shape).Idx → EReal) (bb : (⟨2, ![1, 256]⟩ : Shape).Idx → EReal) :
    (⟨2, ![50000, 256]⟩ : Shape).Idx → EReal :=
  fun i => Ideal.tanh (bnPre z mean var g be wb bb i)

end Cert.Spec

end
-- ==== Proof.RegionOps.lean ====
/-
  Each pallas_call region as ONE operation on the buffer contents: it writes the region's output array with the
  specification's function of the region's input arrays and touches nothing else.  The host stretches in order, with
  these operations in the regions' places, are the whole program as one line of operations (`allOps`).
-/
import proofs.«127452_j31147102830955_1_alg».proof.Proof.Gen.KernelIdeal.Launch
import proofs.«127452_j31147102830955_1_alg».proof.Proof.Spec
import Idealize.ShloMosaic.Lib.StableHlo.Run

set_option maxRecDepth 16384

noncomputable section

namespace Cert.KernelIdeal.Flat

open Cert.KernelIdeal Cert.KernelIdeal.Gen
open Idealize.ShloMosaic Idealize.ShloMosaic.TcCoe Idealize.SL.Sem

/-- Region 0 as one operation: it writes `main_v15` from its four input arrays. -/
def rop0 : HloOp τ sig (Elt Ideal) :=
  StableHlo.quaternary main_arg0 main_v13 main_arg3 main_v14 main_v15 ((fun x a w b => Cert.Spec.lin128 x a w b) : (⟨S50000x128, .f32⟩ : BufTy).Contents (Elt Ideal) → (⟨S50000x128, .f32⟩ : BufTy).Contents (Elt Ideal) → (⟨S128x256, .f32⟩ : BufTy).Contents (Elt Ideal) → (⟨S1x256, .f32⟩ : BufTy).Contents (Elt Ideal) → (⟨S50000x256, .f32⟩ : BufTy).Contents (Elt Ideal))
theorem rop0_writes : (rop0).writes = {Proc.devRef (τ := τ) .tc main_v15} := rfl
theorem rop0_result (G : Valuation τ sig (Elt Ideal)) :
    (rop0).result G (Proc.devRef .tc main_v15) = Cert.Spec.lin128 (G (Proc.devRef .tc main_arg0)) (G (Proc.devRef .tc main_v13)) (G (Proc.devRef .tc main_arg3)) (G (Proc.devRef .tc main_v14)) := by
  unfold rop0; rw [StableHlo.quaternary_result]

/-- Region 1 as one operation: it writes `main_v30` from its seven input arrays. -/
def rop1 : HloOp τ sig (Elt Ideal) :=
  StableHlo.nary ![main_v15, main_v19, main_v26, main_v27, main_v28, main_arg7, main_v29] main_v30 (fun u => Cert.Spec.bnRelu (u 0) (u 1) (u 2) (u 3) (u 4) (u 5) (u 6))
theorem rop1_writes : (rop1).writes = {Proc.devRef (τ := τ) .tc main_v30} := rfl
theorem rop1_result (G : Valuation τ sig (Elt Ideal)) :
    (rop1).result G (Proc.devRef .tc main_v30) = Cert.Spec.bnRelu (G (Proc.devRef .tc main_v15)) (G (Proc.devRef .tc main_v19)) (G (Proc.devRef .tc main_v26)) (G (Proc.devRef .tc main_v27)) (G (Proc.devRef .tc main_v28)) (G (Proc.devRef .tc main_arg7)) (G (Proc.devRef .tc main_v29)) := by
  unfold rop1; rw [StableHlo.nary_result]; rfl

/-- Region 2 as one operation: it writes `main_v42` from its four input arrays. -/
def rop2 : HloOp τ sig (Elt Ideal) :=
  StableHlo.quaternary main_v30 main_v40 main_arg9 main_v41 main_v42 ((fun x a w b => Cert.Spec.lin256 x a w b) : (⟨S50000x256, .f32⟩ : BufTy).Contents (Elt Ideal) → (⟨S50000x256, .f32⟩ : BufTy).Contents (Elt Ideal) → (⟨S256x256, .f32⟩ : BufTy).Contents (Elt Ideal) → (⟨S1x256, .f32⟩ : BufTy).Contents (Elt Ideal) → (⟨S50000x256, .f32⟩ : BufTy).Contents (Elt Ideal))
theorem rop2_writes : (rop2).writes = {Proc.devRef (τ := τ) .tc main_v42} := rfl
theorem rop2_result (G : Valuation τ sig (Elt Ideal)) :
    (rop2).result G (Proc.devRef .tc main_v42) = Cert.Spec.lin256 (G (Proc.devRef .tc main_v30)) (G (Proc.devRef .tc main_v40)) (G (Proc.devRef .tc main_arg9)) (G (Proc.devRef .tc main_v41)) := by
  unfold rop2; rw [StableHlo.quaternary_result]

/-- Region 3 as one operation: it writes `main_v57` from its seven input arrays. -/
def rop3 : HloOp τ sig (Elt Ideal) :=
  StableHlo.nary ![main_v42, main_v46, main_v53, main_v54, main_v55, main_arg13, main_v56] main_v57 (fun u => Cert.Spec.bnTanhRelu (u 0) (u 1) (u 2) (u 3) (u 4) (u 5) (u 6))
theorem rop3_writes : (rop3).writes = {Proc.devRef (τ := τ) .tc main_v57} := rfl
theorem rop3_result (G : Valuation τ sig (Elt Ideal)) :
    (rop3).result G (Proc.devRef .tc main_v57) = Cert.Spec.bnTanhRelu (G (Proc.devRef .tc main_v42)) (G (Proc.devRef .tc main_v46)) (G (Proc.devRef .tc main_v53)) (G (Proc.devRef .tc main_v54)) (G (Proc.devRef .tc main_v55)) (G (Proc.devRef .tc main_arg13)) (G (Proc.devRef .tc main_v56)) := by
  unfold rop3; rw [StableHlo.nary_result]; rfl

/-- Region 4 as one operation: it writes `main_v69` from its four input arrays. -/
def rop4 : HloOp τ sig (Elt Ideal) :=
  StableHlo.quaternary main_v57 main_v67 main_arg15 main_v68 main_v69 ((fun x a w b => Cert.Spec.lin256 x a w b) : (⟨S50000x256, .f32⟩ : BufTy).Contents (Elt Ideal) → (⟨S50000x256, .f32⟩ : BufTy).Contents (Elt Ideal) → (⟨S256x256, .f32⟩ : BufTy).Contents (Elt Ideal) → (⟨S1x256, .f32⟩ : BufTy).Contents (Elt Ideal) → (⟨S50000x256, .f32⟩ : BufTy).Contents (Elt Ideal))
theorem rop4_writes : (rop4).writes = {Proc.devRef (τ := τ) .tc main_v69} := rfl
theorem rop4_result (G : Valuation τ sig (Elt Ideal)) :
    (rop4).result G (Proc.devRef .tc main_v69) = Cert.Spec.lin256 (G (Proc.devRef .tc main_v57)) (G (Proc.devRef .tc main_v67)) (G (Proc.devRef .tc main_arg15)) (G (Proc.devRef .tc main_v68)) := by
  unfold rop4; rw [StableHlo.quaternary_result]

/-- Region 5 as one operation: it writes `main_v84` from its seven input arrays. -/
def rop5 : HloOp τ sig (Elt Ideal) :=
  StableHlo.nary ![main_v69, main_v73, main_v80, main_v81, main_v82, main_arg19, main_v83] main_v84 (fun u => Cert.Spec.bnTanh (u 0) (u 1) (u 2) (u 3) (u 4) (u 5) (u 6))
theorem rop5_writes : (rop5).writes = {Proc.devRef (τ := τ) .tc main_v84} := rfl
theorem rop5_result (G : Valuation τ sig (Elt Ideal)) :
    (rop5).result G (Proc.devRef .tc main_v84) = Cert.Spec.bnTanh (G (Proc.devRef .tc main_v69)) (G (Proc.devRef .tc main_v73)) (G (Proc.devRef .tc main_v80)) (G (Proc.devRef .tc main_v81)) (G (Proc.devRef .tc main_v82)) (G (Proc.devRef .tc main_arg19)) (G (Proc.devRef .tc main_v83)) := by
  unfold rop5; rw [StableHlo.nary_result]; rfl

theorem rop0_result_ne (G : Valuation τ sig (Elt Ideal)) {r : Ref sig .tc} (h : r ≠ main_v15) :
    (rop0).result G (Proc.devRef .tc r) = G (Proc.devRef .tc r) :=
  HloOp.result_of_not_mem _ _ (by rw [rop0_writes, Finset.mem_singleton]; exact StableHlo.devRef_ne_of_ne h)
theorem rop0_result' (G : Valuation τ sig (Elt Ideal)) :
    (rop0).result G (no_index (Proc.devRef .tc main_v15)) = Cert.Spec.lin128 (G (Proc.devRef .tc main_arg0)) (G (Proc.devRef .tc main_v13)) (G (Proc.devRef .tc main_arg3)) (G (Proc.devRef .tc main_v14)) := rop0_result G
theorem rop0_result_ne' (G : Valuation τ sig (Elt Ideal)) {r : Ref sig .tc} (h : r ≠ main_v15) :
    (rop0).result G (no_index (Proc.devRef .tc r)) = G (Proc.devRef .tc r) := rop0_result_ne G h
theorem rop1_result_ne (G : Valuation τ sig (Elt Ideal)) {r : Ref sig .tc} (h : r ≠ main_v30) :
    (rop1).result G (Proc.devRef .tc r) = G (Proc.devRef .tc r) :=
  HloOp.result_of_not_mem _ _ (by rw [rop1_writes, Finset.mem_singleton]; exact StableHlo.devRef_ne_of_ne h)
theorem rop1_result' (G : Valuation τ sig (Elt Ideal)) :
    (rop1).result G (no_index (Proc.devRef .tc main_v30)) = Cert.Spec.bnRelu (G (Proc.devRef .tc main_v15)) (G (Proc.devRef .tc main_v19)) (G (Proc.devRef .tc main_v26)) (G (Proc.devRef .tc main_v27)) (G (Proc.devRef .tc main_v28)) (G (Proc.devRef .tc main_arg7)) (G (Proc.devRef .tc main_v29)) := rop1_result G
theorem rop1_result_ne' (G : Valuation τ sig (Elt Ideal)) {r : Ref sig .tc} (h : r ≠ main_v30) :
    (rop1).result G (no_index (Proc.devRef .tc r)) = G (Proc.devRef .tc r) := rop1_result_ne G h
theorem rop2_result_ne (G : Valuation τ sig (Elt Ideal)) {r : Ref sig .tc} (h : r ≠ main_v42) :
    (rop2).result G (Proc.devRef .tc r) = G (Proc.devRef .tc r) :=
  HloOp.result_of_not_mem _ _ (by rw [rop2_writes, Finset.mem_singleton]; exact StableHlo.devRef_ne_of_ne h)
theorem rop2_result' (G : Valuation τ sig (Elt Ideal)) :
    (rop2).result G (no_index (Proc.devRef .tc main_v42)) = Cert.Spec.lin256 (G (Proc.devRef .tc main_v30)) (G (Proc.devRef .tc main_v40)) (G (Proc.devRef .tc main_arg9)) (G (Proc.devRef .tc main_v41)) := rop2_result G
theorem rop2_result_ne' (G : Valuation τ sig (Elt Ideal)) {r : Ref sig .tc} (h : r ≠ main_v42) :
    (rop2).result G (no_index (Proc.devRef .tc r)) = G (Proc.devRef .tc r) := rop2_result_ne G h
theorem rop3_result_ne (G : Valuation τ sig (Elt Ideal)) {r : Ref sig .tc} (h : r ≠ main_v57) :
    (rop3).result G (Proc.devRef .tc r) = G (Proc.devRef .tc r) :=
  HloOp.result_of_not_mem _ _ (by rw [rop3_writes, Finset.mem_singleton]; exact StableHlo.devRef_ne_of_ne h)
theorem rop3_result' (G : Valuation τ sig (Elt Ideal)) :
    (rop3).result G (no_index (Proc.devRef .tc main_v57)) = Cert.Spec.bnTanhRelu (G (Proc.devRef .tc main_v42)) (G (Proc.devRef .tc main_v46)) (G (Proc.devRef .tc main_v53)) (G (Proc.devRef .tc main_v54)) (G (Proc.devRef .tc main_v55)) (G (Proc.devRef .tc main_arg13)) (G (Proc.devRef .tc main_v56)) := rop3_result G
theorem rop3_result_ne' (G : Valuation τ sig (Elt Ideal)) {r : Ref sig .tc} (h : r ≠ main_v57) :
    (rop3).result G (no_index (Proc.devRef .tc r)) = G (Proc.devRef .tc r) := rop3_result_ne G h
theorem rop4_result_ne (G : Valuation τ sig (Elt Ideal)) {r : Ref sig .tc} (h : r ≠ main_v69) :
    (rop4).result G (Proc.devRef .tc r) = G (Proc.devRef .tc r) :=
  HloOp.result_of_not_mem _ _ (by rw [rop4_writes, Finset.mem_singleton]; exact StableHlo.devRef_ne_of_ne h)
theorem rop4_result' (G : Valuation τ sig (Elt Ideal)) :
    (rop4).result G (no_index (Proc.devRef .tc main_v69)) = Cert.Spec.lin256 (G (Proc.devRef .tc main_v57)) (G (Proc.devRef .tc main_v67)) (G (Proc.devRef .tc main_arg15)) (G (Proc.devRef .tc main_v68)) := rop4_result G
theorem rop4_result_ne' (G : Valuation τ sig (Elt Ideal)) {r : Ref sig .tc} (h : r ≠ main_v69) :
    (rop4).result G (no_index (Proc.devRef .tc r)) = G (Proc.devRef .tc r) := rop4_result_ne G h
theorem rop5_result_ne (G : Valuation τ sig (Elt Ideal)) {r : Ref sig .tc} (h : r ≠ main_v84) :
    (rop5).result G (Proc.devRef .tc r) = G (Proc.devRef .tc r) :=
  HloOp.result_of_not_mem _ _ (by rw [rop5_writes, Finset.mem_singleton]; exact StableHlo.devRef_ne_of_ne h)
theorem rop5_result' (G : Valuation τ sig (Elt Ideal)) :
    (rop5).result G (no_index (Proc.devRef .tc main_v84)) = Cert.Spec.bnTanh (G (Proc.devRef .tc main_v69)) (G (Proc.devRef .tc main_v73)) (G (Proc.devRef .tc main_v80)) (G (Proc.devRef .tc main_v81)) (G (Proc.devRef .tc main_v82)) (G (Proc.devRef .tc main_arg19)) (G (Proc.devRef .tc main_v83)) := rop5_result G
theorem rop5_result_ne' (G : Valuation τ sig (Elt Ideal)) {r : Ref sig .tc} (h : r ≠ main_v84) :
    (rop5).result G (no_index (Proc.devRef .tc r)) = G (Proc.devRef .tc r) := rop5_result_ne G h

/-- The host stretches in order, each region in its place as one operation. -/
def allOps : List (HloOp τ sig (Elt Ideal)) :=
  hostOps0 ++ rop0 :: (hostOps1 ++ rop1 :: (hostOps2 ++ rop2 :: (hostOps3 ++ rop3 :: (hostOps4 ++ rop4 :: (hostOps5 ++ rop5 :: (hostOps6 ++ (hostOps6_1 ++ hostOps6_2)))))))

end Cert.KernelIdeal.Flat

end
-- ==== Proof.KStages.lean ====
/-
  The idealized kernel's program as named stages: one function per host operation and per pallas_call region, each
  the value its buffer holds as a function of the launch memory.  A host operation's stage applies the operation to the
  stages of the buffers it reads; a region's stage is a function of the stages of its input arrays, taken here as a
  parameter (`Regs`): at the extended reals it is the specification's function (`specRegs`) — the first product of a
  layer for regions 0, 2, 4, the normalised second product with what follows it for regions 1, 3, 5.
  `k_v105` is the stage of the buffer the program returns.
-/
import proofs.«127452_j31147102830955_1_alg».proof.Proof.Gen.KernelIdeal
import proofs.«127452_j31147102830955_1_alg».proof.Proof.Spec
import Idealize.ShloMosaic.PureOps.Ideal

noncomputable section

namespace Cert.KernelIdeal.Stages

open Cert.KernelIdeal Cert.KernelIdeal.Gen Idealize.ShloMosaic Idealize.ShloMosaic.TcCoe Idealize.SL.Sem

variable {F : FTy → Type} [FloatOps F]

/-- What each of the six regions computes from its input arrays, as a parameter. -/
structure Regs (F : FTy → Type) where
  g0 : (⟨S50000x128, .f32⟩ : BufTy).Contents (Elt F) → (⟨S50000x128, .f32⟩ : BufTy).Contents (Elt F) → (⟨S128x256, .f32⟩ : BufTy).Contents (Elt F) → (⟨S1x256, .f32⟩ : BufTy).Contents (Elt F) → (⟨S50000x256, .f32⟩ : BufTy).Contents (Elt F)
  g1 : (⟨S50000x256, .f32⟩ : BufTy).Contents (Elt F) → (⟨S1x256, .f32⟩ : BufTy).Contents (Elt F) → (⟨S1x256, .f32⟩ : BufTy).Contents (Elt F) → (⟨S1x256, .f32⟩ : BufTy).Contents (Elt F) → (⟨S1x256, .f32⟩ : BufTy).Contents (Elt F) → (⟨S256x256, .f32⟩ : BufTy).Contents (Elt F) → (⟨S1x256, .f32⟩ : BufTy).Contents (Elt F) → (⟨S50000x256, .f32⟩ : BufTy).Contents (Elt F)
  g2 : (⟨S50000x256, .f32⟩ : BufTy).Contents (Elt F) → (⟨S50000x256, .f32⟩ : BufTy).Contents (Elt F) → (⟨S256x256, .f32⟩ : BufTy).Contents (Elt F) → (⟨S1x256, .f32⟩ : BufTy).Contents (Elt F) → (⟨S50000x256, .f32⟩ : BufTy).Contents (Elt F)
  g3 : (⟨S50000x256, .f32⟩ : BufTy).Contents (Elt F) → (⟨S1x256, .f32⟩ : BufTy).Contents (Elt F) → (⟨S1x256, .f32⟩ : BufTy).Contents (Elt F) → (⟨S1x256, .f32⟩ : BufTy).Contents (Elt F) → (⟨S1x256, .f32⟩ : BufTy).Contents (Elt F) → (⟨S256x256, .f32⟩ : BufTy).Contents (Elt F) → (⟨S1x256, .f32⟩ : BufTy).Contents (Elt F) → (⟨S50000x256, .f32⟩ : BufTy).Contents (Elt F)
  g4 : (⟨S50000x256, .f32⟩ : BufTy).Contents (Elt F) → (⟨S50000x256, .f32⟩ : BufTy).Contents (Elt F) → (⟨S256x256, .f32⟩ : BufTy).Contents (Elt F) → (⟨S1x256, .f32⟩ : BufTy).Contents (Elt F) → (⟨S50000x256, .f32⟩ : BufTy).Contents (Elt F)
  g5 : (⟨S50000x256, .f32⟩ : BufTy).Contents (Elt F) → (⟨S1x256, .f32⟩ : BufTy).Contents (Elt F) → (⟨S1x256, .f32⟩ : BufTy).Contents (Elt F) → (⟨S1x256, .f32⟩ : BufTy).Contents (Elt F) → (⟨S1x256, .f32⟩ : BufTy).Contents (Elt F) → (⟨S256x256, .f32⟩ : BufTy).Contents (Elt F) → (⟨S1x256, .f32⟩ : BufTy).Contents (Elt F) → (⟨S50000x256, .f32⟩ : BufTy).Contents (Elt F)

/-- At the extended reals: the specification's functions. -/
def specRegs : Regs Ideal where
  g0 := fun x a w b => Cert.Spec.lin128 x a w b
  g1 := fun z mu va ga be w b => Cert.Spec.bnRelu z mu va ga be w b
  g2 := fun x a w b => Cert.Spec.lin256 x a w b
  g3 := fun z mu va ga be w b => Cert.Spec.bnTanhRelu z mu va ga be w b
  g4 := fun x a w b => Cert.Spec.lin256 x a w b
  g5 := fun z mu va ga be w b => Cert.Spec.bnTanh z mu va ga be w b

/-! ## The arguments -/

def k_arg0 (g : Regs F) (m : (ℓ : Loc nD τ sig) → Buf (Elt F) ℓ) (c : Dev nD) : (⟨S50000x128, .f32⟩ : BufTy).Contents (Elt F) := m ((c.tc : Thread nD τ).loc main_arg0)
def k_arg1 (g : Regs F) (m : (ℓ : Loc nD τ sig) → Buf (Elt F) ℓ) (c : Dev nD) : (⟨S2x800000, .i32⟩ : BufTy).Contents (Elt F) := m ((c.tc : Thread nD τ).loc main_arg1)
def k_arg2 (g : Regs F) (m : (ℓ : Loc nD τ sig) → Buf (Elt F) ℓ) (c : Dev nD) : (⟨S50000, .i32⟩ : BufTy).Contents (Elt F) := m ((c.tc : Thread nD τ).loc main_arg2)
def k_arg3 (g : Regs F) (m : (ℓ : Loc nD τ sig) → Buf (Elt F) ℓ) (c : Dev nD) : (⟨S128x256, .f32⟩ : BufTy).Contents (Elt F) := m ((c.tc : Thread nD τ).loc main_arg3)
def k_arg4 (g : Regs F) (m : (ℓ : Loc nD τ sig) → Buf (Elt F) ℓ) (c : Dev nD) : (⟨S256, .f32⟩ : BufTy).Contents (Elt F) := m ((c.tc : Thread nD τ).loc main_arg4)
def k_arg5 (g : Regs F) (m : (ℓ : Loc nD τ sig) → Buf (Elt F) ℓ) (c : Dev nD) : (⟨S256, .f32⟩ : BufTy).Contents (Elt F) := m ((c.tc : Thread nD τ).loc main_arg5)
def k_arg6 (g : Regs F) (m : (ℓ : Loc nD τ sig) → Buf (Elt F) ℓ) (c : Dev nD) : (⟨S256, .f32⟩ : BufTy).Contents (Elt F) := m ((c.tc : Thread nD τ).loc main_arg6)
def k_arg7 (g : Regs F) (m : (ℓ : Loc nD τ sig) → Buf (Elt F) ℓ) (c : Dev nD) : (⟨S256x256, .f32⟩ : BufTy).Contents (Elt F) := m ((c.tc : Thread nD τ).loc main_arg7)
def k_arg8 (g : Regs F) (m : (ℓ : Loc nD τ sig) → Buf (Elt F) ℓ) (c : Dev nD) : (⟨S256, .f32⟩ : BufTy).Contents (Elt F) := m ((c.tc : Thread nD τ).loc main_arg8)
def k_arg9 (g : Regs F) (m : (ℓ : Loc nD τ sig) → Buf (Elt F) ℓ) (c : Dev nD) : (⟨S256x256, .f32⟩ : BufTy).Contents (Elt F) := m ((c.tc : Thread nD τ).loc main_arg9)
def k_arg10 (g : Regs F) (m : (ℓ : Loc nD τ sig) → Buf (Elt F) ℓ) (c : Dev nD) : (⟨S256, .f32⟩ : BufTy).Contents (Elt F) := m ((c.tc : Thread nD τ).loc main_arg10)
def k_arg11 (g : Regs F) (m : (ℓ : Loc nD τ sig) → Buf (Elt F) ℓ) (c : Dev nD) : (⟨S256, .f32⟩ : BufTy).Contents (Elt F) := m ((c.tc : Thread nD τ).loc main_arg11)
def k_arg12 (g : Regs F) (m : (ℓ : Loc nD τ sig) → Buf (Elt F) ℓ) (c : Dev nD) : (⟨S256, .f32⟩ : BufTy).Contents (Elt F) := m ((c.tc : Thread nD τ).loc main_arg12)
def k_arg13 (g : Regs F) (m : (ℓ : Loc nD τ sig) → Buf (Elt F) ℓ) (c : Dev nD) : (⟨S256x256, .f32⟩ : BufTy).Contents (Elt F) := m ((c.tc : Thread nD τ).loc main_arg13)
def k_arg14 (g : Regs F) (m : (ℓ : Loc nD τ sig) → Buf (Elt F) ℓ) (c : Dev nD) : (⟨S256, .f32⟩ : BufTy).Contents (Elt F) := m ((c.tc : Thread nD τ).loc main_arg14)
def k_arg15 (g : Regs F) (m : (ℓ : Loc nD τ sig) → Buf (Elt F) ℓ) (c : Dev nD) : (⟨S256x256, .f32⟩ : BufTy).Contents (Elt F) := m ((c.tc : Thread nD τ).loc main_arg15)
def k_arg16 (g : Regs F) (m : (ℓ : Loc nD τ sig) → Buf (Elt F) ℓ) (c : Dev nD) : (⟨S256, .f32⟩ : BufTy).Contents (Elt F) := m ((c.tc : Thread nD τ).loc main_arg16)
def k_arg17 (g : Regs F) (m : (ℓ : Loc nD τ sig) → Buf (Elt F) ℓ) (c : Dev nD) : (⟨S256, .f32⟩ : BufTy).Contents (Elt F) := m ((c.tc : Thread nD τ).loc main_arg17)
def k_arg18 (g : Regs F) (m : (ℓ : Loc nD τ sig) → Buf (Elt F) ℓ) (c : Dev nD) : (⟨S256, .f32⟩ : BufTy).Contents (Elt F) := m ((c.tc : Thread nD τ).loc main_arg18)
def k_arg19 (g : Regs F) (m : (ℓ : Loc nD τ sig) → Buf (Elt F) ℓ) (c : Dev nD) : (⟨S256x256, .f32⟩ : BufTy).Contents (Elt F) := m ((c.tc : Thread nD τ).loc main_arg19)
def k_arg20 (g : Regs F) (m : (ℓ : Loc nD τ sig) → Buf (Elt F) ℓ) (c : Dev nD) : (⟨S256, .f32⟩ : BufTy).Contents (Elt F) := m ((c.tc : Thread nD τ).loc main_arg20)
def k_arg21 (g : Regs F) (m : (ℓ : Loc nD τ sig) → Buf (Elt F) ℓ) (c : Dev nD) : (⟨S256x512, .f32⟩ : BufTy).Contents (Elt F) := m ((c.tc : Thread nD τ).loc main_arg21)
def k_arg22 (g : Regs F) (m : (ℓ : Loc nD τ sig) → Buf (Elt F) ℓ) (c : Dev nD) : (⟨S512, .f32⟩ : BufTy).Contents (Elt F) := m ((c.tc : Thread nD τ).loc main_arg22)
def k_arg23 (g : Regs F) (m : (ℓ : Loc nD τ sig) → Buf (Elt F) ℓ) (c : Dev nD) : (⟨S512x768, .f32⟩ : BufTy).Contents (Elt F) := m ((c.tc : Thread nD τ).loc main_arg23)
def k_arg24 (g : Regs F) (m : (ℓ : Loc nD τ sig) → Buf (Elt F) ℓ) (c : Dev nD) : (⟨S768, .f32⟩ : BufTy).Contents (Elt F) := m ((c.tc : Thread nD τ).loc main_arg24)

/-! ## The stages, in program order -/

def k_v0 (g : Regs F) (m : (ℓ : Loc nD τ sig) → Buf (Elt F) ℓ) (c : Dev nD) : (⟨S1x800000, .i32⟩ : BufTy).Contents (Elt F) := ((extractStridedSlice S1x800000 ![0, 0] · slices_S2x800000_S1x800000_0_0) : (⟨S2x800000, .i32⟩ : BufTy).Contents (Elt F) → (⟨S1x800000, .i32⟩ : BufTy).Contents (Elt F)) (k_arg1 g m c)
def k_v1 (g : Regs F) (m : (ℓ : Loc nD τ sig) → Buf (Elt F) ℓ) (c : Dev nD) : (⟨S800000, .i32⟩ : BufTy).Contents (Elt F) := fun i => shapeCast S800000 (k_v0 g m c) shapeCasts_S1x800000_S800000 i
def k_v2 (g : Regs F) (m : (ℓ : Loc nD τ sig) → Buf (Elt F) ℓ) (c : Dev nD) : (⟨S1x800000, .i32⟩ : BufTy).Contents (Elt F) := ((extractStridedSlice S1x800000 ![1, 0] · slices_S2x800000_S1x800000_1_0) : (⟨S2x800000, .i32⟩ : BufTy).Contents (Elt F) → (⟨S1x800000, .i32⟩ : BufTy).Contents (Elt F)) (k_arg1 g m c)
def k_v3 (g : Regs F) (m : (ℓ : Loc nD τ sig) → Buf (Elt F) ℓ) (c : Dev nD) : (⟨S800000, .i32⟩ : BufTy).Contents (Elt F) := fun i => shapeCast S800000 (k_v2 g m c) shapeCasts_S1x800000_S800000 i
def k_c (g : Regs F) (m : (ℓ : Loc nD τ sig) → Buf (Elt F) ℓ) (c : Dev nD) : (⟨S_, .i32⟩ : BufTy).Contents (Elt F) := (constantI S_ 32 0#32)
def k_v4 (g : Regs F) (m : (ℓ : Loc nD τ sig) → Buf (Elt F) ℓ) (c : Dev nD) : (⟨S800000, .i32⟩ : BufTy).Contents (Elt F) := (broadcastInDim S800000 ![] bcast_S_S800000 : (⟨S_, .i32⟩ : BufTy).Contents (Elt F) → (⟨S800000, .i32⟩ : BufTy).Contents (Elt F)) (k_c g m c)
def k_v5 (g : Regs F) (m : (ℓ : Loc nD τ sig) → Buf (Elt F) ℓ) (c : Dev nD) : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) (k_v1 g m c) (k_v4 g m c)
def k_c_0 (g : Regs F) (m : (ℓ : Loc nD τ sig) → Buf (Elt F) ℓ) (c : Dev nD) : (⟨S_, .i32⟩ : BufTy).Contents (Elt F) := (constantI S_ 32 50000#32)
def k_v6 (g : Regs F) (m : (ℓ : Loc nD τ sig) → Buf (Elt F) ℓ) (c : Dev nD) : (⟨S800000, .i32⟩ : BufTy).Contents (Elt F) := (broadcastInDim S800000 ![] bcast_S_S800000 : (⟨S_, .i32⟩ : BufTy).Contents (Elt F) → (⟨S800000, .i32⟩ : BufTy).Contents (Elt F)) (k_c_0 g m c)
def k_v7 (g : Regs F) (m : (ℓ : Loc nD τ sig) → Buf (Elt F) ℓ) (c : Dev nD) : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) (k_v1 g m c) (k_v6 g m c)
def k_v8 (g : Regs F) (m : (ℓ : Loc nD τ sig) → Buf (Elt F) ℓ) (c : Dev nD) : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (k_v5 g m c) (k_v7 g m c) (k_v1 g m c)
def k_v9 (g : Regs F) (m : (ℓ : Loc nD τ sig) → Buf (Elt F) ℓ) (c : Dev nD) : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) (k_v8 g m c)
def k_v10 (g : Regs F) (m : (ℓ : Loc nD τ sig) → Buf (Elt F) ℓ) (c : Dev nD) : (⟨S800000x128, .f32⟩ : BufTy).Contents (Elt F) := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) (k_arg0 g m c) (k_v9 g m c)
def k_cst (g : Regs F) (m : (ℓ : Loc nD τ sig) → Buf (Elt F) ℓ) (c : Dev nD) : (⟨S_, .f32⟩ : BufTy).Contents (Elt F) := (constant S_ .f32 0x00000000#32)
def k_v11 (g : Regs F) (m : (ℓ : Loc nD τ sig) → Buf (Elt F) ℓ) (c : Dev nD) : (⟨S50000x128, .f32⟩ : BufTy).Contents (Elt F) := (broadcastInDim S50000x128 ![] bcast_S_S50000x128 : (⟨S_, .f32⟩ : BufTy).Contents (Elt F) → (⟨S50000x128, .f32⟩ : BufTy).Contents (Elt F)) (k_cst g m c)
def k_v12 (g : Regs F) (m : (ℓ : Loc nD τ sig) → Buf (Elt F) ℓ) (c : Dev nD) : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) (k_v3 g m c)
def k_v13 (g : Regs F) (m : (ℓ : Loc nD τ sig) → Buf (Elt F) ℓ) (c : Dev nD) : (⟨S50000x128, .f32⟩ : BufTy).Contents (Elt F) := ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) (k_v11 g m c) (k_v12 g m c) (k_v10 g m c)
def k_v14 (g : Regs F) (m : (ℓ : Loc nD τ sig) → Buf (Elt F) ℓ) (c : Dev nD) : (⟨S1x256, .f32⟩ : BufTy).Contents (Elt F) := fun i => shapeCast S1x256 (k_arg4 g m c) shapeCasts_S256_S1x256 i
/-- Region 0's output array. -/
def k_v15 (g : Regs F) (m : (ℓ : Loc nD τ sig) → Buf (Elt F) ℓ) (c : Dev nD) : (⟨S50000x256, .f32⟩ : BufTy).Contents (Elt F) :=
  g.g0 (k_arg0 g m c) (k_v13 g m c) (k_arg3 g m c) (k_v14 g m c)
def k_cst_1 (g : Regs F) (m : (ℓ : Loc nD τ sig) → Buf (Elt F) ℓ) (c : Dev nD) : (⟨S_, .f32⟩ : BufTy).Contents (Elt F) := (constant S_ .f32 0x00000000#32)
def k_v16 (g : Regs F) (m : (ℓ : Loc nD τ sig) → Buf (Elt F) ℓ) (c : Dev nD) : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) (k_v15 g m c) (k_cst_1 g m c)
def k_v17 (g : Regs F) (m : (ℓ : Loc nD τ sig) → Buf (Elt F) ℓ) (c : Dev nD) : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) (k_v16 g m c)
def k_cst_2 (g : Regs F) (m : (ℓ : Loc nD τ sig) → Buf (Elt F) ℓ) (c : Dev nD) : (⟨S_, .f32⟩ : BufTy).Contents (Elt F) := (constant S_ .f32 0x47435000#32)
def k_v18 (g : Regs F) (m : (ℓ : Loc nD τ sig) → Buf (Elt F) ℓ) (c : Dev nD) : (⟨S1x256, .f32⟩ : BufTy).Contents (Elt F) := (broadcastInDim S1x256 ![] bcast_S_S1x256 : (⟨S_, .f32⟩ : BufTy).Contents (Elt F) → (⟨S1x256, .f32⟩ : BufTy).Contents (Elt F)) (k_cst_2 g m c)
def k_v19 (g : Regs F) (m : (ℓ : Loc nD τ sig) → Buf (Elt F) ℓ) (c : Dev nD) : (⟨S1x256, .f32⟩ : BufTy).Contents (Elt F) := (Host.divf : (⟨S1x256, .f32⟩ : BufTy).Contents (Elt F) → (⟨S1x256, .f32⟩ : BufTy).Contents (Elt F) → (⟨S1x256, .f32⟩ : BufTy).Contents (Elt F)) (k_v17 g m c) (k_v18 g m c)
def k_v20 (g : Regs F) (m : (ℓ : Loc nD τ sig) → Buf (Elt F) ℓ) (c : Dev nD) : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) (k_v19 g m c)
def k_v21 (g : Regs F) (m : (ℓ : Loc nD τ sig) → Buf (Elt F) ℓ) (c : Dev nD) : (⟨S50000x256, .f32⟩ : BufTy).Contents (Elt F) := (subf : (⟨S50000x256, .f32⟩ : BufTy).Contents (Elt F) → (⟨S50000x256, .f32⟩ : BufTy).Contents (Elt F) → (⟨S50000x256, .f32⟩ : BufTy).Contents (Elt F)) (k_v15 g m c) (k_v20 g m c)
def k_v22 (g : Regs F) (m : (ℓ : Loc nD τ sig) → Buf (Elt F) ℓ) (c : Dev nD) : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) (k_v21 g m c) (k_v21 g m c)
def k_cst_3 (g : Regs F) (m : (ℓ : Loc nD τ sig) → Buf (Elt F) ℓ) (c : Dev nD) : (⟨S_, .f32⟩ : BufTy).Contents (Elt F) := (constant S_ .f32 0x00000000#32)
def k_v23 (g : Regs F) (m : (ℓ : Loc nD τ sig) → Buf (Elt F) ℓ) (c : Dev nD) : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) (k_v22 g m c) (k_cst_3 g m c)
def k_v24 (g : Regs F) (m : (ℓ : Loc nD τ sig) → Buf (Elt F) ℓ) (c : Dev nD) : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) (k_v23 g m c)
def k_cst_4 (g : Regs F) (m : (ℓ : Loc nD τ sig) → Buf (Elt F) ℓ) (c : Dev nD) : (⟨S_, .f32⟩ : BufTy).Contents (Elt F) := (constant S_ .f32 0x47435000#32)
def k_v25 (g : Regs F) (m : (ℓ : Loc nD τ sig) → Buf (Elt F) ℓ) (c : Dev nD) : (⟨S1x256, .f32⟩ : BufTy).Contents (Elt F) := (broadcastInDim S1x256 ![] bcast_S_S1x256 : (⟨S_, .f32⟩ : BufTy).Contents (Elt F) → (⟨S1x256, .f32⟩ : BufTy).Contents (Elt F)) (k_cst_4 g m c)
def k_v26 (g : Regs F) (m : (ℓ : Loc nD τ sig) → Buf (Elt F) ℓ) (c : Dev nD) : (⟨S1x256, .f32⟩ : BufTy).Contents (Elt F) := (Host.divf : (⟨S1x256, .f32⟩ : BufTy).Contents (Elt F) → (⟨S1x256, .f32⟩ : BufTy).Contents (Elt F) → (⟨S1x256, .f32⟩ : BufTy).Contents (Elt F)) (k_v24 g m c) (k_v25 g m c)
def k_v27 (g : Regs F) (m : (ℓ : Loc nD τ sig) → Buf (Elt F) ℓ) (c : Dev nD) : (⟨S1x256, .f32⟩ : BufTy).Contents (Elt F) := fun i => shapeCast S1x256 (k_arg5 g m c) shapeCasts_S256_S1x256 i
def k_v28 (g : Regs F) (m : (ℓ : Loc nD τ sig) → Buf (Elt F) ℓ) (c : Dev nD) : (⟨S1x256, .f32⟩ : BufTy).Contents (Elt F) := fun i => shapeCast S1x256 (k_arg6 g m c) shapeCasts_S256_S1x256 i
def k_v29 (g : Regs F) (m : (ℓ : Loc nD τ sig) → Buf (Elt F) ℓ) (c : Dev nD) : (⟨S1x256, .f32⟩ : BufTy).Contents (Elt F) := fun i => shapeCast S1x256 (k_arg8 g m c) shapeCasts_S256_S1x256 i
/-- Region 1's output array. -/
def k_v30 (g : Regs F) (m : (ℓ : Loc nD τ sig) → Buf (Elt F) ℓ) (c : Dev nD) : (⟨S50000x256, .f32⟩ : BufTy).Contents (Elt F) :=
  g.g1 (k_v15 g m c) (k_v19 g m c) (k_v26 g m c) (k_v27 g m c) (k_v28 g m c) (k_arg7 g m c) (k_v29 g m c)
def k_c_5 (g : Regs F) (m : (ℓ : Loc nD τ sig) → Buf (Elt F) ℓ) (c : Dev nD) : (⟨S_, .i32⟩ : BufTy).Contents (Elt F) := (constantI S_ 32 0#32)
def k_v31 (g : Regs F) (m : (ℓ : Loc nD τ sig) → Buf (Elt F) ℓ) (c : Dev nD) : (⟨S800000, .i32⟩ : BufTy).Contents (Elt F) := (broadcastInDim S800000 ![] bcast_S_S800000 : (⟨S_, .i32⟩ : BufTy).Contents (Elt F) → (⟨S800000, .i32⟩ : BufTy).Contents (Elt F)) (k_c_5 g m c)
def k_v32 (g : Regs F) (m : (ℓ : Loc nD τ sig) → Buf (Elt F) ℓ) (c : Dev nD) : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) (k_v1 g m c) (k_v31 g m c)
def k_c_6 (g : Regs F) (m : (ℓ : Loc nD τ sig) → Buf (Elt F) ℓ) (c : Dev nD) : (⟨S_, .i32⟩ : BufTy).Contents (Elt F) := (constantI S_ 32 50000#32)
def k_v33 (g : Regs F) (m : (ℓ : Loc nD τ sig) → Buf (Elt F) ℓ) (c : Dev nD) : (⟨S800000, .i32⟩ : BufTy).Contents (Elt F) := (broadcastInDim S800000 ![] bcast_S_S800000 : (⟨S_, .i32⟩ : BufTy).Contents (Elt F) → (⟨S800000, .i32⟩ : BufTy).Contents (Elt F)) (k_c_6 g m c)
def k_v34 (g : Regs F) (m : (ℓ : Loc nD τ sig) → Buf (Elt F) ℓ) (c : Dev nD) : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) (k_v1 g m c) (k_v33 g m c)
def k_v35 (g : Regs F) (m : (ℓ : Loc nD τ sig) → Buf (Elt F) ℓ) (c : Dev nD) : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (k_v32 g m c) (k_v34 g m c) (k_v1 g m c)
def k_v36 (g : Regs F) (m : (ℓ : Loc nD τ sig) → Buf (Elt F) ℓ) (c : Dev nD) : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) (k_v35 g m c)
def k_v37 (g : Regs F) (m : (ℓ : Loc nD τ sig) → Buf (Elt F) ℓ) (c : Dev nD) : (⟨S800000x256, .f32⟩ : BufTy).Contents (Elt F) := ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) (k_v30 g m c) (k_v36 g m c)
def k_cst_7 (g : Regs F) (m : (ℓ : Loc nD τ sig) → Buf (Elt F) ℓ) (c : Dev nD) : (⟨S_, .f32⟩ : BufTy).Contents (Elt F) := (constant S_ .f32 0x00000000#32)
def k_v38 (g : Regs F) (m : (ℓ : Loc nD τ sig) → Buf (Elt F) ℓ) (c : Dev nD) : (⟨S50000x256, .f32⟩ : BufTy).Contents (Elt F) := (broadcastInDim S50000x256 ![] bcast_S_S50000x256 : (⟨S_, .f32⟩ : BufTy).Contents (Elt F) → (⟨S50000x256, .f32⟩ : BufTy).Contents (Elt F)) (k_cst_7 g m c)
def k_v39 (g : Regs F) (m : (ℓ : Loc nD τ sig) → Buf (Elt F) ℓ) (c : Dev nD) : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) (k_v3 g m c)
def k_v40 (g : Regs F) (m : (ℓ : Loc nD τ sig) → Buf (Elt F) ℓ) (c : Dev nD) : (⟨S50000x256, .f32⟩ : BufTy).Contents (Elt F) := ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) (k_v38 g m c) (k_v39 g m c) (k_v37 g m c)
def k_v41 (g : Regs F) (m : (ℓ : Loc nD τ sig) → Buf (Elt F) ℓ) (c : Dev nD) : (⟨S1x256, .f32⟩ : BufTy).Contents (Elt F) := fun i => shapeCast S1x256 (k_arg10 g m c) shapeCasts_S256_S1x256 i
/-- Region 2's output array. -/
def k_v42 (g : Regs F) (m : (ℓ : Loc nD τ sig) → Buf (Elt F) ℓ) (c : Dev nD) : (⟨S50000x256, .f32⟩ : BufTy).Contents (Elt F) :=
  g.g2 (k_v30 g m c) (k_v40 g m c) (k_arg9 g m c) (k_v41 g m c)
def k_cst_8 (g : Regs F) (m : (ℓ : Loc nD τ sig) → Buf (Elt F) ℓ) (c : Dev nD) : (⟨S_, .f32⟩ : BufTy).Contents (Elt F) := (constant S_ .f32 0x00000000#32)
def k_v43 (g : Regs F) (m : (ℓ : Loc nD τ sig) → Buf (Elt F) ℓ) (c : Dev nD) : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) (k_v42 g m c) (k_cst_8 g m c)
def k_v44 (g : Regs F) (m : (ℓ : Loc nD τ sig) → Buf (Elt F) ℓ) (c : Dev nD) : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) (k_v43 g m c)
def k_cst_9 (g : Regs F) (m : (ℓ : Loc nD τ sig) → Buf (Elt F) ℓ) (c : Dev nD) : (⟨S_, .f32⟩ : BufTy).Contents (Elt F) := (constant S_ .f32 0x47435000#32)
def k_v45 (g : Regs F) (m : (ℓ : Loc nD τ sig) → Buf (Elt F) ℓ) (c : Dev nD) : (⟨S1x256, .f32⟩ : BufTy).Contents (Elt F) := (broadcastInDim S1x256 ![] bcast_S_S1x256 : (⟨S_, .f32⟩ : BufTy).Contents (Elt F) → (⟨S1x256, .f32⟩ : BufTy).Contents (Elt F)) (k_cst_9 g m c)
def k_v46 (g : Regs F) (m : (ℓ : Loc nD τ sig) → Buf (Elt F) ℓ) (c : Dev nD) : (⟨S1x256, .f32⟩ : BufTy).Contents (Elt F) := (Host.divf : (⟨S1x256, .f32⟩ : BufTy).Contents (Elt F) → (⟨S1x256, .f32⟩ : BufTy).Contents (Elt F) → (⟨S1x256, .f32⟩ : BufTy).Contents (Elt F)) (k_v44 g m c) (k_v45 g m c)
def k_v47 (g : Regs F) (m : (ℓ : Loc nD τ sig) → Buf (Elt F) ℓ) (c : Dev nD) : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) (k_v46 g m c)
def k_v48 (g : Regs F) (m : (ℓ : Loc nD τ sig) → Buf (Elt F) ℓ) (c : Dev nD) : (⟨S50000x256, .f32⟩ : BufTy).Contents (Elt F) := (subf : (⟨S50000x256, .f32⟩ : BufTy).Contents (Elt F) → (⟨S50000x256, .f32⟩ : BufTy).Contents (Elt F) → (⟨S50000x256, .f32⟩ : BufTy).Contents (Elt F)) (k_v42 g m c) (k_v47 g m c)
def k_v49 (g : Regs F) (m : (ℓ : Loc nD τ sig) → Buf (Elt F) ℓ) (c : Dev nD) : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) (k_v48 g m c) (k_v48 g m c)
def k_cst_10 (g : Regs F) (m : (ℓ : Loc nD τ sig) → Buf (Elt F) ℓ) (c : Dev nD) : (⟨S_, .f32⟩ : BufTy).Contents (Elt F) := (constant S_ .f32 0x00000000#32)
def k_v50 (g : Regs F) (m : (ℓ : Loc nD τ sig) → Buf (Elt F) ℓ) (c : Dev nD) : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) (k_v49 g m c) (k_cst_10 g m c)
def k_v51 (g : Regs F) (m : (ℓ : Loc nD τ sig) → Buf (Elt F) ℓ) (c : Dev nD) : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) (k_v50 g m c)
def k_cst_11 (g : Regs F) (m : (ℓ : Loc nD τ sig) → Buf (Elt F) ℓ) (c : Dev nD) : (⟨S_, .f32⟩ : BufTy).Contents (Elt F) := (constant S_ .f32 0x47435000#32)
def k_v52 (g : Regs F) (m : (ℓ : Loc nD τ sig) → Buf (Elt F) ℓ) (c : Dev nD) : (⟨S1x256, .f32⟩ : BufTy).Contents (Elt F) := (broadcastInDim S1x256 ![] bcast_S_S1x256 : (⟨S_, .f32⟩ : BufTy).Contents (Elt F) → (⟨S1x256, .f32⟩ : BufTy).Contents (Elt F)) (k_cst_11 g m c)
def k_v53 (g : Regs F) (m : (ℓ : Loc nD τ sig) → Buf (Elt F) ℓ) (c : Dev nD) : (⟨S1x256, .f32⟩ : BufTy).Contents (Elt F) := (Host.divf : (⟨S1x256, .f32⟩ : BufTy).Contents (Elt F) → (⟨S1x256, .f32⟩ : BufTy).Contents (Elt F) → (⟨S1x256, .f32⟩ : BufTy).Contents (Elt F)) (k_v51 g m c) (k_v52 g m c)
def k_v54 (g : Regs F) (m : (ℓ : Loc nD τ sig) → Buf (Elt F) ℓ) (c : Dev nD) : (⟨S1x256, .f32⟩ : BufTy).Contents (Elt F) := fun i => shapeCast S1x256 (k_arg11 g m c) shapeCasts_S256_S1x256 i
def k_v55 (g : Regs F) (m : (ℓ : Loc nD τ sig) → Buf (Elt F) ℓ) (c : Dev nD) : (⟨S1x256, .f32⟩ : BufTy).Contents (Elt F) := fun i => shapeCast S1x256 (k_arg12 g m c) shapeCasts_S256_S1x256 i
def k_v56 (g : Regs F) (m : (ℓ : Loc nD τ sig) → Buf (Elt F) ℓ) (c : Dev nD) : (⟨S1x256, .f32⟩ : BufTy).Contents (Elt F) := fun i => shapeCast S1x256 (k_arg14 g m c) shapeCasts_S256_S1x256 i
/-- Region 3's output array. -/
def k_v57 (g : Regs F) (m : (ℓ : Loc nD τ sig) → Buf (Elt F) ℓ) (c : Dev nD) : (⟨S50000x256, .f32⟩ : BufTy).Contents (Elt F) :=
  g.g3 (k_v42 g m c) (k_v46 g m c) (k_v53 g m c) (k_v54 g m c) (k_v55 g m c) (k_arg13 g m c) (k_v56 g m c)
def k_c_12 (g : Regs F) (m : (ℓ : Loc nD τ sig) → Buf (Elt F) ℓ) (c : Dev nD) : (⟨S_, .i32⟩ : BufTy).Contents (Elt F) := (constantI S_ 32 0#32)
def k_v58 (g : Regs F) (m : (ℓ : Loc nD τ sig) → Buf (Elt F) ℓ) (c : Dev nD) : (⟨S800000, .i32⟩ : BufTy).Contents (Elt F) := (broadcastInDim S800000 ![] bcast_S_S800000 : (⟨S_, .i32⟩ : BufTy).Contents (Elt F) → (⟨S800000, .i32⟩ : BufTy).Contents (Elt F)) (k_c_12 g m c)
def k_v59 (g : Regs F) (m : (ℓ : Loc nD τ sig) → Buf (Elt F) ℓ) (c : Dev nD) : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) (k_v1 g m c) (k_v58 g m c)
def k_c_13 (g : Regs F) (m : (ℓ : Loc nD τ sig) → Buf (Elt F) ℓ) (c : Dev nD) : (⟨S_, .i32⟩ : BufTy).Contents (Elt F) := (constantI S_ 32 50000#32)
def k_v60 (g : Regs F) (m : (ℓ : Loc nD τ sig) → Buf (Elt F) ℓ) (c : Dev nD) : (⟨S800000, .i32⟩ : BufTy).Contents (Elt F) := (broadcastInDim S800000 ![] bcast_S_S800000 : (⟨S_, .i32⟩ : BufTy).Contents (Elt F) → (⟨S800000, .i32⟩ : BufTy).Contents (Elt F)) (k_c_13 g m c)
def k_v61 (g : Regs F) (m : (ℓ : Loc nD τ sig) → Buf (Elt F) ℓ) (c : Dev nD) : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) (k_v1 g m c) (k_v60 g m c)
def k_v62 (g : Regs F) (m : (ℓ : Loc nD τ sig) → Buf (Elt F) ℓ) (c : Dev nD) : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (k_v59 g m c) (k_v61 g m c) (k_v1 g m c)
def k_v63 (g : Regs F) (m : (ℓ : Loc nD τ sig) → Buf (Elt F) ℓ) (c : Dev nD) : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) (k_v62 g m c)
def k_v64 (g : Regs F) (m : (ℓ : Loc nD τ sig) → Buf (Elt F) ℓ) (c : Dev nD) : (⟨S800000x256, .f32⟩ : BufTy).Contents (Elt F) := ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) (k_v57 g m c) (k_v63 g m c)
def k_cst_14 (g : Regs F) (m : (ℓ : Loc nD τ sig) → Buf (Elt F) ℓ) (c : Dev nD) : (⟨S_, .f32⟩ : BufTy).Contents (Elt F) := (constant S_ .f32 0x00000000#32)
def k_v65 (g : Regs F) (m : (ℓ : Loc nD τ sig) → Buf (Elt F) ℓ) (c : Dev nD) : (⟨S50000x256, .f32⟩ : BufTy).Contents (Elt F) := (broadcastInDim S50000x256 ![] bcast_S_S50000x256 : (⟨S_, .f32⟩ : BufTy).Contents (Elt F) → (⟨S50000x256, .f32⟩ : BufTy).Contents (Elt F)) (k_cst_14 g m c)
def k_v66 (g : Regs F) (m : (ℓ : Loc nD τ sig) → Buf (Elt F) ℓ) (c : Dev nD) : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) (k_v3 g m c)
def k_v67 (g : Regs F) (m : (ℓ : Loc nD τ sig) → Buf (Elt F) ℓ) (c : Dev nD) : (⟨S50000x256, .f32⟩ : BufTy).Contents (Elt F) := ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) (k_v65 g m c) (k_v66 g m c) (k_v64 g m c)
def k_v68 (g : Regs F) (m : (ℓ : Loc nD τ sig) → Buf (Elt F) ℓ) (c : Dev nD) : (⟨S1x256, .f32⟩ : BufTy).Contents (Elt F) := fun i => shapeCast S1x256 (k_arg16 g m c) shapeCasts_S256_S1x256 i
/-- Region 4's output array. -/
def k_v69 (g : Regs F) (m : (ℓ : Loc nD τ sig) → Buf (Elt F) ℓ) (c : Dev nD) : (⟨S50000x256, .f32⟩ : BufTy).Contents (Elt F) :=
  g.g4 (k_v57 g m c) (k_v67 g m c) (k_arg15 g m c) (k_v68 g m c)
def k_cst_15 (g : Regs F) (m : (ℓ : Loc nD τ sig) → Buf (Elt F) ℓ) (c : Dev nD) : (⟨S_, .f32⟩ : BufTy).Contents (Elt F) := (constant S_ .f32 0x00000000#32)
def k_v70 (g : Regs F) (m : (ℓ : Loc nD τ sig) → Buf (Elt F) ℓ) (c : Dev nD) : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) (k_v69 g m c) (k_cst_15 g m c)
def k_v71 (g : Regs F) (m : (ℓ : Loc nD τ sig) → Buf (Elt F) ℓ) (c : Dev nD) : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) (k_v70 g m c)
def k_cst_16 (g : Regs F) (m : (ℓ : Loc nD τ sig) → Buf (Elt F) ℓ) (c : Dev nD) : (⟨S_, .f32⟩ : BufTy).Contents (Elt F) := (constant S_ .f32 0x47435000#32)
def k_v72 (g : Regs F) (m : (ℓ : Loc nD τ sig) → Buf (Elt F) ℓ) (c : Dev nD) : (⟨S1x256, .f32⟩ : BufTy).Contents (Elt F) := (broadcastInDim S1x256 ![] bcast_S_S1x256 : (⟨S_, .f32⟩ : BufTy).Contents (Elt F) → (⟨S1x256, .f32⟩ : BufTy).Contents (Elt F)) (k_cst_16 g m c)
def k_v73 (g : Regs F) (m : (ℓ : Loc nD τ sig) → Buf (Elt F) ℓ) (c : Dev nD) : (⟨S1x256, .f32⟩ : BufTy).Contents (Elt F) := (Host.divf : (⟨S1x256, .f32⟩ : BufTy).Contents (Elt F) → (⟨S1x256, .f32⟩ : BufTy).Contents (Elt F) → (⟨S1x256, .f32⟩ : BufTy).Contents (Elt F)) (k_v71 g m c) (k_v72 g m c)
def k_v74 (g : Regs F) (m : (ℓ : Loc nD τ sig) → Buf (Elt F) ℓ) (c : Dev nD) : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) (k_v73 g m c)
def k_v75 (g : Regs F) (m : (ℓ : Loc nD τ sig) → Buf (Elt F) ℓ) (c : Dev nD) : (⟨S50000x256, .f32⟩ : BufTy).Contents (Elt F) := (subf : (⟨S50000x256, .f32⟩ : BufTy).Contents (Elt F) → (⟨S50000x256, .f32⟩ : BufTy).Contents (Elt F) → (⟨S50000x256, .f32⟩ : BufTy).Contents (Elt F)) (k_v69 g m c) (k_v74 g m c)
def k_v76 (g : Regs F) (m : (ℓ : Loc nD τ sig) → Buf (Elt F) ℓ) (c : Dev nD) : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) (k_v75 g m c) (k_v75 g m c)
def k_cst_17 (g : Regs F) (m : (ℓ : Loc nD τ sig) → Buf (Elt F) ℓ) (c : Dev nD) : (⟨S_, .f32⟩ : BufTy).Contents (Elt F) := (constant S_ .f32 0x00000000#32)
def k_v77 (g : Regs F) (m : (ℓ : Loc nD τ sig) → Buf (Elt F) ℓ) (c : Dev nD) : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) (k_v76 g m c) (k_cst_17 g m c)
def k_v78 (g : Regs F) (m : (ℓ : Loc nD τ sig) → Buf (Elt F) ℓ) (c : Dev nD) : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) (k_v77 g m c)
def k_cst_18 (g : Regs F) (m : (ℓ : Loc nD τ sig) → Buf (Elt F) ℓ) (c : Dev nD) : (⟨S_, .f32⟩ : BufTy).Contents (Elt F) := (constant S_ .f32 0x47435000#32)
def k_v79 (g : Regs F) (m : (ℓ : Loc nD τ sig) → Buf (Elt F) ℓ) (c : Dev nD) : (⟨S1x256, .f32⟩ : BufTy).Contents (Elt F) := (broadcastInDim S1x256 ![] bcast_S_S1x256 : (⟨S_, .f32⟩ : BufTy).Contents (Elt F) → (⟨S1x256, .f32⟩ : BufTy).Contents (Elt F)) (k_cst_18 g m c)
def k_v80 (g : Regs F) (m : (ℓ : Loc nD τ sig) → Buf (Elt F) ℓ) (c : Dev nD) : (⟨S1x256, .f32⟩ : BufTy).Contents (Elt F) := (Host.divf : (⟨S1x256, .f32⟩ : BufTy).Contents (Elt F) → (⟨S1x256, .f32⟩ : BufTy).Contents (Elt F) → (⟨S1x256, .f32⟩ : BufTy).Contents (Elt F)) (k_v78 g m c) (k_v79 g m c)
def k_v81 (g : Regs F) (m : (ℓ : Loc nD τ sig) → Buf (Elt F) ℓ) (c : Dev nD) : (⟨S1x256, .f32⟩ : BufTy).Contents (Elt F) := fun i => shapeCast S1x256 (k_arg17 g m c) shapeCasts_S256_S1x256 i
def k_v82 (g : Regs F) (m : (ℓ : Loc nD τ sig) → Buf (Elt F) ℓ) (c : Dev nD) : (⟨S1x256, .f32⟩ : BufTy).Contents (Elt F) := fun i => shapeCast S1x256 (k_arg18 g m c) shapeCasts_S256_S1x256 i
def k_v83 (g : Regs F) (m : (ℓ : Loc nD τ sig) → Buf (Elt F) ℓ) (c : Dev nD) : (⟨S1x256, .f32⟩ : BufTy).Contents (Elt F) := fun i => shapeCast S1x256 (k_arg20 g m c) shapeCasts_S256_S1x256 i
/-- Region 5's output array. -/
def k_v84 (g : Regs F) (m : (ℓ : Loc nD τ sig) → Buf (Elt F) ℓ) (c : Dev nD) : (⟨S50000x256, .f32⟩ : BufTy).Contents (Elt F) :=
  g.g5 (k_v69 g m c) (k_v73 g m c) (k_v80 g m c) (k_v81 g m c) (k_v82 g m c) (k_arg19 g m c) (k_v83 g m c)
def k_cst_19 (g : Regs F) (m : (ℓ : Loc nD τ sig) → Buf (Elt F) ℓ) (c : Dev nD) : (⟨S_, .f32⟩ : BufTy).Contents (Elt F) := (constant S_ .f32 0x00000000#32)
def k_v85 (g : Regs F) (m : (ℓ : Loc nD τ sig) → Buf (Elt F) ℓ) (c : Dev nD) : (⟨S512x256, .f32⟩ : BufTy).Contents (Elt F) := (broadcastInDim S512x256 ![] bcast_S_S512x256 : (⟨S_, .f32⟩ : BufTy).Contents (Elt F) → (⟨S512x256, .f32⟩ : BufTy).Contents (Elt F)) (k_cst_19 g m c)
def k_v86 (g : Regs F) (m : (ℓ : Loc nD τ sig) → Buf (Elt F) ℓ) (c : Dev nD) : (⟨S50000x1, .i32⟩ : BufTy).Contents (Elt F) := (broadcastInDim S50000x1 ![0] bcast_S50000_S50000x1_0 : (⟨S50000, .i32⟩ : BufTy).Contents (Elt F) → (⟨S50000x1, .i32⟩ : BufTy).Contents (Elt F)) (k_arg2 g m c)
def k_v87 (g : Regs F) (m : (ℓ : Loc nD τ sig) → Buf (Elt F) ℓ) (c : Dev nD) : (⟨S512x256, .f32⟩ : BufTy).Contents (Elt F) := ((fun x i u => Host.scatterAdd scatter_S512x256_S50000x1_S50000x256_1_0_0_1 x i u) : (⟨S512x256, .f32⟩ : BufTy).Contents (Elt F) → (⟨S50000x1, .i32⟩ : BufTy).Contents (Elt F) → (⟨S50000x256, .f32⟩ : BufTy).Contents (Elt F) → (⟨S512x256, .f32⟩ : BufTy).Contents (Elt F)) (k_v85 g m c) (k_v86 g m c) (k_v84 g m c)
def k_cst_20 (g : Regs F) (m : (ℓ : Loc nD τ sig) → Buf (Elt F) ℓ) (c : Dev nD) : (⟨S_, .f32⟩ : BufTy).Contents (Elt F) := (constant S_ .f32 0x3F800000#32)
def k_v88 (g : Regs F) (m : (ℓ : Loc nD τ sig) → Buf (Elt F) ℓ) (c : Dev nD) : (⟨S50000, .f32⟩ : BufTy).Contents (Elt F) := (broadcastInDim S50000 ![] bcast_S_S50000 : (⟨S_, .f32⟩ : BufTy).Contents (Elt F) → (⟨S50000, .f32⟩ : BufTy).Contents (Elt F)) (k_cst_20 g m c)
def k_cst_21 (g : Regs F) (m : (ℓ : Loc nD τ sig) → Buf (Elt F) ℓ) (c : Dev nD) : (⟨S_, .f32⟩ : BufTy).Contents (Elt F) := (constant S_ .f32 0x00000000#32)
def k_v89 (g : Regs F) (m : (ℓ : Loc nD τ sig) → Buf (Elt F) ℓ) (c : Dev nD) : (⟨S512, .f32⟩ : BufTy).Contents (Elt F) := (broadcastInDim S512 ![] bcast_S_S512 : (⟨S_, .f32⟩ : BufTy).Contents (Elt F) → (⟨S512, .f32⟩ : BufTy).Contents (Elt F)) (k_cst_21 g m c)
def k_v90 (g : Regs F) (m : (ℓ : Loc nD τ sig) → Buf (Elt F) ℓ) (c : Dev nD) : (⟨S50000x1, .i32⟩ : BufTy).Contents (Elt F) := (broadcastInDim S50000x1 ![0] bcast_S50000_S50000x1_0 : (⟨S50000, .i32⟩ : BufTy).Contents (Elt F) → (⟨S50000x1, .i32⟩ : BufTy).Contents (Elt F)) (k_arg2 g m c)
def k_v91 (g : Regs F) (m : (ℓ : Loc nD τ sig) → Buf (Elt F) ℓ) (c : Dev nD) : (⟨S512, .f32⟩ : BufTy).Contents (Elt F) := ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)) (k_v89 g m c) (k_v90 g m c) (k_v88 g m c)
def k_cst_22 (g : Regs F) (m : (ℓ : Loc nD τ sig) → Buf (Elt F) ℓ) (c : Dev nD) : (⟨S_, .f32⟩ : BufTy).Contents (Elt F) := (constant S_ .f32 0x3F800000#32)
def k_v92 (g : Regs F) (m : (ℓ : Loc nD τ sig) → Buf (Elt F) ℓ) (c : Dev nD) : (⟨S512, .f32⟩ : BufTy).Contents (Elt F) := (broadcastInDim S512 ![] bcast_S_S512 : (⟨S_, .f32⟩ : BufTy).Contents (Elt F) → (⟨S512, .f32⟩ : BufTy).Contents (Elt F)) (k_cst_22 g m c)
def k_v93 (g : Regs F) (m : (ℓ : Loc nD τ sig) → Buf (Elt F) ℓ) (c : Dev nD) : (⟨S512, .f32⟩ : BufTy).Contents (Elt F) := (maximumf : (⟨S512, .f32⟩ : BufTy).Contents (Elt F) → (⟨S512, .f32⟩ : BufTy).Contents (Elt F) → (⟨S512, .f32⟩ : BufTy).Contents (Elt F)) (k_v91 g m c) (k_v92 g m c)
def k_v94 (g : Regs F) (m : (ℓ : Loc nD τ sig) → Buf (Elt F) ℓ) (c : Dev nD) : (⟨S512x1, .f32⟩ : BufTy).Contents (Elt F) := (broadcastInDim S512x1 ![0] bcast_S512_S512x1_0 : (⟨S512, .f32⟩ : BufTy).Contents (Elt F) → (⟨S512x1, .f32⟩ : BufTy).Contents (Elt F)) (k_v93 g m c)
def k_v95 (g : Regs F) (m : (ℓ : Loc nD τ sig) → Buf (Elt F) ℓ) (c : Dev nD) : (⟨S512x256, .f32⟩ : BufTy).Contents (Elt F) := (broadcastInDim S512x256 ![0, 1] bcast_S512x1_S512x256_0_1 : (⟨S512x1, .f32⟩ : BufTy).Contents (Elt F) → (⟨S512x256, .f32⟩ : BufTy).Contents (Elt F)) (k_v94 g m c)
def k_v96 (g : Regs F) (m : (ℓ : Loc nD τ sig) → Buf (Elt F) ℓ) (c : Dev nD) : (⟨S512x256, .f32⟩ : BufTy).Contents (Elt F) := (Host.divf : (⟨S512x256, .f32⟩ : BufTy).Contents (Elt F) → (⟨S512x256, .f32⟩ : BufTy).Contents (Elt F) → (⟨S512x256, .f32⟩ : BufTy).Contents (Elt F)) (k_v87 g m c) (k_v95 g m c)
def k_v97 (g : Regs F) (m : (ℓ : Loc nD τ sig) → Buf (Elt F) ℓ) (c : Dev nD) : (⟨S512x512, .f32⟩ : BufTy).Contents (Elt F) := ((fun l r => Host.dotGeneral dot_S512x256_S256x512_S512x512_1_0_0_1_n_n none l r) : (⟨S512x256, .f32⟩ : BufTy).Contents (Elt F) → (⟨S256x512, .f32⟩ : BufTy).Contents (Elt F) → (⟨S512x512, .f32⟩ : BufTy).Contents (Elt F)) (k_v96 g m c) (k_arg21 g m c)
def k_v98 (g : Regs F) (m : (ℓ : Loc nD τ sig) → Buf (Elt F) ℓ) (c : Dev nD) : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) (k_arg22 g m c)
def k_v99 (g : Regs F) (m : (ℓ : Loc nD τ sig) → Buf (Elt F) ℓ) (c : Dev nD) : (⟨S512x512, .f32⟩ : BufTy).Contents (Elt F) := (broadcastInDim S512x512 ![0, 1] bcast_S1x512_S512x512_0_1 : (⟨S1x512, .f32⟩ : BufTy).Contents (Elt F) → (⟨S512x512, .f32⟩ : BufTy).Contents (Elt F)) (k_v98 g m c)
def k_v100 (g : Regs F) (m : (ℓ : Loc nD τ sig) → Buf (Elt F) ℓ) (c : Dev nD) : (⟨S512x512, .f32⟩ : BufTy).Contents (Elt F) := (addf : (⟨S512x512, .f32⟩ : BufTy).Contents (Elt F) → (⟨S512x512, .f32⟩ : BufTy).Contents (Elt F) → (⟨S512x512, .f32⟩ : BufTy).Contents (Elt F)) (k_v97 g m c) (k_v99 g m c)
def k_call0_cst (g : Regs F) (m : (ℓ : Loc nD τ sig) → Buf (Elt F) ℓ) (c : Dev nD) : (⟨S_, .f32⟩ : BufTy).Contents (Elt F) := (constant S_ .f32 0x00000000#32)
def k_call0_v0 (g : Regs F) (m : (ℓ : Loc nD τ sig) → Buf (Elt F) ℓ) (c : Dev nD) : (⟨S512x512, .f32⟩ : BufTy).Contents (Elt F) := (broadcastInDim S512x512 ![] bcast_S_S512x512) (k_call0_cst g m c)
def k_v101 (g : Regs F) (m : (ℓ : Loc nD τ sig) → Buf (Elt F) ℓ) (c : Dev nD) : (⟨S512x512, .f32⟩ : BufTy).Contents (Elt F) := maximumf (k_v100 g m c) (k_call0_v0 g m c)
def k_v102 (g : Regs F) (m : (ℓ : Loc nD τ sig) → Buf (Elt F) ℓ) (c : Dev nD) : (⟨S512x768, .f32⟩ : BufTy).Contents (Elt F) := ((fun l r => Host.dotGeneral dot_S512x512_S512x768_S512x768_1_0_0_1_n_n none l r) : (⟨S512x512, .f32⟩ : BufTy).Contents (Elt F) → (⟨S512x768, .f32⟩ : BufTy).Contents (Elt F) → (⟨S512x768, .f32⟩ : BufTy).Contents (Elt F)) (k_v101 g m c) (k_arg23 g m c)
def k_v103 (g : Regs F) (m : (ℓ : Loc nD τ sig) → Buf (Elt F) ℓ) (c : Dev nD) : (⟨S1x768, .f32⟩ : BufTy).Contents (Elt F) := (broadcastInDim S1x768 ![1] bcast_S768_S1x768_1 : (⟨S768, .f32⟩ : BufTy).Contents (Elt F) → (⟨S1x768, .f32⟩ : BufTy).Contents (Elt F)) (k_arg24 g m c)
def k_v104 (g : Regs F) (m : (ℓ : Loc nD τ sig) → Buf (Elt F) ℓ) (c : Dev nD) : (⟨S512x768, .f32⟩ : BufTy).Contents (Elt F) := (broadcastInDim S512x768 ![0, 1] bcast_S1x768_S512x768_0_1 : (⟨S1x768, .f32⟩ : BufTy).Contents (Elt F) → (⟨S512x768, .f32⟩ : BufTy).Contents (Elt F)) (k_v103 g m c)
def k_v105 (g : Regs F) (m : (ℓ : Loc nD τ sig) → Buf (Elt F) ℓ) (c : Dev nD) : (⟨S512x768, .f32⟩ : BufTy).Contents (Elt F) := (addf : (⟨S512x768, .f32⟩ : BufTy).Contents (Elt F) → (⟨S512x768, .f32⟩ : BufTy).Contents (Elt F) → (⟨S512x768, .f32⟩ : BufTy).Contents (Elt F)) (k_v102 g m c) (k_v104 g m c)

end Cert.KernelIdeal.Stages

end
-- ==== Proof.KernelEval.lean ====
/-
  The one line of operations evaluated: folding it from the launch contents and reading the returned buffer gives the
  last named stage of the launch memory — every operation's result is its function of the results before it, which is
  how the stages are defined.
-/
import proofs.«127452_j31147102830955_1_alg».proof.Proof.Gen.KernelIdeal.Frame
import proofs.«127452_j31147102830955_1_alg».proof.Proof.RegionOps
import proofs.«127452_j31147102830955_1_alg».proof.Proof.KStages

set_option maxRecDepth 16384

noncomputable section

namespace Cert.KernelIdeal.Flat

open Cert.KernelIdeal Cert.KernelIdeal.Gen Cert.KernelIdeal.Stages
open Idealize.ShloMosaic Idealize.ShloMosaic.TcCoe Idealize.SL.Sem

variable (m : (ℓ : Loc nD τ sig) → Buf (Elt Ideal) ℓ) (ρ : Dev nD → PrngReg)

set_option maxHeartbeats 40000000 in
/-- The returned buffer after the one line holds the last stage of the launch memory. -/
theorem after_allOps_result (c : Dev nD) :
    StableHlo.after allOps (W0 (F := Ideal) m ρ c) (Proc.devRef .tc main_v105) = k_v105 specRegs m c := by
  unfold allOps
  simp only [hostOps0, hostOps1, hostOps2, hostOps3, hostOps4, hostOps5, hostOps6, hostOps6_1, hostOps6_2,
    List.cons_append, List.nil_append, List.append_nil]
  simp (disch := decide) only [StableHlo.after_cons, StableHlo.after_nil,
      StableHlo.nullary_result', StableHlo.unary_result', StableHlo.binary_result', StableHlo.ternary_result', StableHlo.quaternary_result', StableHlo.reshape_result',
      StableHlo.nullary_result_ne', StableHlo.unary_result_ne', StableHlo.binary_result_ne', StableHlo.ternary_result_ne', StableHlo.quaternary_result_ne', StableHlo.reshape_result_ne',
      rop0_result', rop1_result', rop2_result', rop3_result', rop4_result', rop5_result',
      rop0_result_ne', rop1_result_ne', rop2_result_ne', rop3_result_ne', rop4_result_ne', rop5_result_ne']
  rfl

end Cert.KernelIdeal.Flat

end
-- ==== Proof.KernelOps.lean ====
/-
  The idealized kernel's program IS its one line of operations.

  A pallas_call region with a single output window changes the buffer contents exactly as one host operation writing
  that window's array would: its input arrays stay as entered, its output array takes the specification's function of
  the input arrays (what each region's write-backs leave: `Finals`), nothing else moves.  So the contents after the
  last segment are the fold of the one line from the launch memory, and the returned buffer holds the last named stage.
-/
import proofs.«127452_j31147102830955_1_alg».proof.Proof.Gen.KernelIdeal.Frame
import proofs.«127452_j31147102830955_1_alg».proof.Proof.LibRegionOp
import proofs.«127452_j31147102830955_1_alg».proof.Proof.RegionOps
import proofs.«127452_j31147102830955_1_alg».proof.Proof.KernelEval

set_option maxRecDepth 16384

noncomputable section

namespace Cert.KernelIdeal.Flat

open Cert.KernelIdeal Cert.KernelIdeal.Gen Cert.KernelIdeal.Stages
open Idealize.ShloMosaic Idealize.ShloMosaic.TcCoe Idealize.SL.Sem

/-- What each region's output array holds after the region, for any contents `V` at its entry: the specification's
    function of its input arrays as `V` has them. -/
structure Finals : Prop where
  f0 : ∀ (V : (c : Dev nD) → (b : Ref sig .tc) → Buf (Elt Ideal) ((c : Thread nD τ).loc b)) (c : Dev nD),
    ((dat0 (F := Ideal) V c).arrAt 4 cfg0.N : S50000x256.Idx → EReal) = Cert.Spec.lin128 (V c main_arg0) (V c main_v13) (V c main_arg3) (V c main_v14)
  f1 : ∀ (V : (c : Dev nD) → (b : Ref sig .tc) → Buf (Elt Ideal) ((c : Thread nD τ).loc b)) (c : Dev nD),
    ((dat1 (F := Ideal) V c).arrAt 7 cfg1.N : S50000x256.Idx → EReal) = Cert.Spec.bnRelu (V c main_v15) (V c main_v19) (V c main_v26) (V c main_v27) (V c main_v28) (V c main_arg7) (V c main_v29)
  f2 : ∀ (V : (c : Dev nD) → (b : Ref sig .tc) → Buf (Elt Ideal) ((c : Thread nD τ).loc b)) (c : Dev nD),
    ((dat2 (F := Ideal) V c).arrAt 4 cfg2.N : S50000x256.Idx → EReal) = Cert.Spec.lin256 (V c main_v30) (V c main_v40) (V c main_arg9) (V c main_v41)
  f3 : ∀ (V : (c : Dev nD) → (b : Ref sig .tc) → Buf (Elt Ideal) ((c : Thread nD τ).loc b)) (c : Dev nD),
    ((dat3 (F := Ideal) V c).arrAt 7 cfg3.N : S50000x256.Idx → EReal) = Cert.Spec.bnTanhRelu (V c main_v42) (V c main_v46) (V c main_v53) (V c main_v54) (V c main_v55) (V c main_arg13) (V c main_v56)
  f4 : ∀ (V : (c : Dev nD) → (b : Ref sig .tc) → Buf (Elt Ideal) ((c : Thread nD τ).loc b)) (c : Dev nD),
    ((dat4 (F := Ideal) V c).arrAt 4 cfg4.N : S50000x256.Idx → EReal) = Cert.Spec.lin256 (V c main_v57) (V c main_v67) (V c main_arg15) (V c main_v68)
  f5 : ∀ (V : (c : Dev nD) → (b : Ref sig .tc) → Buf (Elt Ideal) ((c : Thread nD τ).loc b)) (c : Dev nD),
    ((dat5 (F := Ideal) V c).arrAt 7 cfg5.N : S50000x256.Idx → EReal) = Cert.Spec.bnTanh (V c main_v69) (V c main_v73) (V c main_v80) (V c main_v81) (V c main_v82) (V c main_arg19) (V c main_v83)

variable (m : (ℓ : Loc nD τ sig) → Buf (Elt Ideal) ℓ) (ρ : Dev nD → PrngReg)

/-! ## Each region's exit contents are its operation's result on its entry contents -/

theorem in2_0 (c : Dev nD) : (dat0 (V1 (F := Ideal) m ρ) c).arrAt 0 cfg0.N = W1 (F := Ideal) m ρ c (Proc.devRef .tc (Pipeline.arrRef spec0 0)) :=
  ((dat0 (V1 m ρ) c).arrAt_in 0 rfl _).trans (A_eq0 (V1 m ρ) c 0)
theorem in2_1 (c : Dev nD) : (dat0 (V1 (F := Ideal) m ρ) c).arrAt 1 cfg0.N = W1 (F := Ideal) m ρ c (Proc.devRef .tc (Pipeline.arrRef spec0 1)) :=
  ((dat0 (V1 m ρ) c).arrAt_in 1 rfl _).trans (A_eq0 (V1 m ρ) c 1)
theorem in2_2 (c : Dev nD) : (dat0 (V1 (F := Ideal) m ρ) c).arrAt 2 cfg0.N = W1 (F := Ideal) m ρ c (Proc.devRef .tc (Pipeline.arrRef spec0 2)) :=
  ((dat0 (V1 m ρ) c).arrAt_in 2 rfl _).trans (A_eq0 (V1 m ρ) c 2)
theorem in2_3 (c : Dev nD) : (dat0 (V1 (F := Ideal) m ρ) c).arrAt 3 cfg0.N = W1 (F := Ideal) m ρ c (Proc.devRef .tc (Pipeline.arrRef spec0 3)) :=
  ((dat0 (V1 m ρ) c).arrAt_in 3 rfl _).trans (A_eq0 (V1 m ρ) c 3)
set_option maxHeartbeats 4000000 in
theorem W2_eq (hf : Finals) (c : Dev nD) : W2 (F := Ideal) m ρ c = (rop0).result (W1 m ρ c) := by
  unfold W2
  refine Cert.LibRegionOp.withArrays_eq_result spec0 launch0.win.arr_inj c (W1 m ρ c)
    (fun w => (dat0 (V1 (F := Ideal) m ρ) c).arrAt w cfg0.N) rop0 4 rop0_writes (fun w => ?_) ?_
  · exact match w with
    | ⟨0, _⟩ => fun _ => in2_0 m ρ c
    | ⟨1, _⟩ => fun _ => in2_1 m ρ c
    | ⟨2, _⟩ => fun _ => in2_2 m ρ c
    | ⟨3, _⟩ => fun _ => in2_3 m ρ c
    | ⟨4, _⟩ => fun hw => absurd rfl hw
  · exact (hf.f0 (V1 m ρ) c).trans (rop0_result _).symm

theorem in4_0 (c : Dev nD) : (dat1 (V3 (F := Ideal) m ρ) c).arrAt 0 cfg1.N = W3 (F := Ideal) m ρ c (Proc.devRef .tc (Pipeline.arrRef spec1 0)) :=
  ((dat1 (V3 m ρ) c).arrAt_in 0 rfl _).trans (A_eq1 (V3 m ρ) c 0)
theorem in4_1 (c : Dev nD) : (dat1 (V3 (F := Ideal) m ρ) c).arrAt 1 cfg1.N = W3 (F := Ideal) m ρ c (Proc.devRef .tc (Pipeline.arrRef spec1 1)) :=
  ((dat1 (V3 m ρ) c).arrAt_in 1 rfl _).trans (A_eq1 (V3 m ρ) c 1)
theorem in4_2 (c : Dev nD) : (dat1 (V3 (F := Ideal) m ρ) c).arrAt 2 cfg1.N = W3 (F := Ideal) m ρ c (Proc.devRef .tc (Pipeline.arrRef spec1 2)) :=
  ((dat1 (V3 m ρ) c).arrAt_in 2 rfl _).trans (A_eq1 (V3 m ρ) c 2)
theorem in4_3 (c : Dev nD) : (dat1 (V3 (F := Ideal) m ρ) c).arrAt 3 cfg1.N = W3 (F := Ideal) m ρ c (Proc.devRef .tc (Pipeline.arrRef spec1 3)) :=
  ((dat1 (V3 m ρ) c).arrAt_in 3 rfl _).trans (A_eq1 (V3 m ρ) c 3)
theorem in4_4 (c : Dev nD) : (dat1 (V3 (F := Ideal) m ρ) c).arrAt 4 cfg1.N = W3 (F := Ideal) m ρ c (Proc.devRef .tc (Pipeline.arrRef spec1 4)) :=
  ((dat1 (V3 m ρ) c).arrAt_in 4 rfl _).trans (A_eq1 (V3 m ρ) c 4)
theorem in4_5 (c : Dev nD) : (dat1 (V3 (F := Ideal) m ρ) c).arrAt 5 cfg1.N = W3 (F := Ideal) m ρ c (Proc.devRef .tc (Pipeline.arrRef spec1 5)) :=
  ((dat1 (V3 m ρ) c).arrAt_in 5 rfl _).trans (A_eq1 (V3 m ρ) c 5)
theorem in4_6 (c : Dev nD) : (dat1 (V3 (F := Ideal) m ρ) c).arrAt 6 cfg1.N = W3 (F := Ideal) m ρ c (Proc.devRef .tc (Pipeline.arrRef spec1 6)) :=
  ((dat1 (V3 m ρ) c).arrAt_in 6 rfl _).trans (A_eq1 (V3 m ρ) c 6)
set_option maxHeartbeats 4000000 in
theorem W4_eq (hf : Finals) (c : Dev nD) : W4 (F := Ideal) m ρ c = (rop1).result (W3 m ρ c) := by
  unfold W4
  refine Cert.LibRegionOp.withArrays_eq_result spec1 launch1.win.arr_inj c (W3 m ρ c)
    (fun w => (dat1 (V3 (F := Ideal) m ρ) c).arrAt w cfg1.N) rop1 7 rop1_writes (fun w => ?_) ?_
  · exact match w with
    | ⟨0, _⟩ => fun _ => in4_0 m ρ c
    | ⟨1, _⟩ => fun _ => in4_1 m ρ c
    | ⟨2, _⟩ => fun _ => in4_2 m ρ c
    | ⟨3, _⟩ => fun _ => in4_3 m ρ c
    | ⟨4, _⟩ => fun _ => in4_4 m ρ c
    | ⟨5, _⟩ => fun _ => in4_5 m ρ c
    | ⟨6, _⟩ => fun _ => in4_6 m ρ c
    | ⟨7, _⟩ => fun hw => absurd rfl hw
  · exact (hf.f1 (V3 m ρ) c).trans (rop1_result _).symm

theorem in6_0 (c : Dev nD) : (dat2 (V5 (F := Ideal) m ρ) c).arrAt 0 cfg2.N = W5 (F := Ideal) m ρ c (Proc.devRef .tc (Pipeline.arrRef spec2 0)) :=
  ((dat2 (V5 m ρ) c).arrAt_in 0 rfl _).trans (A_eq2 (V5 m ρ) c 0)
theorem in6_1 (c : Dev nD) : (dat2 (V5 (F := Ideal) m ρ) c).arrAt 1 cfg2.N = W5 (F := Ideal) m ρ c (Proc.devRef .tc (Pipeline.arrRef spec2 1)) :=
  ((dat2 (V5 m ρ) c).arrAt_in 1 rfl _).trans (A_eq2 (V5 m ρ) c 1)
theorem in6_2 (c : Dev nD) : (dat2 (V5 (F := Ideal) m ρ) c).arrAt 2 cfg2.N = W5 (F := Ideal) m ρ c (Proc.devRef .tc (Pipeline.arrRef spec2 2)) :=
  ((dat2 (V5 m ρ) c).arrAt_in 2 rfl _).trans (A_eq2 (V5 m ρ) c 2)
theorem in6_3 (c : Dev nD) : (dat2 (V5 (F := Ideal) m ρ) c).arrAt 3 cfg2.N = W5 (F := Ideal) m ρ c (Proc.devRef .tc (Pipeline.arrRef spec2 3)) :=
  ((dat2 (V5 m ρ) c).arrAt_in 3 rfl _).trans (A_eq2 (V5 m ρ) c 3)
set_option maxHeartbeats 4000000 in
theorem W6_eq (hf : Finals) (c : Dev nD) : W6 (F := Ideal) m ρ c = (rop2).result (W5 m ρ c) := by
  unfold W6
  refine Cert.LibRegionOp.withArrays_eq_result spec2 launch2.win.arr_inj c (W5 m ρ c)
    (fun w => (dat2 (V5 (F := Ideal) m ρ) c).arrAt w cfg2.N) rop2 4 rop2_writes (fun w => ?_) ?_
  · exact match w with
    | ⟨0, _⟩ => fun _ => in6_0 m ρ c
    | ⟨1, _⟩ => fun _ => in6_1 m ρ c
    | ⟨2, _⟩ => fun _ => in6_2 m ρ c
    | ⟨3, _⟩ => fun _ => in6_3 m ρ c
    | ⟨4, _⟩ => fun hw => absurd rfl hw
  · exact (hf.f2 (V5 m ρ) c).trans (rop2_result _).symm

theorem in8_0 (c : Dev nD) : (dat3 (V7 (F := Ideal) m ρ) c).arrAt 0 cfg3.N = W7 (F := Ideal) m ρ c (Proc.devRef .tc (Pipeline.arrRef spec3 0)) :=
  ((dat3 (V7 m ρ) c).arrAt_in 0 rfl _).trans (A_eq3 (V7 m ρ) c 0)
theorem in8_1 (c : Dev nD) : (dat3 (V7 (F := Ideal) m ρ) c).arrAt 1 cfg3.N = W7 (F := Ideal) m ρ c (Proc.devRef .tc (Pipeline.arrRef spec3 1)) :=
  ((dat3 (V7 m ρ) c).arrAt_in 1 rfl _).trans (A_eq3 (V7 m ρ) c 1)
theorem in8_2 (c : Dev nD) : (dat3 (V7 (F := Ideal) m ρ) c).arrAt 2 cfg3.N = W7 (F := Ideal) m ρ c (Proc.devRef .tc (Pipeline.arrRef spec3 2)) :=
  ((dat3 (V7 m ρ) c).arrAt_in 2 rfl _).trans (A_eq3 (V7 m ρ) c 2)
theorem in8_3 (c : Dev nD) : (dat3 (V7 (F := Ideal) m ρ) c).arrAt 3 cfg3.N = W7 (F := Ideal) m ρ c (Proc.devRef .tc (Pipeline.arrRef spec3 3)) :=
  ((dat3 (V7 m ρ) c).arrAt_in 3 rfl _).trans (A_eq3 (V7 m ρ) c 3)
theorem in8_4 (c : Dev nD) : (dat3 (V7 (F := Ideal) m ρ) c).arrAt 4 cfg3.N = W7 (F := Ideal) m ρ c (Proc.devRef .tc (Pipeline.arrRef spec3 4)) :=
  ((dat3 (V7 m ρ) c).arrAt_in 4 rfl _).trans (A_eq3 (V7 m ρ) c 4)
theorem in8_5 (c : Dev nD) : (dat3 (V7 (F := Ideal) m ρ) c).arrAt 5 cfg3.N = W7 (F := Ideal) m ρ c (Proc.devRef .tc (Pipeline.arrRef spec3 5)) :=
  ((dat3 (V7 m ρ) c).arrAt_in 5 rfl _).trans (A_eq3 (V7 m ρ) c 5)
theorem in8_6 (c : Dev nD) : (dat3 (V7 (F := Ideal) m ρ) c).arrAt 6 cfg3.N = W7 (F := Ideal) m ρ c (Proc.devRef .tc (Pipeline.arrRef spec3 6)) :=
  ((dat3 (V7 m ρ) c).arrAt_in 6 rfl _).trans (A_eq3 (V7 m ρ) c 6)
set_option maxHeartbeats 4000000 in
theorem W8_eq (hf : Finals) (c : Dev nD) : W8 (F := Ideal) m ρ c = (rop3).result (W7 m ρ c) := by
  unfold W8
  refine Cert.LibRegionOp.withArrays_eq_result spec3 launch3.win.arr_inj c (W7 m ρ c)
    (fun w => (dat3 (V7 (F := Ideal) m ρ) c).arrAt w cfg3.N) rop3 7 rop3_writes (fun w => ?_) ?_
  · exact match w with
    | ⟨0, _⟩ => fun _ => in8_0 m ρ c
    | ⟨1, _⟩ => fun _ => in8_1 m ρ c
    | ⟨2, _⟩ => fun _ => in8_2 m ρ c
    | ⟨3, _⟩ => fun _ => in8_3 m ρ c
    | ⟨4, _⟩ => fun _ => in8_4 m ρ c
    | ⟨5, _⟩ => fun _ => in8_5 m ρ c
    | ⟨6, _⟩ => fun _ => in8_6 m ρ c
    | ⟨7, _⟩ => fun hw => absurd rfl hw
  · exact (hf.f3 (V7 m ρ) c).trans (rop3_result _).symm

theorem in10_0 (c : Dev nD) : (dat4 (V9 (F := Ideal) m ρ) c).arrAt 0 cfg4.N = W9 (F := Ideal) m ρ c (Proc.devRef .tc (Pipeline.arrRef spec4 0)) :=
  ((dat4 (V9 m ρ) c).arrAt_in 0 rfl _).trans (A_eq4 (V9 m ρ) c 0)
theorem in10_1 (c : Dev nD) : (dat4 (V9 (F := Ideal) m ρ) c).arrAt 1 cfg4.N = W9 (F := Ideal) m ρ c (Proc.devRef .tc (Pipeline.arrRef spec4 1)) :=
  ((dat4 (V9 m ρ) c).arrAt_in 1 rfl _).trans (A_eq4 (V9 m ρ) c 1)
theorem in10_2 (c : Dev nD) : (dat4 (V9 (F := Ideal) m ρ) c).arrAt 2 cfg4.N = W9 (F := Ideal) m ρ c (Proc.devRef .tc (Pipeline.arrRef spec4 2)) :=
  ((dat4 (V9 m ρ) c).arrAt_in 2 rfl _).trans (A_eq4 (V9 m ρ) c 2)
theorem in10_3 (c : Dev nD) : (dat4 (V9 (F := Ideal) m ρ) c).arrAt 3 cfg4.N = W9 (F := Ideal) m ρ c (Proc.devRef .tc (Pipeline.arrRef spec4 3)) :=
  ((dat4 (V9 m ρ) c).arrAt_in 3 rfl _).trans (A_eq4 (V9 m ρ) c 3)
set_option maxHeartbeats 4000000 in
theorem W10_eq (hf : Finals) (c : Dev nD) : W10 (F := Ideal) m ρ c = (rop4).result (W9 m ρ c) := by
  unfold W10
  refine Cert.LibRegionOp.withArrays_eq_result spec4 launch4.win.arr_inj c (W9 m ρ c)
    (fun w => (dat4 (V9 (F := Ideal) m ρ) c).arrAt w cfg4.N) rop4 4 rop4_writes (fun w => ?_) ?_
  · exact match w with
    | ⟨0, _⟩ => fun _ => in10_0 m ρ c
    | ⟨1, _⟩ => fun _ => in10_1 m ρ c
    | ⟨2, _⟩ => fun _ => in10_2 m ρ c
    | ⟨3, _⟩ => fun _ => in10_3 m ρ c
    | ⟨4, _⟩ => fun hw => absurd rfl hw
  · exact (hf.f4 (V9 m ρ) c).trans (rop4_result _).symm

theorem in12_0 (c : Dev nD) : (dat5 (V11 (F := Ideal) m ρ) c).arrAt 0 cfg5.N = W11 (F := Ideal) m ρ c (Proc.devRef .tc (Pipeline.arrRef spec5 0)) :=
  ((dat5 (V11 m ρ) c).arrAt_in 0 rfl _).trans (A_eq5 (V11 m ρ) c 0)
theorem in12_1 (c : Dev nD) : (dat5 (V11 (F := Ideal) m ρ) c).arrAt 1 cfg5.N = W11 (F := Ideal) m ρ c (Proc.devRef .tc (Pipeline.arrRef spec5 1)) :=
  ((dat5 (V11 m ρ) c).arrAt_in 1 rfl _).trans (A_eq5 (V11 m ρ) c 1)
theorem in12_2 (c : Dev nD) : (dat5 (V11 (F := Ideal) m ρ) c).arrAt 2 cfg5.N = W11 (F := Ideal) m ρ c (Proc.devRef .tc (Pipeline.arrRef spec5 2)) :=
  ((dat5 (V11 m ρ) c).arrAt_in 2 rfl _).trans (A_eq5 (V11 m ρ) c 2)
theorem in12_3 (c : Dev nD) : (dat5 (V11 (F := Ideal) m ρ) c).arrAt 3 cfg5.N = W11 (F := Ideal) m ρ c (Proc.devRef .tc (Pipeline.arrRef spec5 3)) :=
  ((dat5 (V11 m ρ) c).arrAt_in 3 rfl _).trans (A_eq5 (V11 m ρ) c 3)
theorem in12_4 (c : Dev nD) : (dat5 (V11 (F := Ideal) m ρ) c).arrAt 4 cfg5.N = W11 (F := Ideal) m ρ c (Proc.devRef .tc (Pipeline.arrRef spec5 4)) :=
  ((dat5 (V11 m ρ) c).arrAt_in 4 rfl _).trans (A_eq5 (V11 m ρ) c 4)
theorem in12_5 (c : Dev nD) : (dat5 (V11 (F := Ideal) m ρ) c).arrAt 5 cfg5.N = W11 (F := Ideal) m ρ c (Proc.devRef .tc (Pipeline.arrRef spec5 5)) :=
  ((dat5 (V11 m ρ) c).arrAt_in 5 rfl _).trans (A_eq5 (V11 m ρ) c 5)
theorem in12_6 (c : Dev nD) : (dat5 (V11 (F := Ideal) m ρ) c).arrAt 6 cfg5.N = W11 (F := Ideal) m ρ c (Proc.devRef .tc (Pipeline.arrRef spec5 6)) :=
  ((dat5 (V11 m ρ) c).arrAt_in 6 rfl _).trans (A_eq5 (V11 m ρ) c 6)
set_option maxHeartbeats 4000000 in
theorem W12_eq (hf : Finals) (c : Dev nD) : W12 (F := Ideal) m ρ c = (rop5).result (W11 m ρ c) := by
  unfold W12
  refine Cert.LibRegionOp.withArrays_eq_result spec5 launch5.win.arr_inj c (W11 m ρ c)
    (fun w => (dat5 (V11 (F := Ideal) m ρ) c).arrAt w cfg5.N) rop5 7 rop5_writes (fun w => ?_) ?_
  · exact match w with
    | ⟨0, _⟩ => fun _ => in12_0 m ρ c
    | ⟨1, _⟩ => fun _ => in12_1 m ρ c
    | ⟨2, _⟩ => fun _ => in12_2 m ρ c
    | ⟨3, _⟩ => fun _ => in12_3 m ρ c
    | ⟨4, _⟩ => fun _ => in12_4 m ρ c
    | ⟨5, _⟩ => fun _ => in12_5 m ρ c
    | ⟨6, _⟩ => fun _ => in12_6 m ρ c
    | ⟨7, _⟩ => fun hw => absurd rfl hw
  · exact (hf.f5 (V11 m ρ) c).trans (rop5_result _).symm

/-! ## The whole program as one line -/

/-- The contents after the last segment are the fold of the one line from the launch contents. -/
theorem W15_eq (hf : Finals) (c : Dev nD) : W15 (F := Ideal) m ρ c = StableHlo.after allOps (W0 (F := Ideal) m ρ c) := by
  have h1 : W1 (F := Ideal) m ρ c = (StableHlo.after hostOps0 (W0 (F := Ideal) m ρ c)) := rfl
  have h2 : W2 (F := Ideal) m ρ c = ((rop0).result (StableHlo.after hostOps0 (W0 (F := Ideal) m ρ c))) := by
    rw [W2_eq m ρ hf c, h1]
  have h3 : W3 (F := Ideal) m ρ c = (StableHlo.after hostOps1 ((rop0).result (StableHlo.after hostOps0 (W0 (F := Ideal) m ρ c)))) := by
    show StableHlo.after hostOps1 (W2 (F := Ideal) m ρ c) = _
    rw [h2]
  have h4 : W4 (F := Ideal) m ρ c = ((rop1).result (StableHlo.after hostOps1 ((rop0).result (StableHlo.after hostOps0 (W0 (F := Ideal) m ρ c))))) := by
    rw [W4_eq m ρ hf c, h3]
  have h5 : W5 (F := Ideal) m ρ c = (StableHlo.after hostOps2 ((rop1).result (StableHlo.after hostOps1 ((rop0).result (StableHlo.after hostOps0 (W0 (F := Ideal) m ρ c)))))) := by
    show StableHlo.after hostOps2 (W4 (F := Ideal) m ρ c) = _
    rw [h4]
  have h6 : W6 (F := Ideal) m ρ c = ((rop2).result (StableHlo.after hostOps2 ((rop1).result (StableHlo.after hostOps1 ((rop0).result (StableHlo.after hostOps0 (W0 (F := Ideal) m ρ c))))))) := by
    rw [W6_eq m ρ hf c, h5]
  have h7 : W7 (F := Ideal) m ρ c = (StableHlo.after hostOps3 ((rop2).result (StableHlo.after hostOps2 ((rop1).result (StableHlo.after hostOps1 ((rop0).result (StableHlo.after hostOps0 (W0 (F := Ideal) m ρ c)))))))) := by
    show StableHlo.after hostOps3 (W6 (F := Ideal) m ρ c) = _
    rw [h6]
  have h8 : W8 (F := Ideal) m ρ c = ((rop3).result (StableHlo.after hostOps3 ((rop2).result (StableHlo.after hostOps2 ((rop1).result (StableHlo.after hostOps1 ((rop0).result (StableHlo.after hostOps0 (W0 (F := Ideal) m ρ c))))))))) := by
    rw [W8_eq m ρ hf c, h7]
  have h9 : W9 (F := Ideal) m ρ c = (StableHlo.after hostOps4 ((rop3).result (StableHlo.after hostOps3 ((rop2).result (StableHlo.after hostOps2 ((rop1).result (StableHlo.after hostOps1 ((rop0).result (StableHlo.after hostOps0 (W0 (F := Ideal) m ρ c)))))))))) := by
    show StableHlo.after hostOps4 (W8 (F := Ideal) m ρ c) = _
    rw [h8]
  have h10 : W10 (F := Ideal) m ρ c = ((rop4).result (StableHlo.after hostOps4 ((rop3).result (StableHlo.after hostOps3 ((rop2).result (StableHlo.after hostOps2 ((rop1).result (StableHlo.after hostOps1 ((rop0).result (StableHlo.after hostOps0 (W0 (F := Ideal) m ρ c))))))))))) := by
    rw [W10_eq m ρ hf c, h9]
  have h11 : W11 (F := Ideal) m ρ c = (StableHlo.after hostOps5 ((rop4).result (StableHlo.after hostOps4 ((rop3).result (StableHlo.after hostOps3 ((rop2).result (StableHlo.after hostOps2 ((rop1).result (StableHlo.after hostOps1 ((rop0).result (StableHlo.after hostOps0 (W0 (F := Ideal) m ρ c)))))))))))) := by
    show StableHlo.after hostOps5 (W10 (F := Ideal) m ρ c) = _
    rw [h10]
  have h12 : W12 (F := Ideal) m ρ c = ((rop5).result (StableHlo.after hostOps5 ((rop4).result (StableHlo.after hostOps4 ((rop3).result (StableHlo.after hostOps3 ((rop2).result (StableHlo.after hostOps2 ((rop1).result (StableHlo.after hostOps1 ((rop0).result (StableHlo.after hostOps0 (W0 (F := Ideal) m ρ c))))))))))))) := by
    rw [W12_eq m ρ hf c, h11]
  have h13 : W13 (F := Ideal) m ρ c = (StableHlo.after hostOps6 ((rop5).result (StableHlo.after hostOps5 ((rop4).result (StableHlo.after hostOps4 ((rop3).result (StableHlo.after hostOps3 ((rop2).result (StableHlo.after hostOps2 ((rop1).result (StableHlo.after hostOps1 ((rop0).result (StableHlo.after hostOps0 (W0 (F := Ideal) m ρ c)))))))))))))) := by
    show StableHlo.after hostOps6 (W12 (F := Ideal) m ρ c) = _
    rw [h12]
  have h14 : W14 (F := Ideal) m ρ c = (StableHlo.after hostOps6_1 (StableHlo.after hostOps6 ((rop5).result (StableHlo.after hostOps5 ((rop4).result (StableHlo.after hostOps4 ((rop3).result (StableHlo.after hostOps3 ((rop2).result (StableHlo.after hostOps2 ((rop1).result (StableHlo.after hostOps1 ((rop0).result (StableHlo.after hostOps0 (W0 (F := Ideal) m ρ c))))))))))))))) := by
    show StableHlo.after hostOps6_1 (W13 (F := Ideal) m ρ c) = _
    rw [h13]
  have h15 : W15 (F := Ideal) m ρ c = (StableHlo.after hostOps6_2 (StableHlo.after hostOps6_1 (StableHlo.after hostOps6 ((rop5).result (StableHlo.after hostOps5 ((rop4).result (StableHlo.after hostOps4 ((rop3).result (StableHlo.after hostOps3 ((rop2).result (StableHlo.after hostOps2 ((rop1).result (StableHlo.after hostOps1 ((rop0).result (StableHlo.after hostOps0 (W0 (F := Ideal) m ρ c)))))))))))))))) := by
    show StableHlo.after hostOps6_2 (W14 (F := Ideal) m ρ c) = _
    rw [h14]
  rw [h15]
  unfold allOps
  simp only [← Cert.LibRegionOp.after_append, StableHlo.after_cons]

/-- So the program's result buffer, read in the final contents, is the last stage. -/
theorem result_eq (hf : Finals) (c : Dev nD) : W15 (F := Ideal) m ρ c (Proc.devRef .tc main_v105) = k_v105 specRegs m c := by
  rw [W15_eq m ρ hf c]; exact after_allOps_result m ρ c

end Cert.KernelIdeal.Flat

end
-- ==== Proof.RegionA0.lean ====
/-
  The first product of the first layer: the region computes, for every node (row) r and output feature j,

      z r j = ∑ₖ (h r k + agg r k) · w k j + b j        (k over the 128 input features),

  in 25 steps of 2000 rows each.  Step t reads rows 2000·t … 2000·t + 1999 (all 128 columns) of the node features
  and of the neighbour sums, the whole 128 × 256 weight matrix and the whole one-row bias, and writes rows
  2000·t … 2000·t + 1999 (all 256 columns) of the result.  So entry (r, j) of the result depends on row r of the
  two node arrays, column j of the weight matrix and entry j of the bias, and it is written by step r / 2000.

  The steps below: the body's arithmetic read at an index (the matrix product as a sum over the contracted
  coordinate, the bias row repeated over the rows); each block read as rows of its array; what one step writes
  back as a block of the target function; every row is written by some step; hence the whole array.
-/
import proofs.«127452_j31147102830955_1_alg».proof.Proof.Gen.KernelIdeal.Frame
import proofs.«127452_j31147102830955_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The body loads and stores whole staging buffers: every offset is zero. -/
theorem zero_off0 : (![0, 0] : Fin 2 → Nat) = fun _ => 0 := funext fun a => by fin_cases a <;> rfl

/-! ## The product's operand indices: the left operand at (row, k), the right at (k, column) -/

theorem lhs0_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs0_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs0_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs0_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The body's arithmetic at entry (p, q) of the block: the changes of float format and the same-shape casts are
    identities, the product into a zero accumulator is the sum over the contracted coordinate, the bias row is repeated
    over the rows. -/
theorem pay0_apply (x0 x1 : Vec Ideal S2000x128 .f32) (x2 : Vec Ideal S128x256 .f32) (x3 : Vec Ideal S1x256 .f32)
    (p : Fin 2000) (q : Fin 256) :
    k0_pay1 (F := Ideal) x0 x1 x2 x3 (ix2 p q)
      = (∑ k : Fin 128, (x0 (ix2 p k) + x1 (ix2 p k)) * x2 (ix2 k q)) + x3 (ix2 (0 : Fin 1) q) := by
  unfold k0_pay1
  simp only [shapeCast_self, matmul]
  rw [addf_apply, broadcastTo_1b_ab_apply, Ideal.matmul_constant_zero_apply,
    ← Equiv.sum_comp (contrEquiv1 dot_S2000x128_S128x256_S2000x256_1_0_0_1_n_n 128 rfl rfl).symm]
  refine congrArg (· + x3 (ix2 (0 : Fin 1) q)) (Finset.sum_congr rfl fun k _ => ?_)
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs0_0 _ _
    | ⟨1, _⟩ => exact (lhs0_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  rfl

/-- The output's staging buffer after the body: one whole-buffer store of that arithmetic over whole-buffer loads. -/
theorem out0_4_apply (x0 x1 : Vec Ideal S2000x128 .f32) (x2 : Vec Ideal S128x256 .f32) (x3 : Vec Ideal S1x256 .f32)
    (p : Fin 2000) (q : Fin 256) :
    out0_4 (F := Ideal) x0 x1 x2 x3 (ix2 p q)
      = (∑ k : Fin 128, (x0 (ix2 p k) + x1 (ix2 p k)) * x2 (ix2 k q)) + x3 (ix2 (0 : Fin 1) q) := by
  unfold out0_4
  rw [View.canon_unit_zero zero_off0]
  simp only [View.ld_unit_zero (S := S2000x128) zero_off0, View.ld_unit_zero (S := S128x256) zero_off0, View.ld_unit_zero (S := S1x256) zero_off0]
  exact pay0_apply x0 x1 x2 x3 p q

/-- The printed block-index maps, decided once over the 25 grid points: the two row-blocked inputs and the output
    are at row block `t`, column block 0; the weight matrix and the bias row are whole. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-! ## Each input block as entries of its array: row 2000·t + p of the two node arrays, the small arrays whole -/

theorem iblk0_0_apply (c : Dev nD) (t : Fin cfg0.N) (p : Fin 2000) (k : Fin 128) (i : S50000x128.Idx)
    (h0 : (i 0).val = 2000 * t.val + p.val) (h1 : (i 1).val = k.val) :
    (iblk0 V c 0 t : Vec Ideal S2000x128 .f32) (ix2 p k) = (V c main_arg0 : S50000x128.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * p.val = (i 0).val; rw [e0, h0]; omega
  | ⟨1, _⟩ => show win0_0.index t (1 : Fin 2) * 128 + 1 * k.val = (i 1).val; rw [e1, h1]; omega

theorem iblk0_1_apply (c : Dev nD) (t : Fin cfg0.N) (p : Fin 2000) (k : Fin 128) (i : S50000x128.Idx)
    (h0 : (i 0).val = 2000 * t.val + p.val) (h1 : (i 1).val = k.val) :
    (iblk0 V c 1 t : Vec Ideal S2000x128 .f32) (ix2 p k) = (V c main_v13 : S50000x128.Idx → EReal) i := by
  obtain ⟨-, -, e0, e1, -⟩ := idx_facts0 t
  unfold iblk0
  rw [View.read_apply]
  show V c main_v13 _ = V c main_v13 _
  congr 1
  funext a
  apply Fin.ext
  match a with
  | ⟨0, _⟩ => show win0_1.index t (0 : Fin 2) * 2000 + 1 * p.val = (i 0).val; rw [e0, h0]; omega
  | ⟨1, _⟩ => show win0_1.index t (1 : Fin 2) * 128 + 1 * k.val = (i 1).val; rw [e1, h1]; omega

theorem iblk0_2_apply (c : Dev nD) (t : Fin cfg0.N) (k : Fin 128) (q : Fin 256) (i : S128x256.Idx)
    (h0 : (i 0).val = k.val) (h1 : (i 1).val = q.val) :
    (iblk0 V c 2 t : Vec Ideal S128x256 .f32) (ix2 k q) = (V c main_arg3 : S128x256.Idx → EReal) i := by
  obtain ⟨-, -, -, -, e0, e1, -⟩ := idx_facts0 t
  unfold iblk0
  rw [View.read_apply]
  show V c main_arg3 _ = V c main_arg3 _
  congr 1
  funext a
  apply Fin.ext
  match a with
  | ⟨0, _⟩ => show win0_2.index t (0 : Fin 2) * 128 + 1 * k.val = (i 0).val; rw [e0, h0]; omega
  | ⟨1, _⟩ => show win0_2.index t (1 : Fin 2) * 256 + 1 * q.val = (i 1).val; rw [e1, h1]; omega

theorem iblk0_3_apply (c : Dev nD) (t : Fin cfg0.N) (q : Fin 256) (i : S1x256.Idx)
    (h0 : (i 0).val = 0) (h1 : (i 1).val = q.val) :
    (iblk0 V c 3 t : Vec Ideal S1x256 .f32) (ix2 (0 : Fin 1) q) = (V c main_v14 : S1x256.Idx → EReal) i := by
  obtain ⟨-, -, -, -, -, -, e0, e1, -⟩ := idx_facts0 t
  unfold iblk0
  rw [View.read_apply]
  show V c main_v14 _ = V c main_v14 _
  congr 1
  funext a
  apply Fin.ext
  match a with
  | ⟨0, _⟩ => show win0_3.index t (0 : Fin 2) * 1 + 1 * (0 : Fin 1).val = (i 0).val; rw [e0, h0]; rfl
  | ⟨1, _⟩ => show win0_3.index t (1 : Fin 2) * 256 + 1 * q.val = (i 1).val; rw [e1, h1]; omega

/-- What point `t` writes back is block `t` (rows 2000·t … 2000·t + 1999, all columns) of the target function of the arrays
    as the region finds them. -/
theorem flushed0_eq (c : Dev nD) (t : Fin cfg0.N) :
    (dat0 (F := Ideal) V c).flushed 4 t = ((cfg0.win 4).blk t).view.read (Elt Ideal)
      (Cert.Spec.lin128 (V c main_arg0) (V c main_v13) (V c main_arg3) (V c main_v14)) := by
  show (cfg0.win 4).cut (grid0.coords t) ((dat0 V c).after 4 t) = _
  rw [after0_4]
  obtain ⟨-, -, -, -, -, -, -, -, e8, e9⟩ := idx_facts0 t
  funext j
  obtain ⟨p, q, rfl⟩ : ∃ (p : Fin 2000) (q : Fin 256), j = ix2 p q := ⟨j 0, j 1, eq_ix2 j⟩
  refine (out0_4_apply _ _ _ _ p q).trans ?_
  rw [View.read_apply]
  unfold Cert.Spec.lin128
  have hr : ((((cfg0.win 4).blk t).view.emb (ix2 p q)) 0).val = 2000 * t.val + p.val := by
    show win0_4.index t (0 : Fin 2) * 2000 + 1 * p.val = _; rw [e8]; omega
  have hq : ((((cfg0.win 4).blk t).view.emb (ix2 p q)) 1).val = q.val := by
    show win0_4.index t (1 : Fin 2) * 256 + 1 * q.val = _; rw [e9]; omega
  refine congrArg₂ (· + ·) (Finset.sum_congr rfl fun k _ => congrArg₂ (· * ·) (congrArg₂ (· + ·) ?_ ?_) ?_) ?_
  · exact iblk0_0_apply V c t p k _ hr rfl
  · exact iblk0_1_apply V c t p k _ hr rfl
  · exact iblk0_2_apply V c t k q _ rfl hq
  · exact iblk0_3_apply V c t q _ rfl hq

/-- An index of the output array is in point `t`'s block iff each coordinate is in the block's range on its axis. -/
theorem mem_blk0 (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v15).slice (win0_4.rect t)).set ↔ _
  rw [View.set_slice_whole, Rect.mem_set_unit]
  exact Iff.rfl

/-- Row `r` of the output is written by point `r / 2000`. -/
theorem cover0 (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  have hN : grid0.N = 25 := N_0
  let t : Fin cfg0.N := ⟨(i 0).val / 2000, by show _ < grid0.N; omega⟩
  obtain ⟨-, -, -, -, -, -, -, -, e8, e9⟩ := idx_facts0 t
  have ht : t.val = (i 0).val / 2000 := rfl
  refine ⟨t, flush0_4 t, ?_⟩
  rw [mem_blk0]
  intro a
  match a with
  | ⟨0, _⟩ => show win0_4.index t (0 : Fin 2) * 2000 ≤ (i 0).val ∧ (i 0).val < win0_4.index t (0 : Fin 2) * 2000 + 2000; rw [e8, ht]; omega
  | ⟨1, _⟩ => show win0_4.index t (1 : Fin 2) * 256 ≤ (i 1).val ∧ (i 1).val < win0_4.index t (1 : Fin 2) * 256 + 256; rw [e9]; omega

/-- The output array after the region's 25 points: the target function of the arrays as the region finds them. -/
theorem final0 (c : Dev nD) :
    ((dat0 (F := Ideal) V c).arrAt 4 cfg0.N : S50000x256.Idx → EReal)
      = Cert.Spec.lin128 (V c main_arg0) (V c main_v13) (V c main_arg3) (V c main_v14) :=
  (dat0 (F := Ideal) V c).arrAt_eq_of_cover 4 _ (fun t _ => flushed0_eq V c t) cover0

end Cert.KernelIdeal.RegionValue

end
-- ==== Proof.RegionA2.lean ====
/-
  The first product of the second layer: the region computes, for every node (row) r and output feature j,

      z r j = ∑ₖ (h r k + agg r k) · w k j + b j        (k over the 256 input features),

  in 25 steps of 2000 rows each.  Step t reads rows 2000·t … 2000·t + 1999 (all 256 columns) of the node features
  and of the neighbour sums, the whole 256 × 256 weight matrix and the whole one-row bias, and writes rows
  2000·t … 2000·t + 1999 (all 256 columns) of the result.  So entry (r, j) of the result depends on row r of the
  two node arrays, column j of the weight matrix and entry j of the bias, and it is written by step r / 2000.

  The steps below: the body's arithmetic read at an index (the matrix product as a sum over the contracted
  coordinate, the bias row repeated over the rows); each block read as rows of its array; what one step writes
  back as a block of the target function; every row is written by some step; hence the whole array.
-/
import proofs.«127452_j31147102830955_1_alg».proof.Proof.Gen.KernelIdeal.Frame
import proofs.«127452_j31147102830955_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The body loads and stores whole staging buffers: every offset is zero. -/
theorem zero_off2 : (![0, 0] : Fin 2 → Nat) = fun _ => 0 := funext fun a => by fin_cases a <;> rfl

/-! ## The product's operand indices: the left operand at (row, k), the right at (k, column) -/

theorem lhs2_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs2_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs2_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs2_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's arithmetic at entry (p, q) of the block: the changes of float format and the same-shape casts are
    identities, the product into a zero accumulator is the sum over the contracted coordinate, the bias row is repeated
    over the rows. -/
theorem pay2_apply (x0 x1 : Vec Ideal S2000x256 .f32) (x2 : Vec Ideal S256x256 .f32) (x3 : Vec Ideal S1x256 .f32)
    (p : Fin 2000) (q : Fin 256) :
    k2_pay1 (F := Ideal) x0 x1 x2 x3 (ix2 p q)
      = (∑ k : Fin 256, (x0 (ix2 p k) + x1 (ix2 p k)) * x2 (ix2 k q)) + x3 (ix2 (0 : Fin 1) q) := by
  unfold k2_pay1
  simp only [shapeCast_self, matmul]
  rw [addf_apply, broadcastTo_1b_ab_apply, Ideal.matmul_constant_zero_apply,
    ← Equiv.sum_comp (contrEquiv1 dot_S2000x256_S256x256_S2000x256_1_0_0_1_n_n 256 rfl rfl).symm]
  refine congrArg (· + x3 (ix2 (0 : Fin 1) q)) (Finset.sum_congr rfl fun k _ => ?_)
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs2_0 _ _
    | ⟨1, _⟩ => exact (lhs2_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs2_0 _ _).trans hk
    | ⟨1, _⟩ => exact rhs2_1 _ _)
  rw [el, er]
  rfl

/-- The output's staging buffer after the body: one whole-buffer store of that arithmetic over whole-buffer loads. -/
theorem out2_4_apply (x0 x1 : Vec Ideal S2000x256 .f32) (x2 : Vec Ideal S256x256 .f32) (x3 : Vec Ideal S1x256 .f32)
    (p : Fin 2000) (q : Fin 256) :
    out2_4 (F := Ideal) x0 x1 x2 x3 (ix2 p q)
      = (∑ k : Fin 256, (x0 (ix2 p k) + x1 (ix2 p k)) * x2 (ix2 k q)) + x3 (ix2 (0 : Fin 1) q) := by
  unfold out2_4
  rw [View.canon_unit_zero zero_off2]
  simp only [View.ld_unit_zero (S := S2000x256) zero_off2, View.ld_unit_zero (S := S256x256) zero_off2, View.ld_unit_zero (S := S1x256) zero_off2]
  exact pay2_apply x0 x1 x2 x3 p q

/-- The printed block-index maps, decided once over the 25 grid points: the two row-blocked inputs and the output
    are at row block `t`, column block 0; the weight matrix and the bias row are whole. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-! ## Each input block as entries of its array: row 2000·t + p of the two node arrays, the small arrays whole -/

theorem iblk2_0_apply (c : Dev nD) (t : Fin cfg2.N) (p : Fin 2000) (k : Fin 256) (i : S50000x256.Idx)
    (h0 : (i 0).val = 2000 * t.val + p.val) (h1 : (i 1).val = k.val) :
    (iblk2 V c 0 t : Vec Ideal S2000x256 .f32) (ix2 p k) = (V c main_v30 : S50000x256.Idx → EReal) i := by
  obtain ⟨e0, e1, -⟩ := idx_facts2 t
  unfold iblk2
  rw [View.read_apply]
  show V c main_v30 _ = V c main_v30 _
  congr 1
  funext a
  apply Fin.ext
  match a with
  | ⟨0, _⟩ => show win2_0.index t (0 : Fin 2) * 2000 + 1 * p.val = (i 0).val; rw [e0, h0]; omega
  | ⟨1, _⟩ => show win2_0.index t (1 : Fin 2) * 256 + 1 * k.val = (i 1).val; rw [e1, h1]; omega

theorem iblk2_1_apply (c : Dev nD) (t : Fin cfg2.N) (p : Fin 2000) (k : Fin 256) (i : S50000x256.Idx)
    (h0 : (i 0).val = 2000 * t.val + p.val) (h1 : (i 1).val = k.val) :
    (iblk2 V c 1 t : Vec Ideal S2000x256 .f32) (ix2 p k) = (V c main_v40 : S50000x256.Idx → EReal) i := by
  obtain ⟨-, -, e0, e1, -⟩ := idx_facts2 t
  unfold iblk2
  rw [View.read_apply]
  show V c main_v40 _ = V c main_v40 _
  congr 1
  funext a
  apply Fin.ext
  match a with
  | ⟨0, _⟩ => show win2_1.index t (0 : Fin 2) * 2000 + 1 * p.val = (i 0).val; rw [e0, h0]; omega
  | ⟨1, _⟩ => show win2_1.index t (1 : Fin 2) * 256 + 1 * k.val = (i 1).val; rw [e1, h1]; omega

theorem iblk2_2_apply (c : Dev nD) (t : Fin cfg2.N) (k : Fin 256) (q : Fin 256) (i : S256x256.Idx)
    (h0 : (i 0).val = k.val) (h1 : (i 1).val = q.val) :
    (iblk2 V c 2 t : Vec Ideal S256x256 .f32) (ix2 k q) = (V c main_arg9 : S256x256.Idx → EReal) i := by
  obtain ⟨-, -, -, -, e0, e1, -⟩ := idx_facts2 t
  unfold iblk2
  rw [View.read_apply]
  show V c main_arg9 _ = V c main_arg9 _
  congr 1
  funext a
  apply Fin.ext
  match a with
  | ⟨0, _⟩ => show win2_2.index t (0 : Fin 2) * 256 + 1 * k.val = (i 0).val; rw [e0, h0]; omega
  | ⟨1, _⟩ => show win2_2.index t (1 : Fin 2) * 256 + 1 * q.val = (i 1).val; rw [e1, h1]; omega

theorem iblk2_3_apply (c : Dev nD) (t : Fin cfg2.N) (q : Fin 256) (i : S1x256.Idx)
    (h0 : (i 0).val = 0) (h1 : (i 1).val = q.val) :
    (iblk2 V c 3 t : Vec Ideal S1x256 .f32) (ix2 (0 : Fin 1) q) = (V c main_v41 : S1x256.Idx → EReal) i := by
  obtain ⟨-, -, -, -, -, -, e0, e1, -⟩ := idx_facts2 t
  unfold iblk2
  rw [View.read_apply]
  show V c main_v41 _ = V c main_v41 _
  congr 1
  funext a
  apply Fin.ext
  match a with
  | ⟨0, _⟩ => show win2_3.index t (0 : Fin 2) * 1 + 1 * (0 : Fin 1).val = (i 0).val; rw [e0, h0]; rfl
  | ⟨1, _⟩ => show win2_3.index t (1 : Fin 2) * 256 + 1 * q.val = (i 1).val; rw [e1, h1]; omega

/-- What point `t` writes back is block `t` (rows 2000·t … 2000·t + 1999, all columns) of the target function of the arrays
    as the region finds them. -/
theorem flushed2_eq (c : Dev nD) (t : Fin cfg2.N) :
    (dat2 (F := Ideal) V c).flushed 4 t = ((cfg2.win 4).blk t).view.read (Elt Ideal)
      (Cert.Spec.lin256 (V c main_v30) (V c main_v40) (V c main_arg9) (V c main_v41)) := by
  show (cfg2.win 4).cut (grid2.coords t) ((dat2 V c).after 4 t) = _
  rw [after2_4]
  obtain ⟨-, -, -, -, -, -, -, -, e8, e9⟩ := idx_facts2 t
  funext j
  obtain ⟨p, q, rfl⟩ : ∃ (p : Fin 2000) (q : Fin 256), j = ix2 p q := ⟨j 0, j 1, eq_ix2 j⟩
  refine (out2_4_apply _ _ _ _ p q).trans ?_
  rw [View.read_apply]
  unfold Cert.Spec.lin256
  have hr : ((((cfg2.win 4).blk t).view.emb (ix2 p q)) 0).val = 2000 * t.val + p.val := by
    show win2_4.index t (0 : Fin 2) * 2000 + 1 * p.val = _; rw [e8]; omega
  have hq : ((((cfg2.win 4).blk t).view.emb (ix2 p q)) 1).val = q.val := by
    show win2_4.index t (1 : Fin 2) * 256 + 1 * q.val = _; rw [e9]; omega
  refine congrArg₂ (· + ·) (Finset.sum_congr rfl fun k _ => congrArg₂ (· * ·) (congrArg₂ (· + ·) ?_ ?_) ?_) ?_
  · exact iblk2_0_apply V c t p k _ hr rfl
  · exact iblk2_1_apply V c t p k _ hr rfl
  · exact iblk2_2_apply V c t k q _ rfl hq
  · exact iblk2_3_apply V c t q _ rfl hq

/-- An index of the output array is in point `t`'s block iff each coordinate is in the block's range on its axis. -/
theorem mem_blk2 (t : Fin cfg2.N) (i : S50000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v42).slice (win2_4.rect t)).set ↔ _
  rw [View.set_slice_whole, Rect.mem_set_unit]
  exact Iff.rfl

/-- Row `r` of the output is written by point `r / 2000`. -/
theorem cover2 (i : S50000x256.Idx) : ∃ t : Fin cfg2.N, (cfg2.win 4).flush t = true ∧ i ∈ ((cfg2.win 4).blk t).view.set := by
  have hi0 : (i 0).val < 50000 := (i 0).isLt
  have hi1 : (i 1).val < 256 := (i 1).isLt
  have hN : grid2.N = 25 := N_2
  let t : Fin cfg2.N := ⟨(i 0).val / 2000, by show _ < grid2.N; omega⟩
  obtain ⟨-, -, -, -, -, -, -, -, e8, e9⟩ := idx_facts2 t
  have ht : t.val = (i 0).val / 2000 := rfl
  refine ⟨t, flush2_4 t, ?_⟩
  rw [mem_blk2]
  intro a
  match a with
  | ⟨0, _⟩ => show win2_4.index t (0 : Fin 2) * 2000 ≤ (i 0).val ∧ (i 0).val < win2_4.index t (0 : Fin 2) * 2000 + 2000; rw [e8, ht]; omega
  | ⟨1, _⟩ => show win2_4.index t (1 : Fin 2) * 256 ≤ (i 1).val ∧ (i 1).val < win2_4.index t (1 : Fin 2) * 256 + 256; rw [e9]; omega

/-- The output array after the region's 25 points: the target function of the arrays as the region finds them. -/
theorem final2 (c : Dev nD) :
    ((dat2 (F := Ideal) V c).arrAt 4 cfg2.N : S50000x256.Idx → EReal)
      = Cert.Spec.lin256 (V c main_v30) (V c main_v40) (V c main_arg9) (V c main_v41) :=
  (dat2 (F := Ideal) V c).arrAt_eq_of_cover 4 _ (fun t _ => flushed2_eq V c t) cover2

end Cert.KernelIdeal.RegionValue

end
-- ==== Proof.RegionA4.lean ====
/-
  The first product of the third layer: the region computes, for every node (row) r and output feature j,

      z r j = ∑ₖ (h r k + agg r k) · w k j + b j        (k over the 256 input features),

  in 25 steps of 2000 rows each.  Step t reads rows 2000·t … 2000·t + 1999 (all 256 columns) of the node features
  and of the neighbour sums, the whole 256 × 256 weight matrix and the whole one-row bias, and writes rows
  2000·t … 2000·t + 1999 (all 256 columns) of the result.  So entry (r, j) of the result depends on row r of the
  two node arrays, column j of the weight matrix and entry j of the bias, and it is written by step r / 2000.

  The steps below: the body's arithmetic read at an index (the matrix product as a sum over the contracted
  coordinate, the bias row repeated over the rows); each block read as rows of its array; what one step writes
  back as a block of the target function; every row is written by some step; hence the whole array.
-/
import proofs.«127452_j31147102830955_1_alg».proof.Proof.Gen.KernelIdeal.Frame
import proofs.«127452_j31147102830955_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The body loads and stores whole staging buffers: every offset is zero. -/
theorem zero_off4 : (![0, 0] : Fin 2 → Nat) = fun _ => 0 := funext fun a => by fin_cases a <;> rfl

/-! ## The product's operand indices: the left operand at (row, k), the right at (k, column) -/

theorem lhs4_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs4_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs4_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs4_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's arithmetic at entry (p, q) of the block: the changes of float format and the same-shape casts are
    identities, the product into a zero accumulator is the sum over the contracted coordinate, the bias row is repeated
    over the rows. -/
theorem pay4_apply (x0 x1 : Vec Ideal S2000x256 .f32) (x2 : Vec Ideal S256x256 .f32) (x3 : Vec Ideal S1x256 .f32)
    (p : Fin 2000) (q : Fin 256) :
    k4_pay1 (F := Ideal) x0 x1 x2 x3 (ix2 p q)
      = (∑ k : Fin 256, (x0 (ix2 p k) + x1 (ix2 p k)) * x2 (ix2 k q)) + x3 (ix2 (0 : Fin 1) q) := by
  unfold k4_pay1
  simp only [shapeCast_self, matmul]
  rw [addf_apply, broadcastTo_1b_ab_apply, Ideal.matmul_constant_zero_apply,
    ← Equiv.sum_comp (contrEquiv1 dot_S2000x256_S256x256_S2000x256_1_0_0_1_n_n 256 rfl rfl).symm]
  refine congrArg (· + x3 (ix2 (0 : Fin 1) q)) (Finset.sum_congr rfl fun k _ => ?_)
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs4_0 _ _
    | ⟨1, _⟩ => exact (lhs4_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs4_0 _ _).trans hk
    | ⟨1, _⟩ => exact rhs4_1 _ _)
  rw [el, er]
  rfl

/-- The output's staging buffer after the body: one whole-buffer store of that arithmetic over whole-buffer loads. -/
theorem out4_4_apply (x0 x1 : Vec Ideal S2000x256 .f32) (x2 : Vec Ideal S256x256 .f32) (x3 : Vec Ideal S1x256 .f32)
    (p : Fin 2000) (q : Fin 256) :
    out4_4 (F := Ideal) x0 x1 x2 x3 (ix2 p q)
      = (∑ k : Fin 256, (x0 (ix2 p k) + x1 (ix2 p k)) * x2 (ix2 k q)) + x3 (ix2 (0 : Fin 1) q) := by
  unfold out4_4
  rw [View.canon_unit_zero zero_off4]
  simp only [View.ld_unit_zero (S := S2000x256) zero_off4, View.ld_unit_zero (S := S256x256) zero_off4, View.ld_unit_zero (S := S1x256) zero_off4]
  exact pay4_apply x0 x1 x2 x3 p q

/-- The printed block-index maps, decided once over the 25 grid points: the two row-blocked inputs and the output
    are at row block `t`, column block 0; the weight matrix and the bias row are whole. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b))

/-! ## Each input block as entries of its array: row 2000·t + p of the two node arrays, the small arrays whole -/

theorem iblk4_0_apply (c : Dev nD) (t : Fin cfg4.N) (p : Fin 2000) (k : Fin 256) (i : S50000x256.Idx)
    (h0 : (i 0).val = 2000 * t.val + p.val) (h1 : (i 1).val = k.val) :
    (iblk4 V c 0 t : Vec Ideal S2000x256 .f32) (ix2 p k) = (V c main_v57 : S50000x256.Idx → EReal) i := by
  obtain ⟨e0, e1, -⟩ := idx_facts4 t
  unfold iblk4
  rw [View.read_apply]
  show V c main_v57 _ = V c main_v57 _
  congr 1
  funext a
  apply Fin.ext
  match a with
  | ⟨0, _⟩ => show win4_0.index t (0 : Fin 2) * 2000 + 1 * p.val = (i 0).val; rw [e0, h0]; omega
  | ⟨1, _⟩ => show win4_0.index t (1 : Fin 2) * 256 + 1 * k.val = (i 1).val; rw [e1, h1]; omega

theorem iblk4_1_apply (c : Dev nD) (t : Fin cfg4.N) (p : Fin 2000) (k : Fin 256) (i : S50000x256.Idx)
    (h0 : (i 0).val = 2000 * t.val + p.val) (h1 : (i 1).val = k.val) :
    (iblk4 V c 1 t : Vec Ideal S2000x256 .f32) (ix2 p k) = (V c main_v67 : S50000x256.Idx → EReal) i := by
  obtain ⟨-, -, e0, e1, -⟩ := idx_facts4 t
  unfold iblk4
  rw [View.read_apply]
  show V c main_v67 _ = V c main_v67 _
  congr 1
  funext a
  apply Fin.ext
  match a with
  | ⟨0, _⟩ => show win4_1.index t (0 : Fin 2) * 2000 + 1 * p.val = (i 0).val; rw [e0, h0]; omega
  | ⟨1, _⟩ => show win4_1.index t (1 : Fin 2) * 256 + 1 * k.val = (i 1).val; rw [e1, h1]; omega

theorem iblk4_2_apply (c : Dev nD) (t : Fin cfg4.N) (k : Fin 256) (q : Fin 256) (i : S256x256.Idx)
    (h0 : (i 0).val = k.val) (h1 : (i 1).val = q.val) :
    (iblk4 V c 2 t : Vec Ideal S256x256 .f32) (ix2 k q) = (V c main_arg15 : S256x256.Idx → EReal) i := by
  obtain ⟨-, -, -, -, e0, e1, -⟩ := idx_facts4 t
  unfold iblk4
  rw [View.read_apply]
  show V c main_arg15 _ = V c main_arg15 _
  congr 1
  funext a
  apply Fin.ext
  match a with
  | ⟨0, _⟩ => show win4_2.index t (0 : Fin 2) * 256 + 1 * k.val = (i 0).val; rw [e0, h0]; omega
  | ⟨1, _⟩ => show win4_2.index t (1 : Fin 2) * 256 + 1 * q.val = (i 1).val; rw [e1, h1]; omega

theorem iblk4_3_apply (c : Dev nD) (t : Fin cfg4.N) (q : Fin 256) (i : S1x256.Idx)
    (h0 : (i 0).val = 0) (h1 : (i 1).val = q.val) :
    (iblk4 V c 3 t : Vec Ideal S1x256 .f32) (ix2 (0 : Fin 1) q) = (V c main_v68 : S1x256.Idx → EReal) i := by
  obtain ⟨-, -, -, -, -, -, e0, e1, -⟩ := idx_facts4 t
  unfold iblk4
  rw [View.read_apply]
  show V c main_v68 _ = V c main_v68 _
  congr 1
  funext a
  apply Fin.ext
  match a with
  | ⟨0, _⟩ => show win4_3.index t (0 : Fin 2) * 1 + 1 * (0 : Fin 1).val = (i 0).val; rw [e0, h0]; rfl
  | ⟨1, _⟩ => show win4_3.index t (1 : Fin 2) * 256 + 1 * q.val = (i 1).val; rw [e1, h1]; omega

/-- What point `t` writes back is block `t` (rows 2000·t … 2000·t + 1999, all columns) of the target function of the arrays
    as the region finds them. -/
theorem flushed4_eq (c : Dev nD) (t : Fin cfg4.N) :
    (dat4 (F := Ideal) V c).flushed 4 t = ((cfg4.win 4).blk t).view.read (Elt Ideal)
      (Cert.Spec.lin256 (V c main_v57) (V c main_v67) (V c main_arg15) (V c main_v68)) := by
  show (cfg4.win 4).cut (grid4.coords t) ((dat4 V c).after 4 t) = _
  rw [after4_4]
  obtain ⟨-, -, -, -, -, -, -, -, e8, e9⟩ := idx_facts4 t
  funext j
  obtain ⟨p, q, rfl⟩ : ∃ (p : Fin 2000) (q : Fin 256), j = ix2 p q := ⟨j 0, j 1, eq_ix2 j⟩
  refine (out4_4_apply _ _ _ _ p q).trans ?_
  rw [View.read_apply]
  unfold Cert.Spec.lin256
  have hr : ((((cfg4.win 4).blk t).view.emb (ix2 p q)) 0).val = 2000 * t.val + p.val := by
    show win4_4.index t (0 : Fin 2) * 2000 + 1 * p.val = _; rw [e8]; omega
  have hq : ((((cfg4.win 4).blk t).view.emb (ix2 p q)) 1).val = q.val := by
    show win4_4.index t (1 : Fin 2) * 256 + 1 * q.val = _; rw [e9]; omega
  refine congrArg₂ (· + ·) (Finset.sum_congr rfl fun k _ => congrArg₂ (· * ·) (congrArg₂ (· + ·) ?_ ?_) ?_) ?_
  · exact iblk4_0_apply V c t p k _ hr rfl
  · exact iblk4_1_apply V c t p k _ hr rfl
  · exact iblk4_2_apply V c t k q _ rfl hq
  · exact iblk4_3_apply V c t q _ rfl hq

/-- An index of the output array is in point `t`'s block iff each coordinate is in the block's range on its axis. -/
theorem mem_blk4 (t : Fin cfg4.N) (i : S50000x256.Idx) :
    i ∈ ((cfg4.win 4).blk t).view.set ↔ ∀ a : Fin 2, win4_4.index t a * S2000x256.size a ≤ (i a).val ∧ (i a).val < win4_4.index t a * S2000x256.size a + S2000x256.size a := by
  show i ∈ ((View.whole main_v69).slice (win4_4.rect t)).set ↔ _
  rw [View.set_slice_whole, Rect.mem_set_unit]
  exact Iff.rfl

/-- Row `r` of the output is written by point `r / 2000`. -/
theorem cover4 (i : S50000x256.Idx) : ∃ t : Fin cfg4.N, (cfg4.win 4).flush t = true ∧ i ∈ ((cfg4.win 4).blk t).view.set := by
  have hi0 : (i 0).val < 50000 := (i 0).isLt
  have hi1 : (i 1).val < 256 := (i 1).isLt
  have hN : grid4.N = 25 := N_4
  let t : Fin cfg4.N := ⟨(i 0).val / 2000, by show _ < grid4.N; omega⟩
  obtain ⟨-, -, -, -, -, -, -, -, e8, e9⟩ := idx_facts4 t
  have ht : t.val = (i 0).val / 2000 := rfl
  refine ⟨t, flush4_4 t, ?_⟩
  rw [mem_blk4]
  intro a
  match a with
  | ⟨0, _⟩ => show win4_4.index t (0 : Fin 2) * 2000 ≤ (i 0).val ∧ (i 0).val < win4_4.index t (0 : Fin 2) * 2000 + 2000; rw [e8, ht]; omega
  | ⟨1, _⟩ => show win4_4.index t (1 : Fin 2) * 256 ≤ (i 1).val ∧ (i 1).val < win4_4.index t (1 : Fin 2) * 256 + 256; rw [e9]; omega

/-- The output array after the region's 25 points: the target function of the arrays as the region finds them. -/
theorem final4 (c : Dev nD) :
    ((dat4 (F := Ideal) V c).arrAt 4 cfg4.N : S50000x256.Idx → EReal)
      = Cert.Spec.lin256 (V c main_v57) (V c main_v67) (V c main_arg15) (V c main_v68) :=
  (dat4 (F := Ideal) V c).arrAt_eq_of_cover 4 _ (fun t _ => flushed4_eq V c t) cover4

end Cert.KernelIdeal.RegionValue

end
-- ==== Proof.RegionBCore.lean ====
/-
  The part the three normalising layers of the kernel program share, on one block of 2000 rows.

  Each of those layers takes a block of `z` (2000 rows, 256 columns), subtracts the column means, multiplies by the
  reciprocal square root of the column variances plus a small guard, scales, shifts and clips at zero, all column by
  column with one-row vectors spread down the rows; it then multiplies the clipped block by a 256 × 256 weight matrix
  and adds a one-row bias. Entry `(p, q)` of the result depends on row `p` of the block of `z`, on every entry of the
  five one-row vectors, and on column `q` of the weight matrix and of the bias. What follows the bias (a clip, a
  hyperbolic tangent and a clip, or a hyperbolic tangent alone) differs per layer and is not in this module.
-/
import proofs.«127452_j31147102830955_1_alg».proof.Proof.Gen.KernelIdeal.Frame
import proofs.«127452_j31147102830955_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionValue

open Cert.KernelIdeal Cert.KernelIdeal.Gen Idealize.ShloMosaic Idealize.ShloMosaic.TcCoe Idealize.SL.Sem
open Idealize.ShloMosaic.ValueIdx

/-- Zero offsets on both axes, as the constant function the library's whole-rectangle lemmas ask for. -/
theorem bn_hz : (![0, 0] : Fin 2 → Nat) = fun _ => 0 := funext fun a => by fin_cases a <;> rfl

/-! ## The block product's operand indices

The product contracts the left operand's columns with the right operand's rows: entry `(p, q)` of the result reads
the left operand along row `p` and the right operand along column `q`. -/

theorem bn_lhs_0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem bn_lhs_1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c
theorem bn_rhs_0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c
theorem bn_rhs_1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block product into a zero accumulator, read at `(p, q)`: the sum over `k` of the left block's `(p, k)` times the
    right block's `(k, q)`. -/
theorem bn_matmul_apply (l : FVec Ideal S2000x256 .bf16) (r : FVec Ideal S256x256 .bf16) (p : Fin 2000) (q : Fin 256) :
    FloatOps.matmul dot_S2000x256_S256x256_S2000x256_1_0_0_1_n_n none l r (constant S2000x256 .f32 0x00000000#32) (ix2 p q)
      = ∑ k : Fin 256, l (ix2 p k) * r (ix2 k q) := by
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact bn_lhs_0 _ _
    | ⟨1, _⟩ => exact (bn_lhs_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (bn_rhs_0 _ _).trans hk
    | ⟨1, _⟩ => exact bn_rhs_1 _ _)
  rw [el, er]

/-- The part the three layers share, on one block of 2000 rows: normalise, scale, shift and clip the block of `z`
    column by column, multiply by the second weight matrix and add the second bias row. Entry `(p, q)` depends on
    row `p` of the block of `z`, on the whole one-row vectors, and on column `q` of the weights and of the bias. -/
def bnBlock (x0 : Vec Ideal S2000x256 .f32) (x1 x2 x3 x4 : Vec Ideal S1x256 .f32) (x5 : Vec Ideal S256x256 .f32)
    (x6 : Vec Ideal S1x256 .f32) : FVec Ideal S2000x256 .f32 :=
  addf
    (matmul dot_S2000x256_S256x256_S2000x256_1_0_0_1_n_n none
      (truncf .bf16
        (maximumf
          (addf
            (mulf
              (mulf (subf x0 (broadcastTo S2000x256 x1 broadcasts_S1x256_S2000x256))
                (broadcastTo S2000x256 (rsqrt (addf x2 (broadcast S1x256 (FloatOps.ofBits .f32 0x3727C5AC#32))))
                  broadcasts_S1x256_S2000x256))
              (broadcastTo S2000x256 x3 broadcasts_S1x256_S2000x256))
            (broadcastTo S2000x256 x4 broadcasts_S1x256_S2000x256))
          (broadcast S2000x256 (FloatOps.ofBits .f32 0x00000000#32)))
        bitsLt_bf16_f32)
      (truncf .bf16 x5 bitsLt_bf16_f32) (constant S2000x256 .f32 0x00000000#32))
    (broadcastTo S2000x256 x6 broadcasts_S1x256_S2000x256)

set_option maxHeartbeats 400000 in
/-- The shared part at an entry. -/
theorem bnBlock_apply (x0 : Vec Ideal S2000x256 .f32) (x1 x2 x3 x4 : Vec Ideal S1x256 .f32) (x5 : Vec Ideal S256x256 .f32)
    (x6 : Vec Ideal S1x256 .f32) (p : Fin 2000) (q : Fin 256) :
    bnBlock x0 x1 x2 x3 x4 x5 x6 (ix2 p q)
      = (∑ k : Fin 256, Cert.Spec.act (x0 (ix2 p k)) (x1 (ix2 (0 : Fin 1) k)) (x2 (ix2 (0 : Fin 1) k)) (x3 (ix2 (0 : Fin 1) k))
          (x4 (ix2 (0 : Fin 1) k)) * x5 (ix2 k q)) + x6 (ix2 (0 : Fin 1) q) := by
  unfold bnBlock
  simp only [matmul]
  rw [addf_apply, broadcastTo_1b_ab_apply]
  refine congrArg (· + x6 (ix2 (0 : Fin 1) q)) ?_
  refine (bn_matmul_apply _ _ p q).trans (Finset.sum_congr rfl fun k _ => ?_)
  rw [truncf_apply, truncf_apply, maximumf_apply, addf_apply, mulf_apply, mulf_apply, subf_apply, broadcast_apply,
    broadcastTo_1b_ab_apply, broadcastTo_1b_ab_apply, broadcastTo_1b_ab_apply, broadcastTo_1b_ab_apply]
  rfl

end Cert.KernelIdeal.RegionValue

end
-- ==== Proof.RegionB1.lean ====
/-
  The first normalising layer of the kernel program (its second region), as one function of the arrays the region finds.

  The region walks 25 points; point `t` takes rows `2000 t … 2000 t + 1999` of `z` (`main_v15`, 50000 × 256) and the
  whole of six small arrays — the one-row column means `main_v19`, variances `main_v26`, scales `main_v27` and shifts
  `main_v28`, the 256 × 256 weights `main_arg7` and the one-row bias `main_v29` — and writes rows `2000 t … 2000 t + 1999`
  of the output `main_v30`. Each entry of `z` is normalised by its column's mean and variance, scaled, shifted and
  clipped at zero; the clipped block is multiplied by the weights, the bias is added, and the result is clipped at zero.
  Output entry `(r, j)` depends on row `r` of `z`, on every entry of the four per-column vectors, and on column `j` of
  the weights and of the bias; row `r` is written by point `r / 2000`, and the 25 blocks tile the array.
-/
import proofs.«127452_j31147102830955_1_alg».proof.Proof.Gen.KernelIdeal.Frame
import proofs.«127452_j31147102830955_1_alg».proof.Proof.Spec
import proofs.«127452_j31147102830955_1_alg».proof.Proof.RegionBCore
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionValue

open Cert.KernelIdeal Cert.KernelIdeal.Gen Idealize.ShloMosaic Idealize.ShloMosaic.TcCoe Idealize.SL.Sem
open Idealize.ShloMosaic.ValueIdx

/-! ## The body's store at an entry -/

set_option maxHeartbeats 400000 in
/-- What the body leaves in the output block, at entry `(p, q)`, from the seven input blocks. -/
theorem out1_7_apply (x0 : Vec Ideal S2000x256 .f32) (x1 x2 x3 x4 : Vec Ideal S1x256 .f32) (x5 : Vec Ideal S256x256 .f32)
    (x6 : Vec Ideal S1x256 .f32) (p : Fin 2000) (q : Fin 256) :
    (out1_7 (F := Ideal) x0 x1 x2 x3 x4 x5 x6 : S2000x256.Idx → EReal) (ix2 p q)
      = max ((∑ k : Fin 256, Cert.Spec.act (x0 (ix2 p k)) (x1 (ix2 (0 : Fin 1) k)) (x2 (ix2 (0 : Fin 1) k)) (x3 (ix2 (0 : Fin 1) k))
          (x4 (ix2 (0 : Fin 1) k)) * x5 (ix2 k q)) + x6 (ix2 (0 : Fin 1) q)) Cert.Spec.zero := by
  unfold out1_7
  rw [View.canon_unit_zero bn_hz]
  simp only [View.ld_unit_zero (S := S2000x256) bn_hz, View.ld_unit_zero (S := S1x256) bn_hz, View.ld_unit_zero (S := S256x256) bn_hz]
  unfold k1_pay1
  simp only [shapeCast_self]
  exact congrArg (fun s : EReal => max s Cert.Spec.zero) (bnBlock_apply x0 x1 x2 x3 x4 x5 x6 p q)

/-! ## The index maps, decided once over the 25 grid points -/

theorem idx_facts1 : ∀ t : Fin cfg1.N, win1_0.index t (0 : Fin 2) = t.val
    ∧ win1_0.index t (1 : Fin 2) = 0
    ∧ win1_7.index t (0 : Fin 2) = t.val
    ∧ win1_7.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0 :=
  (by decide +kernel : ∀ t : Fin grid1.N, _)

/-! ## Each input block, read off its array -/

/-- Window 0's block at point `t` is rows `2000 t … 2000 t + 1999` of `z`, all columns. -/
theorem blk1_0_apply (V : (c : Dev nD) → (b : Ref sig .tc) → Buf (Elt Ideal) ((c : Thread nD τ).loc b)) (c : Dev nD) (t : Fin cfg1.N)
    (y : S2000x256.Idx) (i : S50000x256.Idx) (h0 : (i 0).val = 2000 * t.val + (y 0).val) (h1 : (i 1).val = (y 1).val) :
    (iblk1 V c 0 t : Vec Ideal S2000x256 .f32) y = (V c main_v15 : S50000x256.Idx → EReal) i := by
  obtain ⟨a0, a1, o0, o1, s10, s11, s20, s21, s30, s31, s40, s41, s50, s51, s60, s61⟩ := idx_facts1 t
  unfold iblk1
  rw [View.read_apply]
  show V c main_v15 _ = V c main_v15 i
  congr 1
  funext a
  apply Fin.ext
  match a with
  | ⟨0, _⟩ => show win1_0.index t (0 : Fin 2) * 2000 + 1 * (y 0).val = (i 0).val; rw [a0, h0]; omega
  | ⟨1, _⟩ => show win1_0.index t (1 : Fin 2) * 256 + 1 * (y 1).val = (i 1).val; rw [a1, h1]; omega

/-- Window 1's block is its whole array at every point. -/
theorem blk1_1_eq (V : (c : Dev nD) → (b : Ref sig .tc) → Buf (Elt Ideal) ((c : Thread nD τ).loc b)) (c : Dev nD) (t : Fin cfg1.N) :
    (iblk1 V c 1 t : Vec Ideal S1x256 .f32) = (V c main_v19 : S1x256.Idx → EReal) := by
  obtain ⟨a0, a1, o0, o1, s10, s11, s20, s21, s30, s31, s40, s41, s50, s51, s60, s61⟩ := idx_facts1 t
  funext y
  unfold iblk1
  rw [View.read_apply]
  show V c main_v19 _ = V c main_v19 y
  congr 1
  funext a
  apply Fin.ext
  match a with
  | ⟨0, _⟩ => show win1_1.index t (0 : Fin 2) * 1 + 1 * (y 0).val = (y 0).val; rw [s10]; omega
  | ⟨1, _⟩ => show win1_1.index t (1 : Fin 2) * 256 + 1 * (y 1).val = (y 1).val; rw [s11]; omega

/-- Window 2's block is its whole array at every point. -/
theorem blk1_2_eq (V : (c : Dev nD) → (b : Ref sig .tc) → Buf (Elt Ideal) ((c : Thread nD τ).loc b)) (c : Dev nD) (t : Fin cfg1.N) :
    (iblk1 V c 2 t : Vec Ideal S1x256 .f32) = (V c main_v26 : S1x256.Idx → EReal) := by
  obtain ⟨a0, a1, o0, o1, s10, s11, s20, s21, s30, s31, s40, s41, s50, s51, s60, s61⟩ := idx_facts1 t
  funext y
  unfold iblk1
  rw [View.read_apply]
  show V c main_v26 _ = V c main_v26 y
  congr 1
  funext a
  apply Fin.ext
  match a with
  | ⟨0, _⟩ => show win1_2.index t (0 : Fin 2) * 1 + 1 * (y 0).val = (y 0).val; rw [s20]; omega
  | ⟨1, _⟩ => show win1_2.index t (1 : Fin 2) * 256 + 1 * (y 1).val = (y 1).val; rw [s21]; omega

/-- Window 3's block is its whole array at every point. -/
theorem blk1_3_eq (V : (c : Dev nD) → (b : Ref sig .tc) → Buf (Elt Ideal) ((c : Thread nD τ).loc b)) (c : Dev nD) (t : Fin cfg1.N) :
    (iblk1 V c 3 t : Vec Ideal S1x256 .f32) = (V c main_v27 : S1x256.Idx → EReal) := by
  obtain ⟨a0, a1, o0, o1, s10, s11, s20, s21, s30, s31, s40, s41, s50, s51, s60, s61⟩ := idx_facts1 t
  funext y
  unfold iblk1
  rw [View.read_apply]
  show V c main_v27 _ = V c main_v27 y
  congr 1
  funext a
  apply Fin.ext
  match a with
  | ⟨0, _⟩ => show win1_3.index t (0 : Fin 2) * 1 + 1 * (y 0).val = (y 0).val; rw [s30]; omega
  | ⟨1, _⟩ => show win1_3.index t (1 : Fin 2) * 256 + 1 * (y 1).val = (y 1).val; rw [s31]; omega

/-- Window 4's block is its whole array at every point. -/
theorem blk1_4_eq (V : (c : Dev nD) → (b : Ref sig .tc) → Buf (Elt Ideal) ((c : Thread nD τ).loc b)) (c : Dev nD) (t : Fin cfg1.N) :
    (iblk1 V c 4 t : Vec Ideal S1x256 .f32) = (V c main_v28 : S1x256.Idx → EReal) := by
  obtain ⟨a0, a1, o0, o1, s10, s11, s20, s21, s30, s31, s40, s41, s50, s51, s60, s61⟩ := idx_facts1 t
  funext y
  unfold iblk1
  rw [View.read_apply]
  show V c main_v28 _ = V c main_v28 y
  congr 1
  funext a
  apply Fin.ext
  match a with
  | ⟨0, _⟩ => show win1_4.index t (0 : Fin 2) * 1 + 1 * (y 0).val = (y 0).val; rw [s40]; omega
  | ⟨1, _⟩ => show win1_4.index t (1 : Fin 2) * 256 + 1 * (y 1).val = (y 1).val; rw [s41]; omega

/-- Window 5's block is its whole array at every point. -/
theorem blk1_5_eq (V : (c : Dev nD) → (b : Ref sig .tc) → Buf (Elt Ideal) ((c : Thread nD τ).loc b)) (c : Dev nD) (t : Fin cfg1.N) :
    (iblk1 V c 5 t : Vec Ideal S256x256 .f32) = (V c main_arg7 : S256x256.Idx → EReal) := by
  obtain ⟨a0, a1, o0, o1, s10, s11, s20, s21, s30, s31, s40, s41, s50, s51, s60, s61⟩ := idx_facts1 t
  funext y
  unfold iblk1
  rw [View.read_apply]
  show V c main_arg7 _ = V c main_arg7 y
  congr 1
  funext a
  apply Fin.ext
  match a with
  | ⟨0, _⟩ => show win1_5.index t (0 : Fin 2) * 256 + 1 * (y 0).val = (y 0).val; rw [s50]; omega
  | ⟨1, _⟩ => show win1_5.index t (1 : Fin 2) * 256 + 1 * (y 1).val = (y 1).val; rw [s51]; omega

/-- Window 6's block is its whole array at every point. -/
theorem blk1_6_eq (V : (c : Dev nD) → (b : Ref sig .tc) → Buf (Elt Ideal) ((c : Thread nD τ).loc b)) (c : Dev nD) (t : Fin cfg1.N) :
    (iblk1 V c 6 t : Vec Ideal S1x256 .f32) = (V c main_v29 : S1x256.Idx → EReal) := by
  obtain ⟨a0, a1, o0, o1, s10, s11, s20, s21, s30, s31, s40, s41, s50, s51, s60, s61⟩ := idx_facts1 t
  funext y
  unfold iblk1
  rw [View.read_apply]
  show V c main_v29 _ = V c main_v29 y
  congr 1
  funext a
  apply Fin.ext
  match a with
  | ⟨0, _⟩ => show win1_6.index t (0 : Fin 2) * 1 + 1 * (y 0).val = (y 0).val; rw [s60]; omega
  | ⟨1, _⟩ => show win1_6.index t (1 : Fin 2) * 256 + 1 * (y 1).val = (y 1).val; rw [s61]; omega

/-! ## What a point writes back -/

set_option maxHeartbeats 400000 in
/-- Point `t` writes back block `t` of the layer's function of the arrays as the region finds them. -/
theorem flushed1_eq (V : (c : Dev nD) → (b : Ref sig .tc) → Buf (Elt Ideal) ((c : Thread nD τ).loc b)) (c : Dev nD) (t : Fin cfg1.N) :
    (dat1 (F := Ideal) V c).flushed 7 t = ((cfg1.win 7).blk t).view.read (Elt Ideal)
      (Cert.Spec.bnRelu (V c main_v15) (V c main_v19) (V c main_v26) (V c main_v27) (V c main_v28) (V c main_arg7) (V c main_v29)) := by
  obtain ⟨a0, a1, o0, o1, s10, s11, s20, s21, s30, s31, s40, s41, s50, s51, s60, s61⟩ := idx_facts1 t
  show (cfg1.win 7).cut (grid1.coords t) ((dat1 V c).after 7 t) = _
  rw [after1_7, blk1_1_eq, blk1_2_eq, blk1_3_eq, blk1_4_eq, blk1_5_eq, blk1_6_eq]
  funext (j : S2000x256.Idx)
  obtain ⟨p, q, rfl⟩ : ∃ (p : Fin 2000) (q : Fin 256), j = ix2 p q := ⟨j 0, j 1, eq_ix2 j⟩
  have hE : (((cfg1.win 7).blk t).view.emb (ix2 p q) : S50000x256.Idx)
      = ix2 (⟨2000 * t.val + p.val, by have := t.isLt; have hN : cfg1.N = 25 := N_1; have := p.isLt; omega⟩ : Fin 50000) q := by
    funext a
    apply Fin.ext
    match a with
    | ⟨0, _⟩ => show win1_7.index t (0 : Fin 2) * 2000 + 1 * p.val = 2000 * t.val + p.val; rw [o0]; omega
    | ⟨1, _⟩ => show win1_7.index t (1 : Fin 2) * 256 + 1 * q.val = q.val; rw [o1]; omega
  show out1_7 (iblk1 V c 0 t) (V c main_v19) (V c main_v26) (V c main_v27) (V c main_v28) (V c main_arg7) (V c main_v29) (ix2 p q)
    = Cert.Spec.bnRelu (V c main_v15) (V c main_v19) (V c main_v26) (V c main_v27) (V c main_v28) (V c main_arg7) (V c main_v29)
        (((cfg1.win 7).blk t).view.emb (ix2 p q))
  rw [hE]
  refine (out1_7_apply (iblk1 V c 0 t) (V c main_v19) (V c main_v26) (V c main_v27) (V c main_v28) (V c main_arg7) (V c main_v29) p q).trans ?_
  unfold Cert.Spec.bnRelu Cert.Spec.bnPre
  refine congrArg (fun s : EReal => max (s + (V c main_v29 : S1x256.Idx → EReal) (ix2 (0 : Fin 1) q)) Cert.Spec.zero) (Finset.sum_congr rfl fun k _ => ?_)
  rw [blk1_0_apply V c t (ix2 p k) (ix2 (⟨2000 * t.val + p.val, by have := t.isLt; have hN : cfg1.N = 25 := N_1; have := p.isLt; omega⟩ : Fin 50000) k) rfl rfl]

/-! ## The cover, and the array after the region -/

/-- An index of the output array is in point `t`'s block iff each coordinate is in the block's range on its axis. -/
theorem mem_blk1 (t : Fin cfg1.N) (i : S50000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v30).slice (win1_7.rect t)).set ↔ _
  rw [View.set_slice_whole, Rect.mem_set_unit]
  exact Iff.rfl

/-- Row `r` of the output array is in the block of point `r / 2000`. -/
theorem cover1 (i : S50000x256.Idx) : ∃ t : Fin cfg1.N, (cfg1.win 7).flush t = true ∧ i ∈ ((cfg1.win 7).blk t).view.set := by
  have hi0 : (i 0).val < 50000 := (i 0).isLt
  have hi1 : (i 1).val < 256 := (i 1).isLt
  have hN : cfg1.N = 25 := N_1
  have ht : (i 0).val / 2000 < cfg1.N := by rw [hN]; omega
  obtain ⟨a0, a1, o0, o1, s10, s11, s20, s21, s30, s31, s40, s41, s50, s51, s60, s61⟩ := idx_facts1 ⟨(i 0).val / 2000, ht⟩
  refine ⟨⟨(i 0).val / 2000, ht⟩, flush1_7 _, ?_⟩
  rw [mem_blk1]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win1_7.index ⟨(i 0).val / 2000, ht⟩ (1 : Fin 2) * 256 ≤ (i 1).val ∧ (i 1).val < win1_7.index ⟨(i 0).val / 2000, ht⟩ (1 : Fin 2) * 256 + 256
    rw [o1]; omega

/-- The output array after the region is the layer's function of the arrays as the region finds them. -/
theorem final1 (V : (c : Dev nD) → (b : Ref sig .tc) → Buf (Elt Ideal) ((c : Thread nD τ).loc b)) (c : Dev nD) :
    ((dat1 (F := Ideal) V c).arrAt 7 cfg1.N : S50000x256.Idx → EReal)
      = Cert.Spec.bnRelu (V c main_v15) (V c main_v19) (V c main_v26) (V c main_v27) (V c main_v28) (V c main_arg7) (V c main_v29) :=
  (dat1 (F := Ideal) V c).arrAt_eq_of_cover 7 _ (fun t _ => flushed1_eq V c t) cover1

end Cert.KernelIdeal.RegionValue

end
-- ==== Proof.RegionB3.lean ====
/-
  The second normalising layer of the kernel program (its fourth region), as one function of the arrays the region finds.

  The region walks 25 points; point `t` takes rows `2000 t … 2000 t + 1999` of `z` (`main_v42`, 50000 × 256) and the
  whole of six small arrays — the one-row column means `main_v46`, variances `main_v53`, scales `main_v54` and shifts
  `main_v55`, the 256 × 256 weights `main_arg13` and the one-row bias `main_v56` — and writes rows `2000 t … 2000 t + 1999`
  of the output `main_v57`. Each entry of `z` is normalised by its column's mean and variance, scaled, shifted and
  clipped at zero; the clipped block is multiplied by the weights, the bias is added, and the hyperbolic tangent of the result is clipped at zero.
  Output entry `(r, j)` depends on row `r` of `z`, on every entry of the four per-column vectors, and on column `j` of
  the weights and of the bias; row `r` is written by point `r / 2000`, and the 25 blocks tile the array.
-/
import proofs.«127452_j31147102830955_1_alg».proof.Proof.Gen.KernelIdeal.Frame
import proofs.«127452_j31147102830955_1_alg».proof.Proof.Spec
import proofs.«127452_j31147102830955_1_alg».proof.Proof.RegionBCore
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionValue

open Cert.KernelIdeal Cert.KernelIdeal.Gen Idealize.ShloMosaic Idealize.ShloMosaic.TcCoe Idealize.SL.Sem
open Idealize.ShloMosaic.ValueIdx

/-! ## The body's store at an entry -/

set_option maxHeartbeats 400000 in
/-- What the body leaves in the output block, at entry `(p, q)`, from the seven input blocks. -/
theorem out3_7_apply (x0 : Vec Ideal S2000x256 .f32) (x1 x2 x3 x4 : Vec Ideal S1x256 .f32) (x5 : Vec Ideal S256x256 .f32)
    (x6 : Vec Ideal S1x256 .f32) (p : Fin 2000) (q : Fin 256) :
    (out3_7 (F := Ideal) x0 x1 x2 x3 x4 x5 x6 : S2000x256.Idx → EReal) (ix2 p q)
      = max (Ideal.tanh ((∑ k : Fin 256, Cert.Spec.act (x0 (ix2 p k)) (x1 (ix2 (0 : Fin 1) k)) (x2 (ix2 (0 : Fin 1) k)) (x3 (ix2 (0 : Fin 1) k))
          (x4 (ix2 (0 : Fin 1) k)) * x5 (ix2 k q)) + x6 (ix2 (0 : Fin 1) q))) Cert.Spec.zero := by
  unfold out3_7
  rw [View.canon_unit_zero bn_hz]
  simp only [View.ld_unit_zero (S := S2000x256) bn_hz, View.ld_unit_zero (S := S1x256) bn_hz, View.ld_unit_zero (S := S256x256) bn_hz]
  unfold k3_pay1
  simp only [shapeCast_self]
  exact congrArg (fun s : EReal => max (Ideal.tanh s) Cert.Spec.zero) (bnBlock_apply x0 x1 x2 x3 x4 x5 x6 p q)

/-! ## The index maps, decided once over the 25 grid points -/

theorem idx_facts3 : ∀ t : Fin cfg3.N, win3_0.index t (0 : Fin 2) = t.val
    ∧ win3_0.index t (1 : Fin 2) = 0
    ∧ win3_7.index t (0 : Fin 2) = t.val
    ∧ win3_7.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0 :=
  (by decide +kernel : ∀ t : Fin grid3.N, _)

/-! ## Each input block, read off its array -/

/-- Window 0's block at point `t` is rows `2000 t … 2000 t + 1999` of `z`, all columns. -/
theorem blk3_0_apply (V : (c : Dev nD) → (b : Ref sig .tc) → Buf (Elt Ideal) ((c : Thread nD τ).loc b)) (c : Dev nD) (t : Fin cfg3.N)
    (y : S2000x256.Idx) (i : S50000x256.Idx) (h0 : (i 0).val = 2000 * t.val + (y 0).val) (h1 : (i 1).val = (y 1).val) :
    (iblk3 V c 0 t : Vec Ideal S2000x256 .f32) y = (V c main_v42 : S50000x256.Idx → EReal) i := by
  obtain ⟨a0, a1, o0, o1, s10, s11, s20, s21, s30, s31, s40, s41, s50, s51, s60, s61⟩ := idx_facts3 t
  unfold iblk3
  rw [View.read_apply]
  show V c main_v42 _ = V c main_v42 i
  congr 1
  funext a
  apply Fin.ext
  match a with
  | ⟨0, _⟩ => show win3_0.index t (0 : Fin 2) * 2000 + 1 * (y 0).val = (i 0).val; rw [a0, h0]; omega
  | ⟨1, _⟩ => show win3_0.index t (1 : Fin 2) * 256 + 1 * (y 1).val = (i 1).val; rw [a1, h1]; omega

/-- Window 1's block is its whole array at every point. -/
theorem blk3_1_eq (V : (c : Dev nD) → (b : Ref sig .tc) → Buf (Elt Ideal) ((c : Thread nD τ).loc b)) (c : Dev nD) (t : Fin cfg3.N) :
    (iblk3 V c 1 t : Vec Ideal S1x256 .f32) = (V c main_v46 : S1x256.Idx → EReal) := by
  obtain ⟨a0, a1, o0, o1, s10, s11, s20, s21, s30, s31, s40, s41, s50, s51, s60, s61⟩ := idx_facts3 t
  funext y
  unfold iblk3
  rw [View.read_apply]
  show V c main_v46 _ = V c main_v46 y
  congr 1
  funext a
  apply Fin.ext
  match a with
  | ⟨0, _⟩ => show win3_1.index t (0 : Fin 2) * 1 + 1 * (y 0).val = (y 0).val; rw [s10]; omega
  | ⟨1, _⟩ => show win3_1.index t (1 : Fin 2) * 256 + 1 * (y 1).val = (y 1).val; rw [s11]; omega

/-- Window 2's block is its whole array at every point. -/
theorem blk3_2_eq (V : (c : Dev nD) → (b : Ref sig .tc) → Buf (Elt Ideal) ((c : Thread nD τ).loc b)) (c : Dev nD) (t : Fin cfg3.N) :
    (iblk3 V c 2 t : Vec Ideal S1x256 .f32) = (V c main_v53 : S1x256.Idx → EReal) := by
  obtain ⟨a0, a1, o0, o1, s10, s11, s20, s21, s30, s31, s40, s41, s50, s51, s60, s61⟩ := idx_facts3 t
  funext y
  unfold iblk3
  rw [View.read_apply]
  show V c main_v53 _ = V c main_v53 y
  congr 1
  funext a
  apply Fin.ext
  match a with
  | ⟨0, _⟩ => show win3_2.index t (0 : Fin 2) * 1 + 1 * (y 0).val = (y 0).val; rw [s20]; omega
  | ⟨1, _⟩ => show win3_2.index t (1 : Fin 2) * 256 + 1 * (y 1).val = (y 1).val; rw [s21]; omega

/-- Window 3's block is its whole array at every point. -/
theorem blk3_3_eq (V : (c : Dev nD) → (b : Ref sig .tc) → Buf (Elt Ideal) ((c : Thread nD τ).loc b)) (c : Dev nD) (t : Fin cfg3.N) :
    (iblk3 V c 3 t : Vec Ideal S1x256 .f32) = (V c main_v54 : S1x256.Idx → EReal) := by
  obtain ⟨a0, a1, o0, o1, s10, s11, s20, s21, s30, s31, s40, s41, s50, s51, s60, s61⟩ := idx_facts3 t
  funext y
  unfold iblk3
  rw [View.read_apply]
  show V c main_v54 _ = V c main_v54 y
  congr 1
  funext a
  apply Fin.ext
  match a with
  | ⟨0, _⟩ => show win3_3.index t (0 : Fin 2) * 1 + 1 * (y 0).val = (y 0).val; rw [s30]; omega
  | ⟨1, _⟩ => show win3_3.index t (1 : Fin 2) * 256 + 1 * (y 1).val = (y 1).val; rw [s31]; omega

/-- Window 4's block is its whole array at every point. -/
theorem blk3_4_eq (V : (c : Dev nD) → (b : Ref sig .tc) → Buf (Elt Ideal) ((c : Thread nD τ).loc b)) (c : Dev nD) (t : Fin cfg3.N) :
    (iblk3 V c 4 t : Vec Ideal S1x256 .f32) = (V c main_v55 : S1x256.Idx → EReal) := by
  obtain ⟨a0, a1, o0, o1, s10, s11, s20, s21, s30, s31, s40, s41, s50, s51, s60, s61⟩ := idx_facts3 t
  funext y
  unfold iblk3
  rw [View.read_apply]
  show V c main_v55 _ = V c main_v55 y
  congr 1
  funext a
  apply Fin.ext
  match a with
  | ⟨0, _⟩ => show win3_4.index t (0 : Fin 2) * 1 + 1 * (y 0).val = (y 0).val; rw [s40]; omega
  | ⟨1, _⟩ => show win3_4.index t (1 : Fin 2) * 256 + 1 * (y 1).val = (y 1).val; rw [s41]; omega

/-- Window 5's block is its whole array at every point. -/
theorem blk3_5_eq (V : (c : Dev nD) → (b : Ref sig .tc) → Buf (Elt Ideal) ((c : Thread nD τ).loc b)) (c : Dev nD) (t : Fin cfg3.N) :
    (iblk3 V c 5 t : Vec Ideal S256x256 .f32) = (V c main_arg13 : S256x256.Idx → EReal) := by
  obtain ⟨a0, a1, o0, o1, s10, s11, s20, s21, s30, s31, s40, s41, s50, s51, s60, s61⟩ := idx_facts3 t
  funext y
  unfold iblk3
  rw [View.read_apply]
  show V c main_arg13 _ = V c main_arg13 y
  congr 1
  funext a
  apply Fin.ext
  match a with
  | ⟨0, _⟩ => show win3_5.index t (0 : Fin 2) * 256 + 1 * (y 0).val = (y 0).val; rw [s50]; omega
  | ⟨1, _⟩ => show win3_5.index t (1 : Fin 2) * 256 + 1 * (y 1).val = (y 1).val; rw [s51]; omega

/-- Window 6's block is its whole array at every point. -/
theorem blk3_6_eq (V : (c : Dev nD) → (b : Ref sig .tc) → Buf (Elt Ideal) ((c : Thread nD τ).loc b)) (c : Dev nD) (t : Fin cfg3.N) :
    (iblk3 V c 6 t : Vec Ideal S1x256 .f32) = (V c main_v56 : S1x256.Idx → EReal) := by
  obtain ⟨a0, a1, o0, o1, s10, s11, s20, s21, s30, s31, s40, s41, s50, s51, s60, s61⟩ := idx_facts3 t
  funext y
  unfold iblk3
  rw [View.read_apply]
  show V c main_v56 _ = V c main_v56 y
  congr 1
  funext a
  apply Fin.ext
  match a with
  | ⟨0, _⟩ => show win3_6.index t (0 : Fin 2) * 1 + 1 * (y 0).val = (y 0).val; rw [s60]; omega
  | ⟨1, _⟩ => show win3_6.index t (1 : Fin 2) * 256 + 1 * (y 1).val = (y 1).val; rw [s61]; omega

/-! ## What a point writes back -/

set_option maxHeartbeats 400000 in
/-- Point `t` writes back block `t` of the layer's function of the arrays as the region finds them. -/
theorem flushed3_eq (V : (c : Dev nD) → (b : Ref sig .tc) → Buf (Elt Ideal) ((c : Thread nD τ).loc b)) (c : Dev nD) (t : Fin cfg3.N) :
    (dat3 (F := Ideal) V c).flushed 7 t = ((cfg3.win 7).blk t).view.read (Elt Ideal)
      (Cert.Spec.bnTanhRelu (V c main_v42) (V c main_v46) (V c main_v53) (V c main_v54) (V c main_v55) (V c main_arg13) (V c main_v56)) := by
  obtain ⟨a0, a1, o0, o1, s10, s11, s20, s21, s30, s31, s40, s41, s50, s51, s60, s61⟩ := idx_facts3 t
  show (cfg3.win 7).cut (grid3.coords t) ((dat3 V c).after 7 t) = _
  rw [after3_7, blk3_1_eq, blk3_2_eq, blk3_3_eq, blk3_4_eq, blk3_5_eq, blk3_6_eq]
  funext (j : S2000x256.Idx)
  obtain ⟨p, q, rfl⟩ : ∃ (p : Fin 2000) (q : Fin 256), j = ix2 p q := ⟨j 0, j 1, eq_ix2 j⟩
  have hE : (((cfg3.win 7).blk t).view.emb (ix2 p q) : S50000x256.Idx)
      = ix2 (⟨2000 * t.val + p.val, by have := t.isLt; have hN : cfg3.N = 25 := N_3; have := p.isLt; omega⟩ : Fin 50000) q := by
    funext a
    apply Fin.ext
    match a with
    | ⟨0, _⟩ => show win3_7.index t (0 : Fin 2) * 2000 + 1 * p.val = 2000 * t.val + p.val; rw [o0]; omega
    | ⟨1, _⟩ => show win3_7.index t (1 : Fin 2) * 256 + 1 * q.val = q.val; rw [o1]; omega
  show out3_7 (iblk3 V c 0 t) (V c main_v46) (V c main_v53) (V c main_v54) (V c main_v55) (V c main_arg13) (V c main_v56) (ix2 p q)
    = Cert.Spec.bnTanhRelu (V c main_v42) (V c main_v46) (V c main_v53) (V c main_v54) (V c main_v55) (V c main_arg13) (V c main_v56)
        (((cfg3.win 7).blk t).view.emb (ix2 p q))
  rw [hE]
  refine (out3_7_apply (iblk3 V c 0 t) (V c main_v46) (V c main_v53) (V c main_v54) (V c main_v55) (V c main_arg13) (V c main_v56) p q).trans ?_
  unfold Cert.Spec.bnTanhRelu Cert.Spec.bnPre
  refine congrArg (fun s : EReal => max (Ideal.tanh (s + (V c main_v56 : S1x256.Idx → EReal) (ix2 (0 : Fin 1) q))) Cert.Spec.zero) (Finset.sum_congr rfl fun k _ => ?_)
  rw [blk3_0_apply V c t (ix2 p k) (ix2 (⟨2000 * t.val + p.val, by have := t.isLt; have hN : cfg3.N = 25 := N_3; have := p.isLt; omega⟩ : Fin 50000) k) rfl rfl]

/-! ## The cover, and the array after the region -/

/-- An index of the output array is in point `t`'s block iff each coordinate is in the block's range on its axis. -/
theorem mem_blk3 (t : Fin cfg3.N) (i : S50000x256.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v57).slice (win3_7.rect t)).set ↔ _
  rw [View.set_slice_whole, Rect.mem_set_unit]
  exact Iff.rfl

/-- Row `r` of the output array is in the block of point `r / 2000`. -/
theorem cover3 (i : S50000x256.Idx) : ∃ t : Fin cfg3.N, (cfg3.win 7).flush t = true ∧ i ∈ ((cfg3.win 7).blk t).view.set := by
  have hi0 : (i 0).val < 50000 := (i 0).isLt
  have hi1 : (i 1).val < 256 := (i 1).isLt
  have hN : cfg3.N = 25 := N_3
  have ht : (i 0).val / 2000 < cfg3.N := by rw [hN]; omega
  obtain ⟨a0, a1, o0, o1, s10, s11, s20, s21, s30, s31, s40, s41, s50, s51, s60, s61⟩ := idx_facts3 ⟨(i 0).val / 2000, ht⟩
  refine ⟨⟨(i 0).val / 2000, ht⟩, flush3_7 _, ?_⟩
  rw [mem_blk3]
  intro a
  match a with
  | ⟨0, _⟩ =>
    show win3_7.index ⟨(i 0).val / 2000, ht⟩ (0 : Fin 2) * 2000 ≤ (i 0).val ∧ (i 0).val < win3_7.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win3_7.index ⟨(i 0).val / 2000, ht⟩ (1 : Fin 2) * 256 ≤ (i 1).val ∧ (i 1).val < win3_7.index ⟨(i 0).val / 2000, ht⟩ (1 : Fin 2) * 256 + 256
    rw [o1]; omega

/-- The output array after the region is the layer's function of the arrays as the region finds them. -/
theorem final3 (V : (c : Dev nD) → (b : Ref sig .tc) → Buf (Elt Ideal) ((c : Thread nD τ).loc b)) (c : Dev nD) :
    ((dat3 (F := Ideal) V c).arrAt 7 cfg3.N : S50000x256.Idx → EReal)
      = Cert.Spec.bnTanhRelu (V c main_v42) (V c main_v46) (V c main_v53) (V c main_v54) (V c main_v55) (V c main_arg13) (V c main_v56) :=
  (dat3 (F := Ideal) V c).arrAt_eq_of_cover 7 _ (fun t _ => flushed3_eq V c t) cover3

end Cert.KernelIdeal.RegionValue

end
-- ==== Proof.RegionB5.lean ====
/-
  The third normalising layer of the kernel program (its sixth region), as one function of the arrays the region finds.

  The region walks 25 points; point `t` takes rows `2000 t … 2000 t + 1999` of `z` (`main_v69`, 50000 × 256) and the
  whole of six small arrays — the one-row column means `main_v73`, variances `main_v80`, scales `main_v81` and shifts
  `main_v82`, the 256 × 256 weights `main_arg19` and the one-row bias `main_v83` — and writes rows `2000 t … 2000 t + 1999`
  of the output `main_v84`. Each entry of `z` is normalised by its column's mean and variance, scaled, shifted and
  clipped at zero; the clipped block is multiplied by the weights, the bias is added, and the hyperbolic tangent of the result is taken.
  Output entry `(r, j)` depends on row `r` of `z`, on every entry of the four per-column vectors, and on column `j` of
  the weights and of the bias; row `r` is written by point `r / 2000`, and the 25 blocks tile the array.
-/
import proofs.«127452_j31147102830955_1_alg».proof.Proof.Gen.KernelIdeal.Frame
import proofs.«127452_j31147102830955_1_alg».proof.Proof.Spec
import proofs.«127452_j31147102830955_1_alg».proof.Proof.RegionBCore
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionValue

open Cert.KernelIdeal Cert.KernelIdeal.Gen Idealize.ShloMosaic Idealize.ShloMosaic.TcCoe Idealize.SL.Sem
open Idealize.ShloMosaic.ValueIdx

/-! ## The body's store at an entry -/

set_option maxHeartbeats 400000 in
/-- What the body leaves in the output block, at entry `(p, q)`, from the seven input blocks. -/
theorem out5_7_apply (x0 : Vec Ideal S2000x256 .f32) (x1 x2 x3 x4 : Vec Ideal S1x256 .f32) (x5 : Vec Ideal S256x256 .f32)
    (x6 : Vec Ideal S1x256 .f32) (p : Fin 2000) (q : Fin 256) :
    (out5_7 (F := Ideal) x0 x1 x2 x3 x4 x5 x6 : S2000x256.Idx → EReal) (ix2 p q)
      = Ideal.tanh ((∑ k : Fin 256, Cert.Spec.act (x0 (ix2 p k)) (x1 (ix2 (0 : Fin 1) k)) (x2 (ix2 (0 : Fin 1) k)) (x3 (ix2 (0 : Fin 1) k))
          (x4 (ix2 (0 : Fin 1) k)) * x5 (ix2 k q)) + x6 (ix2 (0 : Fin 1) q)) := by
  unfold out5_7
  rw [View.canon_unit_zero bn_hz]
  simp only [View.ld_unit_zero (S := S2000x256) bn_hz, View.ld_unit_zero (S := S1x256) bn_hz, View.ld_unit_zero (S := S256x256) bn_hz]
  unfold k5_pay1
  simp only [shapeCast_self]
  exact congrArg (fun s : EReal => Ideal.tanh s) (bnBlock_apply x0 x1 x2 x3 x4 x5 x6 p q)

/-! ## The index maps, decided once over the 25 grid points -/

theorem idx_facts5 : ∀ t : Fin cfg5.N, win5_0.index t (0 : Fin 2) = t.val
    ∧ win5_0.index t (1 : Fin 2) = 0
    ∧ win5_7.index t (0 : Fin 2) = t.val
    ∧ win5_7.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0 :=
  (by decide +kernel : ∀ t : Fin grid5.N, _)

/-! ## Each input block, read off its array -/

/-- Window 0's block at point `t` is rows `2000 t … 2000 t + 1999` of `z`, all columns. -/
theorem blk5_0_apply (V : (c : Dev nD) → (b : Ref sig .tc) → Buf (Elt Ideal) ((c : Thread nD τ).loc b)) (c : Dev nD) (t : Fin cfg5.N)
    (y : S2000x256.Idx) (i : S50000x256.Idx) (h0 : (i 0).val = 2000 * t.val + (y 0).val) (h1 : (i 1).val = (y 1).val) :
    (iblk5 V c 0 t : Vec Ideal S2000x256 .f32) y = (V c main_v69 : S50000x256.Idx → EReal) i := by
  obtain ⟨a0, a1, o0, o1, s10, s11, s20, s21, s30, s31, s40, s41, s50, s51, s60, s61⟩ := idx_facts5 t
  unfold iblk5
  rw [View.read_apply]
  show V c main_v69 _ = V c main_v69 i
  congr 1
  funext a
  apply Fin.ext
  match a with
  | ⟨0, _⟩ => show win5_0.index t (0 : Fin 2) * 2000 + 1 * (y 0).val = (i 0).val; rw [a0, h0]; omega
  | ⟨1, _⟩ => show win5_0.index t (1 : Fin 2) * 256 + 1 * (y 1).val = (i 1).val; rw [a1, h1]; omega

/-- Window 1's block is its whole array at every point. -/
theorem blk5_1_eq (V : (c : Dev nD) → (b : Ref sig .tc) → Buf (Elt Ideal) ((c : Thread nD τ).loc b)) (c : Dev nD) (t : Fin cfg5.N) :
    (iblk5 V c 1 t : Vec Ideal S1x256 .f32) = (V c main_v73 : S1x256.Idx → EReal) := by
  obtain ⟨a0, a1, o0, o1, s10, s11, s20, s21, s30, s31, s40, s41, s50, s51, s60, s61⟩ := idx_facts5 t
  funext y
  unfold iblk5
  rw [View.read_apply]
  show V c main_v73 _ = V c main_v73 y
  congr 1
  funext a
  apply Fin.ext
  match a with
  | ⟨0, _⟩ => show win5_1.index t (0 : Fin 2) * 1 + 1 * (y 0).val = (y 0).val; rw [s10]; omega
  | ⟨1, _⟩ => show win5_1.index t (1 : Fin 2) * 256 + 1 * (y 1).val = (y 1).val; rw [s11]; omega

/-- Window 2's block is its whole array at every point. -/
theorem blk5_2_eq (V : (c : Dev nD) → (b : Ref sig .tc) → Buf (Elt Ideal) ((c : Thread nD τ).loc b)) (c : Dev nD) (t : Fin cfg5.N) :
    (iblk5 V c 2 t : Vec Ideal S1x256 .f32) = (V c main_v80 : S1x256.Idx → EReal) := by
  obtain ⟨a0, a1, o0, o1, s10, s11, s20, s21, s30, s31, s40, s41, s50, s51, s60, s61⟩ := idx_facts5 t
  funext y
  unfold iblk5
  rw [View.read_apply]
  show V c main_v80 _ = V c main_v80 y
  congr 1
  funext a
  apply Fin.ext
  match a with
  | ⟨0, _⟩ => show win5_2.index t (0 : Fin 2) * 1 + 1 * (y 0).val = (y 0).val; rw [s20]; omega
  | ⟨1, _⟩ => show win5_2.index t (1 : Fin 2) * 256 + 1 * (y 1).val = (y 1).val; rw [s21]; omega

/-- Window 3's block is its whole array at every point. -/
theorem blk5_3_eq (V : (c : Dev nD) → (b : Ref sig .tc) → Buf (Elt Ideal) ((c : Thread nD τ).loc b)) (c : Dev nD) (t : Fin cfg5.N) :
    (iblk5 V c 3 t : Vec Ideal S1x256 .f32) = (V c main_v81 : S1x256.Idx → EReal) := by
  obtain ⟨a0, a1, o0, o1, s10, s11, s20, s21, s30, s31, s40, s41, s50, s51, s60, s61⟩ := idx_facts5 t
  funext y
  unfold iblk5
  rw [View.read_apply]
  show V c main_v81 _ = V c main_v81 y
  congr 1
  funext a
  apply Fin.ext
  match a with
  | ⟨0, _⟩ => show win5_3.index t (0 : Fin 2) * 1 + 1 * (y 0).val = (y 0).val; rw [s30]; omega
  | ⟨1, _⟩ => show win5_3.index t (1 : Fin 2) * 256 + 1 * (y 1).val = (y 1).val; rw [s31]; omega

/-- Window 4's block is its whole array at every point. -/
theorem blk5_4_eq (V : (c : Dev nD) → (b : Ref sig .tc) → Buf (Elt Ideal) ((c : Thread nD τ).loc b)) (c : Dev nD) (t : Fin cfg5.N) :
    (iblk5 V c 4 t : Vec Ideal S1x256 .f32) = (V c main_v82 : S1x256.Idx → EReal) := by
  obtain ⟨a0, a1, o0, o1, s10, s11, s20, s21, s30, s31, s40, s41, s50, s51, s60, s61⟩ := idx_facts5 t
  funext y
  unfold iblk5
  rw [View.read_apply]
  show V c main_v82 _ = V c main_v82 y
  congr 1
  funext a
  apply Fin.ext
  match a with
  | ⟨0, _⟩ => show win5_4.index t (0 : Fin 2) * 1 + 1 * (y 0).val = (y 0).val; rw [s40]; omega
  | ⟨1, _⟩ => show win5_4.index t (1 : Fin 2) * 256 + 1 * (y 1).val = (y 1).val; rw [s41]; omega

/-- Window 5's block is its whole array at every point. -/
theorem blk5_5_eq (V : (c : Dev nD) → (b : Ref sig .tc) → Buf (Elt Ideal) ((c : Thread nD τ).loc b)) (c : Dev nD) (t : Fin cfg5.N) :
    (iblk5 V c 5 t : Vec Ideal S256x256 .f32) = (V c main_arg19 : S256x256.Idx → EReal) := by
  obtain ⟨a0, a1, o0, o1, s10, s11, s20, s21, s30, s31, s40, s41, s50, s51, s60, s61⟩ := idx_facts5 t
  funext y
  unfold iblk5
  rw [View.read_apply]
  show V c main_arg19 _ = V c main_arg19 y
  congr 1
  funext a
  apply Fin.ext
  match a with
  | ⟨0, _⟩ => show win5_5.index t (0 : Fin 2) * 256 + 1 * (y 0).val = (y 0).val; rw [s50]; omega
  | ⟨1, _⟩ => show win5_5.index t (1 : Fin 2) * 256 + 1 * (y 1).val = (y 1).val; rw [s51]; omega

/-- Window 6's block is its whole array at every point. -/
theorem blk5_6_eq (V : (c : Dev nD) → (b : Ref sig .tc) → Buf (Elt Ideal) ((c : Thread nD τ).loc b)) (c : Dev nD) (t : Fin cfg5.N) :
    (iblk5 V c 6 t : Vec Ideal S1x256 .f32) = (V c main_v83 : S1x256.Idx → EReal) := by
  obtain ⟨a0, a1, o0, o1, s10, s11, s20, s21, s30, s31, s40, s41, s50, s51, s60, s61⟩ := idx_facts5 t
  funext y
  unfold iblk5
  rw [View.read_apply]
  show V c main_v83 _ = V c main_v83 y
  congr 1
  funext a
  apply Fin.ext
  match a with
  | ⟨0, _⟩ => show win5_6.index t (0 : Fin 2) * 1 + 1 * (y 0).val = (y 0).val; rw [s60]; omega
  | ⟨1, _⟩ => show win5_6.index t (1 : Fin 2) * 256 + 1 * (y 1).val = (y 1).val; rw [s61]; omega

/-! ## What a point writes back -/

set_option maxHeartbeats 400000 in
/-- Point `t` writes back block `t` of the layer's function of the arrays as the region finds them. -/
theorem flushed5_eq (V : (c : Dev nD) → (b : Ref sig .tc) → Buf (Elt Ideal) ((c : Thread nD τ).loc b)) (c : Dev nD) (t : Fin cfg5.N) :
    (dat5 (F := Ideal) V c).flushed 7 t = ((cfg5.win 7).blk t).view.read (Elt Ideal)
      (Cert.Spec.bnTanh (V c main_v69) (V c main_v73) (V c main_v80) (V c main_v81) (V c main_v82) (V c main_arg19) (V c main_v83)) := by
  obtain ⟨a0, a1, o0, o1, s10, s11, s20, s21, s30, s31, s40, s41, s50, s51, s60, s61⟩ := idx_facts5 t
  show (cfg5.win 7).cut (grid5.coords t) ((dat5 V c).after 7 t) = _
  rw [after5_7, blk5_1_eq, blk5_2_eq, blk5_3_eq, blk5_4_eq, blk5_5_eq, blk5_6_eq]
  funext (j : S2000x256.Idx)
  obtain ⟨p, q, rfl⟩ : ∃ (p : Fin 2000) (q : Fin 256), j = ix2 p q := ⟨j 0, j 1, eq_ix2 j⟩
  have hE : (((cfg5.win 7).blk t).view.emb (ix2 p q) : S50000x256.Idx)
      = ix2 (⟨2000 * t.val + p.val, by have := t.isLt; have hN : cfg5.N = 25 := N_5; have := p.isLt; omega⟩ : Fin 50000) q := by
    funext a
    apply Fin.ext
    match a with
    | ⟨0, _⟩ => show win5_7.index t (0 : Fin 2) * 2000 + 1 * p.val = 2000 * t.val + p.val; rw [o0]; omega
    | ⟨1, _⟩ => show win5_7.index t (1 : Fin 2) * 256 + 1 * q.val = q.val; rw [o1]; omega
  show out5_7 (iblk5 V c 0 t) (V c main_v73) (V c main_v80) (V c main_v81) (V c main_v82) (V c main_arg19) (V c main_v83) (ix2 p q)
    = Cert.Spec.bnTanh (V c main_v69) (V c main_v73) (V c main_v80) (V c main_v81) (V c main_v82) (V c main_arg19) (V c main_v83)
        (((cfg5.win 7).blk t).view.emb (ix2 p q))
  rw [hE]
  refine (out5_7_apply (iblk5 V c 0 t) (V c main_v73) (V c main_v80) (V c main_v81) (V c main_v82) (V c main_arg19) (V c main_v83) p q).trans ?_
  unfold Cert.Spec.bnTanh Cert.Spec.bnPre
  refine congrArg (fun s : EReal => Ideal.tanh (s + (V c main_v83 : S1x256.Idx → EReal) (ix2 (0 : Fin 1) q))) (Finset.sum_congr rfl fun k _ => ?_)
  rw [blk5_0_apply V c t (ix2 p k) (ix2 (⟨2000 * t.val + p.val, by have := t.isLt; have hN : cfg5.N = 25 := N_5; have := p.isLt; omega⟩ : Fin 50000) k) rfl rfl]

/-! ## The cover, and the array after the region -/

/-- An index of the output array is in point `t`'s block iff each coordinate is in the block's range on its axis. -/
theorem mem_blk5 (t : Fin cfg5.N) (i : S50000x256.Idx) :
    i ∈ ((cfg5.win 7).blk t).view.set ↔ ∀ a : Fin 2, win5_7.index t a * S2000x256.size a ≤ (i a).val ∧ (i a).val < win5_7.index t a * S2000x256.size a + S2000x256.size a := by
  show i ∈ ((View.whole main_v84).slice (win5_7.rect t)).set ↔ _
  rw [View.set_slice_whole, Rect.mem_set_unit]
  exact Iff.rfl

/-- Row `r` of the output array is in the block of point `r / 2000`. -/
theorem cover5 (i : S50000x256.Idx) : ∃ t : Fin cfg5.N, (cfg5.win 7).flush t = true ∧ i ∈ ((cfg5.win 7).blk t).view.set := by
  have hi0 : (i 0).val < 50000 := (i 0).isLt
  have hi1 : (i 1).val < 256 := (i 1).isLt
  have hN : cfg5.N = 25 := N_5
  have ht : (i 0).val / 2000 < cfg5.N := by rw [hN]; omega
  obtain ⟨a0, a1, o0, o1, s10, s11, s20, s21, s30, s31, s40, s41, s50, s51, s60, s61⟩ := idx_facts5 ⟨(i 0).val / 2000, ht⟩
  refine ⟨⟨(i 0).val / 2000, ht⟩, flush5_7 _, ?_⟩
  rw [mem_blk5]
  intro a
  match a with
  | ⟨0, _⟩ =>
    show win5_7.index ⟨(i 0).val / 2000, ht⟩ (0 : Fin 2) * 2000 ≤ (i 0).val ∧ (i 0).val < win5_7.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win5_7.index ⟨(i 0).val / 2000, ht⟩ (1 : Fin 2) * 256 ≤ (i 1).val ∧ (i 1).val < win5_7.index ⟨(i 0).val / 2000, ht⟩ (1 : Fin 2) * 256 + 256
    rw [o1]; omega

/-- The output array after the region is the layer's function of the arrays as the region finds them. -/
theorem final5 (V : (c : Dev nD) → (b : Ref sig .tc) → Buf (Elt Ideal) ((c : Thread nD τ).loc b)) (c : Dev nD) :
    ((dat5 (F := Ideal) V c).arrAt 7 cfg5.N : S50000x256.Idx → EReal)
      = Cert.Spec.bnTanh (V c main_v69) (V c main_v73) (V c main_v80) (V c main_v81) (V c main_v82) (V c main_arg19) (V c main_v83) :=
  (dat5 (F := Ideal) V c).arrAt_eq_of_cover 7 _ (fun t _ => flushed5_eq V c t) cover5

end Cert.KernelIdeal.RegionValue

end
-- ==== Proof.BridgeA1.lean ====
/-
  The first layer's first product, on both programs: for node r and feature j,
  z r j = ∑ₖ (x r k + agg r k) · w k j + b j, where agg is the sum, over the edges into r, of the source nodes' rows.
  The kernel's program forms agg with the same host operations as the reference and hands the bias over as a
  one-row matrix; the reference adds first, multiplies, and adds the bias repeated over the rows.  Read at an index
  the two sides are the same expression: nothing is reordered.
-/
import proofs.«127452_j31147102830955_1_alg».proof.Proof.KStages
import proofs.«127452_j31147102830955_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.Bridge

open Cert.KernelIdeal.Stages Idealize.ShloMosaic Idealize.ShloMosaic.ValueIdx

/-- The first layer's first product, read at an index on both sides: the reference adds the neighbour sums to the
    features, multiplies by the weights (a sum over the 128 input features) and adds the bias repeated over the rows;
    the target function is that formula.  `agg` is the neighbour sums and `b` the bias as a one-row matrix. -/
theorem lin128_eq_ref (x0 : (⟨Cert.ReferenceIdeal.S50000x128, .f32⟩ : BufTy).Contents (Elt Ideal)) (x1 : (⟨Cert.ReferenceIdeal.S2x800000, .i32⟩ : BufTy).Contents (Elt Ideal))
    (x3 : (⟨Cert.ReferenceIdeal.S128x256, .f32⟩ : BufTy).Contents (Elt Ideal)) (x4 : (⟨Cert.ReferenceIdeal.S256, .f32⟩ : BufTy).Contents (Elt Ideal))
    (agg : (⟨Cert.ReferenceIdeal.S50000x128, .f32⟩ : BufTy).Contents (Elt Ideal)) (b : (⟨Cert.ReferenceIdeal.S1x256, .f32⟩ : BufTy).Contents (Elt Ideal))
    (hagg : agg = Cert.ReferenceIdeal.Read.val_main_v13 (F := Ideal) x0 x1) (hb : ∀ j : Fin 256, b (ix2 (0 : Fin 1) j) = x4 (ix1 j)) :
    Cert.Spec.lin128 x0 agg x3 b = Cert.ReferenceIdeal.Read.val_main_v18 (F := Ideal) x0 x1 x3 x4 := by
  subst hagg
  funext i
  obtain ⟨r, j, rfl⟩ : ∃ (r : Fin 50000) (j : Fin 256), i = ix2 r j := ⟨i 0, i 1, eq_ix2 i⟩
  rw [Cert.ReferenceIdeal.Read.val_main_v18_apply, Cert.ReferenceIdeal.Read.val_main_v15_apply, Cert.ReferenceIdeal.Read.val_main_v17_apply, Cert.ReferenceIdeal.Read.val_main_v16_apply]
  simp only [Cert.ReferenceIdeal.Read.val_main_v14_apply]
  have hl : ∀ k : Fin 128, Cert.ReferenceIdeal.Read.lidx_main_v15 (ix2 r j) k = ix2 r k := fun k =>
    funext fun a => Fin.ext (by match a with | ⟨0, _⟩ => rfl | ⟨1, _⟩ => rfl)
  have hr : ∀ k : Fin 128, Cert.ReferenceIdeal.Read.ridx_main_v15 (ix2 r j) k = ix2 k j := fun k =>
    funext fun a => Fin.ext (by match a with | ⟨0, _⟩ => rfl | ⟨1, _⟩ => rfl)
  have hi : Cert.ReferenceIdeal.Read.idx_main_v16 (Cert.ReferenceIdeal.Read.idx_main_v17 (ix2 r j)) = ix1 j :=
    funext fun a => Fin.ext (by match a with | ⟨0, _⟩ => rfl)
  simp only [hl, hr, hi]
  show (∑ k : Fin 128, (x0 (ix2 r k) + Cert.ReferenceIdeal.Read.val_main_v13 (F := Ideal) x0 x1 (ix2 r k)) * x3 (ix2 k j)) + b (ix2 (0 : Fin 1) j) = _
  rw [hb j]
  rfl

/-- The first layer's neighbour sums: both programs apply the same chain of operations (source and destination
    vectors cut out of the edge list, negative indices wrapped, rows gathered and added at their destinations) to the
    same two arguments. -/
theorem agg1_eq (m : (ℓ : Loc Cert.KernelIdeal.nD Cert.KernelIdeal.τ Cert.KernelIdeal.sig) → Buf (Elt Ideal) ℓ) (c : Dev Cert.KernelIdeal.nD) :
    k_v13 specRegs m c = Cert.ReferenceIdeal.Read.val_main_v13 (F := Ideal) (k_arg0 specRegs m c) (k_arg1 specRegs m c) := rfl

/-- The first product of layer 1: the kernel's stage is the reference's. -/
theorem Z1_eq (m : (ℓ : Loc Cert.KernelIdeal.nD Cert.KernelIdeal.τ Cert.KernelIdeal.sig) → Buf (Elt Ideal) ℓ) (c : Dev Cert.KernelIdeal.nD) :
    k_v15 specRegs m c = Cert.ReferenceIdeal.Read.val_main_v18 (F := Ideal) (k_arg0 specRegs m c) (k_arg1 specRegs m c) (k_arg3 specRegs m c) (k_arg4 specRegs m c) :=
  lin128_eq_ref (k_arg0 specRegs m c) (k_arg1 specRegs m c) (k_arg3 specRegs m c) (k_arg4 specRegs m c) (k_v13 specRegs m c) (k_v14 specRegs m c)
    (agg1_eq m c) (fun j => shapeCast_a_1a_apply (k_arg4 specRegs m c) _ (0 : Fin 1) j)

end Cert.Bridge

end
-- ==== Proof.BridgeA2.lean ====
/-
  The second layer's first product, on both programs: for node r and feature j,
  z r j = ∑ₖ (h r k + agg r k) · w k j + b j, where h is the first layer's output and agg is the sum, over the edges
  into r, of the source nodes' rows of h.  The kernel's program forms agg with the same host operations as the reference
  (reusing the edge list's source and destination vectors where the reference cuts them out again) and hands the bias
  over as a one-row matrix; the reference adds first, multiplies, and adds the bias repeated over the rows.  Read at an
  index the two sides are the same expression: nothing is reordered.  The first layer's outputs are assumed equal.
-/
import proofs.«127452_j31147102830955_1_alg».proof.Proof.KStages
import proofs.«127452_j31147102830955_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.Bridge

open Cert.KernelIdeal.Stages Idealize.ShloMosaic Idealize.ShloMosaic.ValueIdx

/-- The second layer's first product, read at an index on both sides: the reference adds the neighbour sums `agg` to the
    previous layer's output `h`, multiplies by the weights (a sum over the 256 features) and adds the bias repeated over
    the rows; the target function is that formula, with the bias `b` as a one-row matrix. -/
theorem lin256_eq_ref2 (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal))
    (h agg : (⟨Cert.ReferenceIdeal.S50000x256, .f32⟩ : BufTy).Contents (Elt Ideal)) (b : (⟨Cert.ReferenceIdeal.S1x256, .f32⟩ : BufTy).Contents (Elt Ideal))
    (hh : h = Cert.ReferenceIdeal.Read.val_main_v49 (F := Ideal) x0 x1 x3 x4 x5 x6 x7 x8)
    (hagg : agg = Cert.ReferenceIdeal.Read.val_main_v63 (F := Ideal) x0 x1 x3 x4 x5 x6 x7 x8) (hb : ∀ j : Fin 256, b (ix2 (0 : Fin 1) j) = x10 (ix1 j)) :
    Cert.Spec.lin256 h agg x9 b = Cert.ReferenceIdeal.Read.val_main_v68 (F := Ideal) x0 x1 x3 x4 x5 x6 x7 x8 x9 x10 := by
  subst hh hagg
  funext i
  obtain ⟨r, j, rfl⟩ : ∃ (r : Fin 50000) (j : Fin 256), i = ix2 r j := ⟨i 0, i 1, eq_ix2 i⟩
  rw [Cert.ReferenceIdeal.Read.val_main_v68_apply, Cert.ReferenceIdeal.Read.val_main_v65_apply, Cert.ReferenceIdeal.Read.val_main_v67_apply, Cert.ReferenceIdeal.Read.val_main_v66_apply]
  simp only [Cert.ReferenceIdeal.Read.val_main_v64_apply]
  have hl : ∀ k : Fin 256, Cert.ReferenceIdeal.Read.lidx_main_v65 (ix2 r j) k = ix2 r k := fun k =>
    funext fun a => Fin.ext (by match a with | ⟨0, _⟩ => rfl | ⟨1, _⟩ => rfl)
  have hr : ∀ k : Fin 256, Cert.ReferenceIdeal.Read.ridx_main_v65 (ix2 r j) k = ix2 k j := fun k =>
    funext fun a => Fin.ext (by match a with | ⟨0, _⟩ => rfl | ⟨1, _⟩ => rfl)
  have hi : Cert.ReferenceIdeal.Read.idx_main_v66 (Cert.ReferenceIdeal.Read.idx_main_v67 (ix2 r j)) = ix1 j :=
    funext fun a => Fin.ext (by match a with | ⟨0, _⟩ => rfl)
  simp only [hl, hr, hi]
  show (∑ k : Fin 256, (Cert.ReferenceIdeal.Read.val_main_v49 (F := Ideal) x0 x1 x3 x4 x5 x6 x7 x8 (ix2 r k) + Cert.ReferenceIdeal.Read.val_main_v63 (F := Ideal) x0 x1 x3 x4 x5 x6 x7 x8 (ix2 r k)) * x9 (ix2 k j)) + b (ix2 (0 : Fin 1) j) = _
  rw [hb j]
  rfl

/-- The second layer's neighbour sums: the same chain of operations on both sides, applied to the first layer's output;
    the kernel's program reuses the source and destination vectors it cut out of the edge list for the first layer, the
    reference cuts them out again. -/
theorem agg2_eq (m : (ℓ : Loc Cert.KernelIdeal.nD Cert.KernelIdeal.τ Cert.KernelIdeal.sig) → Buf (Elt Ideal) ℓ) (c : Dev Cert.KernelIdeal.nD)
    (hH : k_v30 specRegs m c = Cert.ReferenceIdeal.Read.val_main_v49 (F := Ideal) (k_arg0 specRegs m c) (k_arg1 specRegs m c) (k_arg3 specRegs m c) (k_arg4 specRegs m c) (k_arg5 specRegs m c) (k_arg6 specRegs m c) (k_arg7 specRegs m c) (k_arg8 specRegs m c)) :
    k_v40 specRegs m c = Cert.ReferenceIdeal.Read.val_main_v63 (F := Ideal) (k_arg0 specRegs m c) (k_arg1 specRegs m c) (k_arg3 specRegs m c) (k_arg4 specRegs m c) (k_arg5 specRegs m c) (k_arg6 specRegs m c) (k_arg7 specRegs m c) (k_arg8 specRegs m c) := by
  unfold k_v40 k_v37
  rw [hH]
  rfl

/-- The first product of layer 2: the kernel's stage is the reference's, given that the first layer's outputs agree. -/
theorem Z2_eq (m : (ℓ : Loc Cert.KernelIdeal.nD Cert.KernelIdeal.τ Cert.KernelIdeal.sig) → Buf (Elt Ideal) ℓ) (c : Dev Cert.KernelIdeal.nD)
    (hH : k_v30 specRegs m c = Cert.ReferenceIdeal.Read.val_main_v49 (F := Ideal) (k_arg0 specRegs m c) (k_arg1 specRegs m c) (k_arg3 specRegs m c) (k_arg4 specRegs m c) (k_arg5 specRegs m c) (k_arg6 specRegs m c) (k_arg7 specRegs m c) (k_arg8 specRegs m c)) :
    k_v42 specRegs m c = Cert.ReferenceIdeal.Read.val_main_v68 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) :=
  lin256_eq_ref2 (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_v30 specRegs m c) (k_v40 specRegs m c) (k_v41 specRegs m c)
    hH (agg2_eq m c hH) (fun j => shapeCast_a_1a_apply (k_arg10 specRegs m c) _ (0 : Fin 1) j)

end Cert.Bridge

end
-- ==== Proof.BridgeA3.lean ====
/-
  The third layer's first product, on both programs: for node r and feature j,
  z r j = ∑ₖ (h r k + agg r k) · w k j + b j, where h is the second layer's output and agg is the sum, over the edges
  into r, of the source nodes' rows of h.  The kernel's program forms agg with the same host operations as the reference
  (reusing the edge list's source and destination vectors where the reference cuts them out again) and hands the bias
  over as a one-row matrix; the reference adds first, multiplies, and adds the bias repeated over the rows.  Read at an
  index the two sides are the same expression: nothing is reordered.  The second layer's outputs are assumed equal.
-/
import proofs.«127452_j31147102830955_1_alg».proof.Proof.KStages
import proofs.«127452_j31147102830955_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.Bridge

open Cert.KernelIdeal.Stages Idealize.ShloMosaic Idealize.ShloMosaic.ValueIdx

/-- The third layer's first product, read at an index on both sides: the reference adds the neighbour sums `agg` to the
    previous layer's output `h`, multiplies by the weights (a sum over the 256 features) and adds the bias repeated over
    the rows; the target function is that formula, with the bias `b` as a one-row matrix. -/
theorem lin256_eq_ref3 (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal)) (x11 : (⟨Cert.ReferenceIdeal.S256, .f32⟩ : BufTy).Contents (Elt Ideal)) (x12 : (⟨Cert.ReferenceIdeal.S256, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x256, .f32⟩ : BufTy).Contents (Elt Ideal)) (x16 : (⟨Cert.ReferenceIdeal.S256, .f32⟩ : BufTy).Contents (Elt Ideal))
    (h agg : (⟨Cert.ReferenceIdeal.S50000x256, .f32⟩ : BufTy).Contents (Elt Ideal)) (b : (⟨Cert.ReferenceIdeal.S1x256, .f32⟩ : BufTy).Contents (Elt Ideal))
    (hh : h = Cert.ReferenceIdeal.Read.val_main_v100 (F := Ideal) x0 x1 x3 x4 x5 x6 x7 x8 x9 x10 x11 x12 x13 x14)
    (hagg : agg = Cert.ReferenceIdeal.Read.val_main_v114 (F := Ideal) x0 x1 x3 x4 x5 x6 x7 x8 x9 x10 x11 x12 x13 x14) (hb : ∀ j : Fin 256, b (ix2 (0 : Fin 1) j) = x16 (ix1 j)) :
    Cert.Spec.lin256 h agg x15 b = Cert.ReferenceIdeal.Read.val_main_v119 (F := Ideal) x0 x1 x3 x4 x5 x6 x7 x8 x9 x10 x11 x12 x13 x14 x15 x16 := by
  subst hh hagg
  funext i
  obtain ⟨r, j, rfl⟩ : ∃ (r : Fin 50000) (j : Fin 256), i = ix2 r j := ⟨i 0, i 1, eq_ix2 i⟩
  rw [Cert.ReferenceIdeal.Read.val_main_v119_apply, Cert.ReferenceIdeal.Read.val_main_v116_apply, Cert.ReferenceIdeal.Read.val_main_v118_apply, Cert.ReferenceIdeal.Read.val_main_v117_apply]
  simp only [Cert.ReferenceIdeal.Read.val_main_v115_apply]
  have hl : ∀ k : Fin 256, Cert.ReferenceIdeal.Read.lidx_main_v116 (ix2 r j) k = ix2 r k := fun k =>
    funext fun a => Fin.ext (by match a with | ⟨0, _⟩ => rfl | ⟨1, _⟩ => rfl)
  have hr : ∀ k : Fin 256, Cert.ReferenceIdeal.Read.ridx_main_v116 (ix2 r j) k = ix2 k j := fun k =>
    funext fun a => Fin.ext (by match a with | ⟨0, _⟩ => rfl | ⟨1, _⟩ => rfl)
  have hi : Cert.ReferenceIdeal.Read.idx_main_v117 (Cert.ReferenceIdeal.Read.idx_main_v118 (ix2 r j)) = ix1 j :=
    funext fun a => Fin.ext (by match a with | ⟨0, _⟩ => rfl)
  simp only [hl, hr, hi]
  show (∑ k : Fin 256, (Cert.ReferenceIdeal.Read.val_main_v100 (F := Ideal) x0 x1 x3 x4 x5 x6 x7 x8 x9 x10 x11 x12 x13 x14 (ix2 r k) + Cert.ReferenceIdeal.Read.val_main_v114 (F := Ideal) x0 x1 x3 x4 x5 x6 x7 x8 x9 x10 x11 x12 x13 x14 (ix2 r k)) * x15 (ix2 k j)) + b (ix2 (0 : Fin 1) j) = _
  rw [hb j]
  rfl

/-- The third layer's neighbour sums: the same chain of operations on both sides, applied to the second layer's output;
    the kernel's program reuses the source and destination vectors of the first layer, the reference cuts them out again. -/
theorem agg3_eq (m : (ℓ : Loc Cert.KernelIdeal.nD Cert.KernelIdeal.τ Cert.KernelIdeal.sig) → Buf (Elt Ideal) ℓ) (c : Dev Cert.KernelIdeal.nD)
    (hH : k_v57 specRegs m c = Cert.ReferenceIdeal.Read.val_main_v100 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c)) :
    k_v67 specRegs m c = Cert.ReferenceIdeal.Read.val_main_v114 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c) := by
  unfold k_v67 k_v64
  rw [hH]
  rfl

/-- The first product of layer 3: the kernel's stage is the reference's, given that the second layer's outputs agree. -/
theorem Z3_eq (m : (ℓ : Loc Cert.KernelIdeal.nD Cert.KernelIdeal.τ Cert.KernelIdeal.sig) → Buf (Elt Ideal) ℓ) (c : Dev Cert.KernelIdeal.nD)
    (hH : k_v57 specRegs m c = Cert.ReferenceIdeal.Read.val_main_v100 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c)) :
    k_v69 specRegs m c = Cert.ReferenceIdeal.Read.val_main_v119 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c) (k_arg15 specRegs m c) (k_arg16 specRegs m c) :=
  lin256_eq_ref3 (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c) (k_arg15 specRegs m c) (k_arg16 specRegs m c) (k_v57 specRegs m c) (k_v67 specRegs m c) (k_v68 specRegs m c)
    hH (agg3_eq m c hH) (fun j => shapeCast_a_1a_apply (k_arg16 specRegs m c) _ (0 : Fin 1) j)

end Cert.Bridge

end
-- ==== Proof.BridgeBCore.lean ====
/-
  One normalising layer from its first product `z` on, written twice and shown to be one function.

  Both programs take the column means of `z` (50000 rows, 256 columns), the column means of the squared deviations,
  normalise each entry by its column's mean and variance (plus a small guard under the reciprocal square root), scale,
  shift, clip at zero, multiply by a 256 × 256 matrix and add a bias. They differ only in where the per-column numbers
  live: one program keeps the mean and the variance as one-row matrices (divides after spreading the column sums into a
  row) and takes the scale, shift and bias as one-row reshapes of the vectors; the other keeps them as vectors (divides
  first) and spreads them into rows afterwards. Entry `(0, k)` of a row and entry `k` of the vector are the same number,
  so entry `(r, j)` of the two results is the same sum over `k` of the same products. No operation is reordered.
-/
import proofs.«127452_j31147102830955_1_alg».proof.Proof.KStages
import proofs.«127452_j31147102830955_1_alg».proof.Proof.RefRead
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx

/-! ## Shapes and the side conditions of the layout operations -/

abbrev BZ : Shape := ⟨2, ![50000, 256]⟩
abbrev BRow : Shape := ⟨2, ![1, 256]⟩
abbrev BVec : Shape := ⟨1, ![256]⟩
abbrev BMat : Shape := ⟨2, ![256, 256]⟩
abbrev BS0 : Shape := ⟨0, ![]⟩

theorem bn_hred : BZ.ReducesTo [0] BVec := by decide
theorem bn_h0 : 0 < BS0.numel := by decide
theorem bn_hb1 : BVec.BroadcastsInDim BRow (![1] : Fin 1 → Fin BRow.rank) := by decide
theorem bn_hb2 : BRow.BroadcastsInDim BZ (![0, 1] : Fin 2 → Fin BZ.rank) := by decide
theorem bn_hbr0 : BS0.BroadcastsInDim BRow (![] : Fin 0 → Fin BRow.rank) := by decide
theorem bn_hbv0 : BS0.BroadcastsInDim BVec (![] : Fin 0 → Fin BVec.rank) := by decide
theorem bn_hbz0 : BS0.BroadcastsInDim BZ (![] : Fin 0 → Fin BZ.rank) := by decide
theorem bn_hc : BVec.ShapeCasts BRow := by decide

/-! ## The layout operations at an index -/

/-- A vector spread into a one-row matrix: entry `(a, k)` is the vector's entry `k`. -/
theorem bn_bc1_apply {α : Type} (v : BVec.Idx → α) (h : BVec.BroadcastsInDim BRow (![1] : Fin 1 → Fin BRow.rank)) (a : Fin 1) (k : Fin 256) :
    broadcastInDim BRow ![1] h v (ix2 a k) = v (ix1 k) :=
  broadcastInDim_apply _ h v (ix2 a k) (ix1 k) (fun x => match x with
    | ⟨0, _⟩ => by show k.val = if (256 : Nat) = 1 then 0 else k.val; rw [if_neg (by decide)])

/-- A one-row matrix spread down 50000 rows: entry `(r, k)` is the row's entry `(0, k)`. -/
theorem bn_bc2_apply {α : Type} (v : BRow.Idx → α) (h : BRow.BroadcastsInDim BZ (![0, 1] : Fin 2 → Fin BZ.rank)) (r : Fin 50000) (k : Fin 256) :
    broadcastInDim BZ ![0, 1] h v (ix2 r k) = v (ix2 (0 : Fin 1) k) :=
  broadcastInDim_apply _ h v (ix2 r k) (ix2 (0 : Fin 1) k) (fun x => match x with
    | ⟨0, _⟩ => by show 0 = if (1 : Nat) = 1 then 0 else r.val; rw [if_pos rfl]
    | ⟨1, _⟩ => by show k.val = if (256 : Nat) = 1 then 0 else k.val; rw [if_neg (by decide)])

/-- A vector reshaped to a one-row matrix: entry `(0, k)` is the vector's entry `k`. -/
theorem bn_cast_apply {α : Type} (v : BVec.Idx → α) (h : BVec.ShapeCasts BRow) (k : Fin 256) :
    shapeCast BRow v h (ix2 (0 : Fin 1) k) = v (ix1 k) :=
  shapeCast_apply v h (ix2 (0 : Fin 1) k) (ix1 k) (by
    rw [Shape.rowMajor_val_one, Shape.rowMajor_val_two]
    show k.val = 0 * 256 + k.val
    omega)

/-- The second product at `(r, j)`: the sum over `k` of the left factor's `(r, k)` times the right factor's `(k, j)`. -/
theorem bn_dot_apply (L : FVec Ideal BZ .f32) (W : FVec Ideal BMat .f32) (r : Fin 50000) (j : Fin 256) :
    Host.dotGeneral Cert.ReferenceIdeal.dot_S50000x256_S256x256_S50000x256_1_0_0_1_n_n none L W (ix2 r j)
      = ∑ k : Fin 256, L (ix2 r k) * W (ix2 k j) := by
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  have hk := contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 r j) ((contrEquiv1 Cert.ReferenceIdeal.dot_S50000x256_S256x256_S50000x256_1_0_0_1_n_n 256 rfl rfl).symm k) = ix2 r k := funext fun a => Fin.ext (by
    match a with
    | ⟨0, _⟩ => exact Cert.ReferenceIdeal.Read.lhs_main_v45_0 _ _
    | ⟨1, _⟩ => exact (Cert.ReferenceIdeal.Read.lhs_main_v45_1 _ _).trans hk)
  have er : Cert.ReferenceIdeal.dot_S50000x256_S256x256_S50000x256_1_0_0_1_n_n.rhsIdx (ix2 r j) ((contrEquiv1 Cert.ReferenceIdeal.dot_S50000x256_S256x256_S50000x256_1_0_0_1_n_n 256 rfl rfl).symm k) = ix2 k j := funext fun a => Fin.ext (by
    match a with
    | ⟨0, _⟩ => exact (Cert.ReferenceIdeal.Read.rhs_main_v45_0 _ _).trans hk
    | ⟨1, _⟩ => exact Cert.ReferenceIdeal.Read.rhs_main_v45_1 _ _)
  rw [el, er]

/-! ## The column statistics, as a row and as a vector -/

/-- Column sums over the 50000 rows, spread into a row, divided by the row of 50000s. -/
def statRow (Y : FVec Ideal BZ .f32) : FVec Ideal BRow .f32 :=
  Host.divf (broadcastInDim BRow ![1] bn_hb1 (Host.reduceAdd Y (constant (F := Ideal) BS0 .f32 0x00000000#32) bn_hred bn_h0))
    (broadcastInDim BRow ![] bn_hbr0 (constant (F := Ideal) BS0 .f32 0x47435000#32))

/-- Column sums over the 50000 rows, divided by the vector of 50000s. -/
def statVec (Y : FVec Ideal BZ .f32) : FVec Ideal BVec .f32 :=
  Host.divf (Host.reduceAdd Y (constant (F := Ideal) BS0 .f32 0x00000000#32) bn_hred bn_h0)
    (broadcastInDim BVec ![] bn_hbv0 (constant (F := Ideal) BS0 .f32 0x47435000#32))

/-- The squared deviation of every entry from its column's mean, the means given as a row. -/
def sqDev (Z : FVec Ideal BZ .f32) (mu : FVec Ideal BRow .f32) : FVec Ideal BZ .f32 :=
  mulf (subf Z (broadcastInDim BZ ![0, 1] bn_hb2 mu)) (subf Z (broadcastInDim BZ ![0, 1] bn_hb2 mu))

/-- Entry `(0, k)` of the row is entry `k` of the vector: the same column sum divided by the same 50000. -/
theorem statRow_apply (Y : FVec Ideal BZ .f32) (a : Fin 1) (k : Fin 256) : statRow Y (ix2 a k) = statVec Y (ix1 k) := by
  show FloatOps.hostDivf (broadcastInDim BRow ![1] bn_hb1 (Host.reduceAdd Y (constant (F := Ideal) BS0 .f32 0x00000000#32) bn_hred bn_h0) (ix2 a k)) _
    = FloatOps.hostDivf (Host.reduceAdd Y (constant (F := Ideal) BS0 .f32 0x00000000#32) bn_hred bn_h0 (ix1 k)) _
  rw [bn_bc1_apply]
  rfl

/-- So the row is the vector spread into a row. -/
theorem statRow_eq (Y : FVec Ideal BZ .f32) : statRow Y = broadcastInDim BRow ![1] bn_hb1 (statVec Y) := by
  funext i
  obtain ⟨a, k, rfl⟩ : ∃ (a : Fin 1) (k : Fin 256), i = ix2 a k := ⟨i 0, i 1, eq_ix2 i⟩
  rw [statRow_apply, bn_bc1_apply]

/-! ## The layer, both ways -/

/-- The layer with the statistics kept as rows and the vectors reshaped to rows. -/
def kerLayer (Z : FVec Ideal BZ .f32) (ga be : FVec Ideal BVec .f32) (W : FVec Ideal BMat .f32) (b : FVec Ideal BVec .f32) : FVec Ideal BZ .f32 :=
  Cert.Spec.bnPre Z (statRow Z) (statRow (sqDev Z (statRow Z))) (shapeCast BRow ga bn_hc) (shapeCast BRow be bn_hc) W (shapeCast BRow b bn_hc)

/-- The layer with the statistics kept as vectors, every per-column vector spread to a row and then down the rows. -/
def refLayer (Z : FVec Ideal BZ .f32) (ga be : FVec Ideal BVec .f32) (W : FVec Ideal BMat .f32) (b : FVec Ideal BVec .f32) : FVec Ideal BZ .f32 :=
  addf
    (Host.dotGeneral Cert.ReferenceIdeal.dot_S50000x256_S256x256_S50000x256_1_0_0_1_n_n none
      (maximumf
        (addf
          (mulf
            (mulf (subf Z (broadcastInDim BZ ![0, 1] bn_hb2 (broadcastInDim BRow ![1] bn_hb1 (statVec Z))))
              (broadcastInDim BZ ![0, 1] bn_hb2 (broadcastInDim BRow ![1] bn_hb1
                (Host.rsqrt (addf (statVec (sqDev Z (broadcastInDim BRow ![1] bn_hb1 (statVec Z))))
                  (broadcastInDim BVec ![] bn_hbv0 (constant (F := Ideal) BS0 .f32 0x3727C5AC#32)))))))
            (broadcastInDim BZ ![0, 1] bn_hb2 (broadcastInDim BRow ![1] bn_hb1 ga)))
          (broadcastInDim BZ ![0, 1] bn_hb2 (broadcastInDim BRow ![1] bn_hb1 be)))
        (broadcastInDim BZ ![] bn_hbz0 (constant (F := Ideal) BS0 .f32 0x00000000#32)))
      W)
    (broadcastInDim BZ ![0, 1] bn_hb2 (broadcastInDim BRow ![1] bn_hb1 b))

set_option maxHeartbeats 400000 in
/-- The two are one function. -/
theorem kerLayer_eq_refLayer (Z : FVec Ideal BZ .f32) (ga be : FVec Ideal BVec .f32) (W : FVec Ideal BMat .f32) (b : FVec Ideal BVec .f32) :
    kerLayer Z ga be W b = refLayer Z ga be W b := by
  funext i
  obtain ⟨r, j, rfl⟩ : ∃ (r : Fin 50000) (j : Fin 256), i = ix2 r j := ⟨i 0, i 1, eq_ix2 i⟩
  unfold kerLayer refLayer Cert.Spec.bnPre
  rw [addf_apply, bn_dot_apply, bn_bc2_apply, bn_bc1_apply]
  show (∑ k : Fin 256, _) + shapeCast BRow b bn_hc (ix2 (0 : Fin 1) j) = _
  rw [bn_cast_apply, ← statRow_eq]
  refine congrArg (· + b (ix1 j)) (Finset.sum_congr rfl fun k _ => ?_)
  rw [maximumf_apply, addf_apply, mulf_apply, mulf_apply, subf_apply, bn_bc2_apply, bn_bc2_apply, bn_bc2_apply, bn_bc2_apply,
    bn_bc1_apply, bn_bc1_apply, bn_bc1_apply, statRow_apply, statRow_apply, bn_cast_apply, bn_cast_apply]
  rfl

end Cert.Bridge

end
-- ==== Proof.BridgeB.lean ====
/-
  The three normalising layers, kernel program against reference program: given that the two programs agree on a
  layer's first product `z`, they agree on the layer's output. Each side's output is the shared layer function of
  `z` and of the layer's scale, shift, second weight matrix and second bias (read off each program by unfolding its
  operations in order), followed by a clip at zero (first layer), a hyperbolic tangent and a clip (second layer), or a
  hyperbolic tangent alone (third layer); the layer function written the kernel program's way and the reference
  program's way is one function.
-/
import proofs.«127452_j31147102830955_1_alg».proof.Proof.KStages
import proofs.«127452_j31147102830955_1_alg».proof.Proof.RefRead
import proofs.«127452_j31147102830955_1_alg».proof.Proof.BridgeBCore
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx

open Cert.KernelIdeal.Stages

set_option maxHeartbeats 400000 in
theorem H1_eq (m : (ℓ : Loc Cert.KernelIdeal.nD Cert.KernelIdeal.τ Cert.KernelIdeal.sig) → Buf (Elt Ideal) ℓ) (c : Dev Cert.KernelIdeal.nD)
    (hz : k_v15 specRegs m c = Cert.ReferenceIdeal.Read.val_main_v18 (F := Ideal) (k_arg0 specRegs m c) (k_arg1 specRegs m c) (k_arg3 specRegs m c) (k_arg4 specRegs m c)) :
    k_v30 specRegs m c = Cert.ReferenceIdeal.Read.val_main_v49 (F := Ideal) (k_arg0 specRegs m c) (k_arg1 specRegs m c) (k_arg3 specRegs m c) (k_arg4 specRegs m c) (k_arg5 specRegs m c) (k_arg6 specRegs m c) (k_arg7 specRegs m c) (k_arg8 specRegs m c) := by
  have eK : k_v30 specRegs m c
      = fun i => max (kerLayer (k_v15 specRegs m c) (k_arg5 specRegs m c) (k_arg6 specRegs m c) (k_arg7 specRegs m c) (k_arg8 specRegs m c) i) Cert.Spec.zero := rfl
  have eR : Cert.ReferenceIdeal.Read.val_main_v49 (F := Ideal) (k_arg0 specRegs m c) (k_arg1 specRegs m c) (k_arg3 specRegs m c) (k_arg4 specRegs m c) (k_arg5 specRegs m c) (k_arg6 specRegs m c) (k_arg7 specRegs m c) (k_arg8 specRegs m c)
      = fun i => max (refLayer (Cert.ReferenceIdeal.Read.val_main_v18 (F := Ideal) (k_arg0 specRegs m c) (k_arg1 specRegs m c) (k_arg3 specRegs m c) (k_arg4 specRegs m c)) (k_arg5 specRegs m c) (k_arg6 specRegs m c) (k_arg7 specRegs m c) (k_arg8 specRegs m c) i) Cert.Spec.zero := rfl
  rw [eK, eR, hz, kerLayer_eq_refLayer]

set_option maxHeartbeats 400000 in
theorem H2_eq (m : (ℓ : Loc Cert.KernelIdeal.nD Cert.KernelIdeal.τ Cert.KernelIdeal.sig) → Buf (Elt Ideal) ℓ) (c : Dev Cert.KernelIdeal.nD)
    (hz : k_v42 specRegs m c = Cert.ReferenceIdeal.Read.val_main_v68 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c)) :
    k_v57 specRegs m c = Cert.ReferenceIdeal.Read.val_main_v100 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c) := by
  have eK : k_v57 specRegs m c
      = fun i => max (Ideal.tanh (kerLayer (k_v42 specRegs m c) (k_arg11 specRegs m c) (k_arg12 specRegs m c) (k_arg13 specRegs m c) (k_arg14 specRegs m c) i)) Cert.Spec.zero := rfl
  have eR : Cert.ReferenceIdeal.Read.val_main_v100 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c)
      = fun i => max (Ideal.tanh (refLayer (Cert.ReferenceIdeal.Read.val_main_v68 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c)) (k_arg11 specRegs m c) (k_arg12 specRegs m c) (k_arg13 specRegs m c) (k_arg14 specRegs m c) i)) Cert.Spec.zero := rfl
  rw [eK, eR, hz, kerLayer_eq_refLayer]

set_option maxHeartbeats 400000 in
theorem H3_eq (m : (ℓ : Loc Cert.KernelIdeal.nD Cert.KernelIdeal.τ Cert.KernelIdeal.sig) → Buf (Elt Ideal) ℓ) (c : Dev Cert.KernelIdeal.nD)
    (hz : k_v69 specRegs m c = Cert.ReferenceIdeal.Read.val_main_v119 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c) (k_arg15 specRegs m c) (k_arg16 specRegs m c)) :
    k_v84 specRegs m c = Cert.ReferenceIdeal.Read.val_main_v150 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c) (k_arg15 specRegs m c) (k_arg16 specRegs m c) (k_arg17 specRegs m c) (k_arg18 specRegs m c) (k_arg19 specRegs m c) (k_arg20 specRegs m c) := by
  have eK : k_v84 specRegs m c
      = fun i => Ideal.tanh (kerLayer (k_v69 specRegs m c) (k_arg17 specRegs m c) (k_arg18 specRegs m c) (k_arg19 specRegs m c) (k_arg20 specRegs m c) i) := rfl
  have eR : Cert.ReferenceIdeal.Read.val_main_v150 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c) (k_arg15 specRegs m c) (k_arg16 specRegs m c) (k_arg17 specRegs m c) (k_arg18 specRegs m c) (k_arg19 specRegs m c) (k_arg20 specRegs m c)
      = fun i => Ideal.tanh (refLayer (Cert.ReferenceIdeal.Read.val_main_v119 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c) (k_arg15 specRegs m c) (k_arg16 specRegs m c)) (k_arg17 specRegs m c) (k_arg18 specRegs m c) (k_arg19 specRegs m c) (k_arg20 specRegs m c) i) := rfl
  rw [eK, eR, hz, kerLayer_eq_refLayer]

end Cert.Bridge

end
-- ==== Proof.BridgeTail.lean ====
/-
  After the third layer both programs pool and project in the same way: the layer's rows are summed per graph
  (a scatter-add by the graph index), divided by the graph's node count clipped below at one, multiplied by the first
  head matrix, shifted, clipped at zero, multiplied by the second head matrix and shifted.  These are the same
  operations of the same arrays in both programs, so once the third layer's outputs agree the results agree; and the
  three layers agree one after the other, each from the agreement of the one before.
-/
import proofs.«127452_j31147102830955_1_alg».proof.Proof.KStages
import proofs.«127452_j31147102830955_1_alg».proof.Proof.RefRead

noncomputable section

namespace Cert.Bridge

open Cert.KernelIdeal.Stages Idealize.ShloMosaic Idealize.ShloMosaic.TcCoe Idealize.SL.Sem

/-- The pooled and projected result: equal once the third layer's outputs are. -/
theorem out_eq (m : (ℓ : Loc Cert.KernelIdeal.nD Cert.KernelIdeal.τ Cert.KernelIdeal.sig) → Buf (Elt Ideal) ℓ) (c : Dev Cert.KernelIdeal.nD)
    (hH : k_v84 specRegs m c = Cert.ReferenceIdeal.Read.val_main_v150 (F := Ideal) (k_arg0 specRegs m c) (k_arg1 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c) (k_arg15 specRegs m c) (k_arg16 specRegs m c) (k_arg17 specRegs m c) (k_arg18 specRegs m c) (k_arg19 specRegs m c) (k_arg20 specRegs m c)) :
    k_v105 specRegs m c = Cert.ReferenceIdeal.Read.val_main_v171 (F := Ideal) (k_arg0 specRegs m c) (k_arg1 specRegs m c) (k_arg2 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c) (k_arg15 specRegs m c) (k_arg16 specRegs m c) (k_arg17 specRegs m c) (k_arg18 specRegs m c) (k_arg19 specRegs m c) (k_arg20 specRegs m c) (k_arg21 specRegs m c) (k_arg22 specRegs m c) (k_arg23 specRegs m c) (k_arg24 specRegs m c) := by
  simp only [k_cst_19, k_v85, k_v86, k_v87, k_cst_20, k_v88, k_cst_21, k_v89, k_v90, k_v91, k_cst_22, k_v92, k_v93, k_v94, k_v95, k_v96, k_v97, k_v98, k_v99, k_v100, k_call0_cst, k_call0_v0, k_v101, k_v102, k_v103, k_v104, k_v105]
  rw [hH]
  rfl

end Cert.Bridge

end
-- ==== Proof.Bridge.lean ====
/-
  The two programs' last stages are equal: the first layer's first products agree, hence its outputs, hence the second
  layer's neighbour sums and first products, and so on through the third layer and the pooled head.
-/
import proofs.«127452_j31147102830955_1_alg».proof.Proof.BridgeA1
import proofs.«127452_j31147102830955_1_alg».proof.Proof.BridgeA2
import proofs.«127452_j31147102830955_1_alg».proof.Proof.BridgeA3
import proofs.«127452_j31147102830955_1_alg».proof.Proof.BridgeB
import proofs.«127452_j31147102830955_1_alg».proof.Proof.BridgeTail

noncomputable section

namespace Cert.Bridge

open Cert.KernelIdeal.Stages Idealize.ShloMosaic Idealize.ShloMosaic.TcCoe Idealize.SL.Sem

/-- The kernel's last stage is the reference's last stage, of the same arguments: layer after layer. -/
theorem stages_agree (m : (ℓ : Loc Cert.KernelIdeal.nD Cert.KernelIdeal.τ Cert.KernelIdeal.sig) → Buf (Elt Ideal) ℓ)
    (c : Dev Cert.KernelIdeal.nD) :
    k_v105 specRegs m c = Cert.ReferenceIdeal.Read.val_main_v171 (F := Ideal) (k_arg0 specRegs m c) (k_arg1 specRegs m c) (k_arg2 specRegs m c) (k_arg3 specRegs m c) (k_arg4 specRegs m c) (k_arg5 specRegs m c) (k_arg6 specRegs m c) (k_arg7 specRegs m c) (k_arg8 specRegs m c) (k_arg9 specRegs m c) (k_arg10 specRegs m c) (k_arg11 specRegs m c) (k_arg12 specRegs m c) (k_arg13 specRegs m c) (k_arg14 specRegs m c) (k_arg15 specRegs m c) (k_arg16 specRegs m c) (k_arg17 specRegs m c) (k_arg18 specRegs m c) (k_arg19 specRegs m c) (k_arg20 specRegs m c) (k_arg21 specRegs m c) (k_arg22 specRegs m c) (k_arg23 specRegs m c) (k_arg24 specRegs m c) :=
  out_eq m c (H3_eq m c (Z3_eq m c (H2_eq m c (Z2_eq m c (H1_eq m c (Z1_eq m c))))))

end Cert.Bridge

end
-- ==== Proof.lean ====
/-
  The certificate: a three-layer graph network (neighbour sums, two matrix products per layer around a column-wise
  normalisation, a pooled head) computed by six row-blocked pallas_call regions among host operations, against the
  same network written as host operations only.

  The frames are the frame certificates of the two kernel programs and the reference's run.  The ideal pass rewrote
  nothing, so the kernel's idealization is its own text.  For the values: each region's output array is the
  specification's function of its input arrays, whatever the contents at its entry (RegionA0 … RegionB5: a block of 2000
  rows is that function read through the block, and the 25 blocks cover the rows); with each region taken as one
  operation the kernel program is one line of operations, whose result is the last of its named stages (KernelOps,
  KStages); the reference's result is the last of its stages (RefRun, RefRead); and the two last stages are equal
  because the stages agree layer after layer (BridgeA1 … BridgeA3, BridgeB, BridgeTail, Bridge): the first product of a layer is the
  reference's product-plus-bias read at an index, the column statistics are the same sums over all rows whether kept
  as a row [1, 256] or as a vector [256], and the normalised second product is the reference's chain of broadcasts and
  pointwise operations read at an index.  Nothing is regrouped, so the precondition is not used.
-/
import proofs.«127452_j31147102830955_1_alg».proof.Defs
import proofs.«127452_j31147102830955_1_alg».proof.Proof.Gen.Kernel
import proofs.«127452_j31147102830955_1_alg».proof.Proof.Gen.Kernel.Frame
import proofs.«127452_j31147102830955_1_alg».proof.Proof.Gen.KernelIdeal
import proofs.«127452_j31147102830955_1_alg».proof.Proof.Gen.KernelIdeal.Frame
import proofs.«127452_j31147102830955_1_alg».proof.Proof.Gen.ReferenceIdeal
import proofs.«127452_j31147102830955_1_alg».proof.Proof.Gen.Pre_finite_inputs
import proofs.«127452_j31147102830955_1_alg».proof.Proof.KernelRun
import proofs.«127452_j31147102830955_1_alg».proof.Proof.KernelOps
import proofs.«127452_j31147102830955_1_alg».proof.Proof.RegionA0
import proofs.«127452_j31147102830955_1_alg».proof.Proof.RegionA2
import proofs.«127452_j31147102830955_1_alg».proof.Proof.RegionA4
import proofs.«127452_j31147102830955_1_alg».proof.Proof.RegionB1
import proofs.«127452_j31147102830955_1_alg».proof.Proof.RegionB3
import proofs.«127452_j31147102830955_1_alg».proof.Proof.RegionB5
import proofs.«127452_j31147102830955_1_alg».proof.Proof.RefRun
import proofs.«127452_j31147102830955_1_alg».proof.Proof.Bridge
import Idealize.ShloMosaic.Adequacy
import Idealize.ShloMosaic.Init

noncomputable section

namespace Cert.Proof

open Idealize.ShloMosaic Idealize.SL.Sem Cert.KernelIdeal.Stages

/-- What every region leaves in its output array. -/
theorem finals : Cert.KernelIdeal.Flat.Finals :=
  ⟨fun V c => Cert.KernelIdeal.RegionValue.final0 V c, fun V c => Cert.KernelIdeal.RegionValue.final1 V c,
   fun V c => Cert.KernelIdeal.RegionValue.final2 V c, fun V c => Cert.KernelIdeal.RegionValue.final3 V c,
   fun V c => Cert.KernelIdeal.RegionValue.final4 V c, fun V c => Cert.KernelIdeal.RegionValue.final5 V c⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end, from memories agreeing on the arguments, with the kernel's last stage in their result
    buffers. -/
theorem algebraic : Cert.algebraic_KernelIdeal_ReferenceIdeal := by
  intro m ρ m' ρ' _ hagree
  refine ⟨fun c => k_v105 specRegs m c, ?_, ?_⟩
  · exact (θ_run Cert.KernelIdeal.defs _ _).mono
      (fun r h c => ⟨(h c).1.trans (Cert.KernelIdeal.Flat.result_eq m ρ finals c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24⟩ := hagree c
    rw [h0, h1, h2, h3, h4, h5, h6, h7, h8, h9, h10, h11, h12, h13, h14, h15, h16, h17, h18, h19, h20, h21, h22, h23, h24]
    exact (Cert.Bridge.stages_agree m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
